-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S128x64 .f32) (main_arg13 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S128 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_arg14 : IVec S500000 32) (main_arg15 : IVec S500000 32) (main_arg16 : IVec S500000 32) (main_arg17 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S500000 : Shape := ⟨1, ![500000]⟩
abbrev S_ : Shape := ⟨0, ![]⟩
abbrev S100000 : Shape := ⟨1, ![100000]⟩
abbrev S500000x1 : Shape := ⟨2, ![500000, 1]⟩
abbrev S1x128 : Shape := ⟨2, ![1, 128]⟩
abbrev S5000x128 : Shape := ⟨2, ![5000, 128]⟩
abbrev S500000x128 : Shape := ⟨2, ![500000, 128]⟩
abbrev S100000x1 : Shape := ⟨2, ![100000, 1]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩
abbrev S500000x64 : Shape := ⟨2, ![500000, 64]⟩

abbrev nBuf : Space → Nat
  | .hbm => 128
  | .vmem => 64
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S_, .f32⟩
  | .hbm, ⟨19, _⟩ => ⟨S500000, .f32⟩
  | .hbm, ⟨20, _⟩ => ⟨S_, .f32⟩
  | .hbm, ⟨21, _⟩ => ⟨S100000, .f32⟩
  | .hbm, ⟨22, _⟩ => ⟨S500000x1, .i32⟩
  | .hbm, ⟨23, _⟩ => ⟨S100000, .f32⟩
  | .hbm, ⟨24, _⟩ => ⟨S_, .f32⟩
  | .hbm, ⟨25, _⟩ => ⟨S500000, .f32⟩
  | .hbm, ⟨26, _⟩ => ⟨S_, .f32⟩
  | .hbm, ⟨27, _⟩ => ⟨S100000, .f32⟩
  | .hbm, ⟨28, _⟩ => ⟨S500000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .i1⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S1x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S500000, .i32⟩
  | .hbm, ⟨62, _⟩ => ⟨S500000, .i1⟩
  | .hbm, ⟨63, _⟩ => ⟨S_, .i32⟩
  | .hbm, ⟨64, _⟩ => ⟨S500000, .i32⟩
  | .hbm, ⟨65, _⟩ => ⟨S500000, .i32⟩
  | .hbm, ⟨66, _⟩ => ⟨S500000, .i32⟩
  | .hbm, ⟨67, _⟩ => ⟨S500000x1, .i32⟩
  | .hbm, ⟨68, _⟩ => ⟨S500000x128, .f32⟩
  | .hbm, ⟨69, _⟩ => ⟨S_, .f32⟩
  | .hbm, ⟨70, _⟩ => ⟨S100000x128, .f32⟩
  | .hbm, ⟨71, _⟩ => ⟨S500000x1, .i32⟩
  | .hbm, ⟨72, _⟩ => ⟨S100000x128, .f32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x128, .f32⟩
  | .hbm, ⟨82, _⟩ => ⟨S_, .f32⟩
  | .hbm, ⟨83, _⟩ => ⟨S100000x128, .f32⟩
  | .hbm, ⟨84, _⟩ => ⟨S500000x1, .i32⟩
  | .hbm, ⟨85, _⟩ => ⟨S100000x128, .f32⟩
  | .hbm, ⟨86, _⟩ => ⟨S100000x1, .f32⟩
  | .hbm, ⟨87, _⟩ => ⟨S1x128, .f32⟩
  | .hbm, ⟨88, _⟩ => ⟨S100000x128, .f32⟩
  | .hbm, ⟨89, _⟩ => ⟨S100000x1, .f32⟩
  | .hbm, ⟨90, _⟩ => ⟨S1x128, .f32⟩
  | .hbm, ⟨91, _⟩ => ⟨S100000x128, .f32⟩
  | .hbm, ⟨92, _⟩ => ⟨S1x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S_, .i32⟩
  | .hbm, ⟨97, _⟩ => ⟨S500000, .i32⟩
  | .hbm, ⟨98, _⟩ => ⟨S500000, .i1⟩
  | .hbm, ⟨99, _⟩ => ⟨S_, .i32⟩
  | .hbm, ⟨100, _⟩ => ⟨S500000, .i32⟩
  | .hbm, ⟨101, _⟩ => ⟨S500000, .i32⟩
  | .hbm, ⟨102, _⟩ => ⟨S500000, .i32⟩
  | .hbm, ⟨103, _⟩ => ⟨S500000x1, .i32⟩
  | .hbm, ⟨104, _⟩ => ⟨S500000x64, .f32⟩
  | .hbm, ⟨105, _⟩ => ⟨S_, .f32⟩
  | .hbm, ⟨106, _⟩ => ⟨S100000x64, .f32⟩
  | .hbm, ⟨107, _⟩ => ⟨S500000x1, .i32⟩
  | .hbm, ⟨108, _⟩ => ⟨S100000x64, .f32⟩
  | .hbm, ⟨109, _⟩ => ⟨S_, .i32⟩
  | .hbm, ⟨110, _⟩ => ⟨S500000, .i32⟩
  | .hbm, ⟨111, _⟩ => ⟨S500000, .i1⟩
  | .hbm, ⟨112, _⟩ => ⟨S_, .i32⟩
  | .hbm, ⟨113, _⟩ => ⟨S500000, .i32⟩
  | .hbm, ⟨114, _⟩ => ⟨S500000, .i32⟩
  | .hbm, ⟨115, _⟩ => ⟨S500000, .i32⟩
  | .hbm, ⟨116, _⟩ => ⟨S500000x1, .i32⟩
  | .hbm, ⟨117, _⟩ => ⟨S500000x64, .f32⟩
  | .hbm, ⟨118, _⟩ => ⟨S_, .f32⟩
  | .hbm, ⟨119, _⟩ => ⟨S100000x64, .f32⟩
  | .hbm, ⟨120, _⟩ => ⟨S500000x1, .i32⟩
  | .hbm, ⟨121, _⟩ => ⟨S100000x64, .f32⟩
  | .hbm, ⟨122, _⟩ => ⟨S100000x1, .f32⟩
  | .hbm, ⟨123, _⟩ => ⟨S1x64, .f32⟩
  | .hbm, ⟨124, _⟩ => ⟨S100000x64, .f32⟩
  | .hbm, ⟨125, _⟩ => ⟨S100000x1, .f32⟩
  | .hbm, ⟨126, _⟩ => ⟨S1x64, .f32⟩
  | .hbm, ⟨127, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x128, .f32⟩
  | .local _ .vmem, ⟨39, _⟩ => ⟨S5000x128, .f32⟩
  | .local _ .vmem, ⟨40, _⟩ => ⟨S128x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x1, .f32⟩
  | .local _ .vmem, ⟨47, _⟩ => ⟨S5000x1, .f32⟩
  | .local _ .vmem, ⟨48, _⟩ => ⟨S5000x128, .f32⟩
  | .local _ .vmem, ⟨49, _⟩ => ⟨S5000x128, .f32⟩
  | .local _ .vmem, ⟨50, _⟩ => ⟨S128x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x1, .f32⟩
  | .local _ .vmem, ⟨57, _⟩ => ⟨S5000x1, .f32⟩
  | .local _ .vmem, ⟨58, _⟩ => ⟨S5000x128, .f32⟩
  | .local _ .vmem, ⟨59, _⟩ => ⟨S5000x128, .f32⟩
  | .local _ .vmem, ⟨60, _⟩ => ⟨S128x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_v8 : Ref sig .tc := ⟨.hbm, 31, rfl⟩
abbrev main_v9 : Ref sig .tc := ⟨.hbm, 32, rfl⟩
abbrev main_cst_4 : Ref sig .tc := ⟨.hbm, 33, rfl⟩
abbrev main_v10 : Ref sig .tc := ⟨.hbm, 34, rfl⟩
abbrev main_v11 : Ref sig .tc := ⟨.hbm, 35, rfl⟩
abbrev main_cst_5 : Ref sig .tc := ⟨.hbm, 36, rfl⟩
abbrev main_v12 : Ref sig .tc := ⟨.hbm, 37, rfl⟩
abbrev main_v13 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_cst_7 : Ref sig .tc := ⟨.hbm, 43, rfl⟩
abbrev main_v15 : Ref sig .tc := ⟨.hbm, 44, rfl⟩
abbrev main_v16 : Ref sig .tc := ⟨.hbm, 45, rfl⟩
abbrev main_cst_8 : Ref sig .tc := ⟨.hbm, 46, rfl⟩
abbrev main_v17 : Ref sig .tc := ⟨.hbm, 47, rfl⟩
abbrev main_v18 : Ref sig .tc := ⟨.hbm, 48, rfl⟩
abbrev main_cst_9 : Ref sig .tc := ⟨.hbm, 49, rfl⟩
abbrev main_v19 : Ref sig .tc := ⟨.hbm, 50, rfl⟩
abbrev main_v20 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c : Ref sig .tc := ⟨.hbm, 60, rfl⟩
abbrev main_v26 : Ref sig .tc := ⟨.hbm, 61, rfl⟩
abbrev main_v27 : Ref sig .tc := ⟨.hbm, 62, rfl⟩
abbrev main_c_11 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_12 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_13 : Ref sig .tc := ⟨.hbm, 73, rfl⟩
abbrev main_v36 : Ref sig .tc := ⟨.hbm, 74, rfl⟩
abbrev main_v37 : Ref sig .tc := ⟨.hbm, 75, rfl⟩
abbrev main_c_14 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_15 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_16 : Ref sig .tc := ⟨.hbm, 96, rfl⟩
abbrev main_v56 : Ref sig .tc := ⟨.hbm, 97, rfl⟩
abbrev main_v57 : Ref sig .tc := ⟨.hbm, 98, rfl⟩
abbrev main_c_17 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_18 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_19 : Ref sig .tc := ⟨.hbm, 109, rfl⟩
abbrev main_v66 : Ref sig .tc := ⟨.hbm, 110, rfl⟩
abbrev main_v67 : Ref sig .tc := ⟨.hbm, 111, rfl⟩
abbrev main_c_20 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_21 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem4_0 : DmaSem sig := 61
abbrev cc7_sem5_0 : DmaSem sig := 62
abbrev cc7_sem5_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  scatter_S100000_S500000x1_S500000_n_0_0_1_wf : ScatterDims.WF S100000 S500000x1 S500000 [] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S5000x128_S128x64_S5000x64_1_0_0_1_n_n_wf : DotDims.WF S5000x128 S128x64 S5000x64 [1] [0] [0] [1] [] []
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .f32 = 32 ∨ (Rect.block (s := S128x64) S128x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v51) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v65) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v48) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg8) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v75) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v51) S5000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg8) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v80) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v81) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S500000 : Shape := ⟨1, ![500000]⟩
abbrev S1x128 : Shape := ⟨2, ![1, 128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S500000x64 : Shape := ⟨2, ![500000, 64]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128x64, .f32⟩
  | 11 => ⟨S64, .f32⟩
  | 12 => ⟨S128x64, .f32⟩
  | 13 => ⟨S64, .f32⟩
  | 14 => ⟨S500000, .i32⟩
  | 15 => ⟨S500000, .i32⟩
  | 16 => ⟨S500000, .i32⟩
  | 17 => ⟨S500000, .i32⟩
  | 18 => ⟨S100000x128, .f32⟩
  | 19 => ⟨S1x128, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S_, .f32⟩
  | 44 => ⟨S100000x128, .f32⟩
  | 45 => ⟨S500000x1, .i32⟩
  | 46 => ⟨S100000x128, .f32⟩
  | 47 => ⟨S_, .f32⟩
  | 48 => ⟨S500000, .f32⟩
  | 49 => ⟨S_, .f32⟩
  | 50 => ⟨S100000, .f32⟩
  | 51 => ⟨S500000x1, .i32⟩
  | 52 => ⟨S100000, .f32⟩
  | 53 => ⟨S100000x1, .f32⟩
  | 54 => ⟨S_, .f32⟩
  | 55 => ⟨S100000x1, .f32⟩
  | 56 => ⟨S100000x1, .i1⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S_, .f32⟩
  | 64 => ⟨S_, .f32⟩
  | 65 => ⟨S100000x128, .i1⟩
  | 66 => ⟨S100000x128, .f32⟩
  | 67 => ⟨S100000x128, .f32⟩
  | 68 => ⟨S100000x128, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S_, .f32⟩
  | 79 => ⟨S100000x128, .f32⟩
  | 80 => ⟨S500000x1, .i32⟩
  | 81 => ⟨S100000x128, .f32⟩
  | 82 => ⟨S_, .f32⟩
  | 83 => ⟨S500000, .f32⟩
  | 84 => ⟨S_, .f32⟩
  | 85 => ⟨S100000, .f32⟩
  | 86 => ⟨S500000x1, .i32⟩
  | 87 => ⟨S100000, .f32⟩
  | 88 => ⟨S100000x1, .f32⟩
  | 89 => ⟨S_, .f32⟩
  | 90 => ⟨S100000x1, .f32⟩
  | 91 => ⟨S100000x1, .i1⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S_, .f32⟩
  | 99 => ⟨S_, .f32⟩
  | 100 => ⟨S100000x128, .i1⟩
  | 101 => ⟨S100000x128, .f32⟩
  | 102 => ⟨S100000x128, .f32⟩
  | 103 => ⟨S100000x128, .f32⟩
  | 104 => ⟨S_, .f32⟩
  | 105 => ⟨S_, .f32⟩
  | 106 => ⟨S100000x128, .f32⟩
  | 107 => ⟨S100000x128, .i1⟩
  | 108 => ⟨S_, .f32⟩
  | 109 => ⟨S100000x128, .f32⟩
  | 110 => ⟨S100000x128, .f32⟩
  | 111 => ⟨S100000x128, .f32⟩
  | 112 => ⟨S_, .f32⟩
  | 113 => ⟨S_, .f32⟩
  | 114 => ⟨S100000x128, .f32⟩
  | 115 => ⟨S100000x128, .i1⟩
  | 116 => ⟨S_, .f32⟩
  | 117 => ⟨S100000x128, .f32⟩
  | 118 => ⟨S100000x128, .f32⟩
  | 119 => ⟨S100000x128, .f32⟩
  | 120 => ⟨S100000x64, .f32⟩
  | 121 => ⟨S1x64, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x64, .f32⟩
  | 17 => ⟨S_, .f32⟩
  | 18 => ⟨S100000x64, .f32⟩
  | 19 => ⟨S500000x1, .i32⟩
  | 20 => ⟨S100000x64, .f32⟩
  | 21 => ⟨S_, .f32⟩
  | 22 => ⟨S500000, .f32⟩
  | 23 => ⟨S_, .f32⟩
  | 24 => ⟨S100000, .f32⟩
  | 25 => ⟨S500000x1, .i32⟩
  | 26 => ⟨S100000, .f32⟩
  | 27 => ⟨S100000x1, .f32⟩
  | 28 => ⟨S_, .f32⟩
  | 29 => ⟨S100000x1, .f32⟩
  | 30 => ⟨S100000x1, .i1⟩
  | 31 => ⟨S_, .f32⟩
  | 32 => ⟨S100000, .f32⟩
  | 33 => ⟨S100000, .f32⟩
  | 34 => ⟨S100000x1, .f32⟩
  | 35 => ⟨S100000x64, .f32⟩
  | 36 => ⟨S100000x64, .f32⟩
  | 37 => ⟨S_, .f32⟩
  | 38 => ⟨S_, .f32⟩
  | 39 => ⟨S100000x64, .i1⟩
  | 40 => ⟨S100000x64, .f32⟩
  | 41 => ⟨S100000x64, .f32⟩
  | 42 => ⟨S100000x64, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x64, .f32⟩
  | 52 => ⟨S_, .f32⟩
  | 53 => ⟨S100000x64, .f32⟩
  | 54 => ⟨S500000x1, .i32⟩
  | 55 => ⟨S100000x64, .f32⟩
  | 56 => ⟨S_, .f32⟩
  | 57 => ⟨S500000, .f32⟩
  | 58 => ⟨S_, .f32⟩
  | 59 => ⟨S100000, .f32⟩
  | 60 => ⟨S500000x1, .i32⟩
  | 61 => ⟨S100000, .f32⟩
  | 62 => ⟨S100000x1, .f32⟩
  | 63 => ⟨S_, .f32⟩
  | 64 => ⟨S100000x1, .f32⟩
  | 65 => ⟨S100000x1, .i1⟩
  | 66 => ⟨S_, .f32⟩
  | 67 => ⟨S100000, .f32⟩
  | 68 => ⟨S100000, .f32⟩
  | 69 => ⟨S100000x1, .f32⟩
  | 70 => ⟨S100000x64, .f32⟩
  | 71 => ⟨S100000x64, .f32⟩
  | 72 => ⟨S_, .f32⟩
  | 73 => ⟨S_, .f32⟩
  | 74 => ⟨S100000x64, .i1⟩
  | 75 => ⟨S100000x64, .f32⟩
  | 76 => ⟨S100000x64, .f32⟩
  | 77 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v38 : Ref sig .tc := ⟨.hbm, 67, rfl⟩
abbrev main_v39 : Ref sig .tc := ⟨.hbm, 68, rfl⟩
abbrev main_c_6 : Ref sig .tc := ⟨.hbm, 69, rfl⟩
abbrev main_v40 : Ref sig .tc := ⟨.hbm, 70, rfl⟩
abbrev main_v41 : Ref sig .tc := ⟨.hbm, 71, rfl⟩
abbrev main_c_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_13 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v62 : Ref sig .tc := ⟨.hbm, 102, rfl⟩
abbrev main_v63 : Ref sig .tc := ⟨.hbm, 103, rfl⟩
abbrev main_cst_14 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_v64 : Ref sig .tc := ⟨.hbm, 111, rfl⟩
abbrev main_cst_15 : Ref sig .tc := ⟨.hbm, 112, rfl⟩
abbrev main_call3_cst : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_16 : Ref sig .tc := ⟨.hbm, 136, rfl⟩
abbrev main_v82 : Ref sig .tc := ⟨.hbm, 137, rfl⟩
abbrev main_v83 : Ref sig .tc := ⟨.hbm, 138, rfl⟩
abbrev main_c_17 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_18 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_19 : Ref sig .tc := ⟨.hbm, 149, rfl⟩
abbrev main_v92 : Ref sig .tc := ⟨.hbm, 150, rfl⟩
abbrev main_cst_20 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_21 : Ref sig .tc := ⟨.hbm, 156, rfl⟩
abbrev main_v97 : Ref sig .tc := ⟨.hbm, 157, rfl⟩
abbrev main_v98 : Ref sig .tc := ⟨.hbm, 158, rfl⟩
abbrev main_cst_22 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_23 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_v104 : Ref sig .tc := ⟨.hbm, 169, rfl⟩
abbrev main_v105 : Ref sig .tc := ⟨.hbm, 170, rfl⟩
abbrev main_c_24 : Ref sig .tc := ⟨.hbm, 171, rfl⟩
abbrev main_v106 : Ref sig .tc := ⟨.hbm, 172, rfl⟩
abbrev main_v107 : Ref sig .tc := ⟨.hbm, 173, rfl⟩
abbrev main_c_25 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_26 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_27 : Ref sig .tc := ⟨.hbm, 184, rfl⟩
abbrev main_v116 : Ref sig .tc := ⟨.hbm, 185, rfl⟩
abbrev main_cst_28 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_cst_29 : Ref sig .tc := ⟨.hbm, 191, rfl⟩
abbrev main_v121 : Ref sig .tc := ⟨.hbm, 192, rfl⟩
abbrev main_v122 : Ref sig .tc := ⟨.hbm, 193, rfl⟩
abbrev main_cst_30 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_31 : Ref sig .tc := ⟨.hbm, 200, rfl⟩
abbrev main_call5_v0 : Ref sig .tc := ⟨.hbm, 201, rfl⟩
abbrev main_call5_v1 : Ref sig .tc := ⟨.hbm, 202, rfl⟩
abbrev main_call5_v2 : Ref sig .tc := ⟨.hbm, 203, rfl⟩
abbrev main_v128 : Ref sig .tc := ⟨.hbm, 204, rfl⟩
abbrev main_v129 : Ref sig .tc := ⟨.hbm, 205, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x64_S100000x64_1_0_0_1_n_n_wf : DotDims.WF S100000x128 S128x64 S100000x64 [1] [0] [0] [1] [] []
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf

class Facts : Prop extends Facts₀ where

variable [Facts]
-- ==== Proof.KernelRun.lean ====
/-
  The idealized kernel program's run with its two results named.

  Every weakly fair execution of the program terminates without a fault; at the end each buffer holds what the fold of
  the host stretches and of the eight regions' write-backs leaves in it.  The generated frame keeps of this only that
  the argument arrays end as launched; here the same launch is read at the two result buffers as well: they end at
  the fold's contents `W20`, which the value modules then read back to whole-array functions of the arguments.
-/
import proofs.«155910_j7129645711537_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- The run, with the results: the two result buffers end at the fold's final contents, the arguments as launched. -/
theorem run_named : θ_run defs (onTc (τ := τ) (main (F := F))) ⟨m, fun _ => 0, ρ⟩ (fun r => ∀ c : Dev nD,
      r.2.mem ((c.tc : Thread nD τ).loc main_v81) = W20 m ρ c (Proc.devRef .tc main_v81)
      ∧ r.2.mem ((c.tc : Thread nD τ).loc main_v78) = W20 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v81 (by decide)), h c _ (mem_uc main_v78 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c)⟩)

end Cert.KernelIdeal.Named

end
-- ==== Proof.KernelKeep.lean ====
/-
  What each stage of the program leaves untouched.

  The program is a chain of host stretches and kernel regions.  A host stretch changes only the buffers its operations
  write; a region changes only its output array (an input window's array is read, never written back, and a buffer that
  is no window's array is not touched).  So a buffer outside a stage's written set holds after the stage what it held
  before: one lemma per stage, with the written set listed.  Read from the end of the program backwards they carry any
  buffer to the stage that wrote it.
-/
import proofs.«155910_j7129645711537_2_alg».proof.Proof.Gen.KernelIdeal.Frame

set_option maxRecDepth 16384

noncomputable section

namespace Cert.KernelIdeal.Named

open Idealize.ShloMosaic Idealize.ShloMosaic.TcCoe Idealize.SL.Sem
open Idealize.ShloMosaic.Pipeline (Dat Cfg Window)
open Cert.KernelIdeal Cert.KernelIdeal.Gen

variable {F : FTy → Type} [FloatOps F]

/-- `hostOps0` writes only the listed buffers. -/
theorem keep_hostOps0 (W : Valuation τ sig (Elt F)) (b : Ref sig .tc)
    (hb : b ∉ [main_cst, main_v0, main_cst_0, main_v1, main_v2, main_v3, main_cst_1, main_v4, main_cst_2, main_v5, main_v6, main_v7, main_cst_3, main_v8, main_v9, main_cst_4, main_v10, main_v11, main_cst_5, main_v12, main_v13, main_cst_6]) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps0_1` writes only the listed buffers. -/
theorem keep_hostOps0_1 (W : Valuation τ sig (Elt F)) (b : Ref sig .tc)
    (hb : b ∉ [main_call0_v0, main_call0_v1, main_v14]) :
    StableHlo.after (hostOps0_1 (F := F)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps0_2` writes only the listed buffers. -/
theorem keep_hostOps0_2 (W : Valuation τ sig (Elt F)) (b : Ref sig .tc)
    (hb : b ∉ [main_cst_7, main_v15, main_v16, main_cst_8, main_v17, main_v18, main_cst_9, main_v19, main_v20, main_cst_10]) :
    StableHlo.after (hostOps0_2 (F := F)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps0_3` writes only the listed buffers. -/
theorem keep_hostOps0_3 (W : Valuation τ sig (Elt F)) (b : Ref sig .tc)
    (hb : b ∉ [main_call1_v0, main_call1_v1, main_v21]) :
    StableHlo.after (hostOps0_3 (F := F)) W (Proc.devRef .tc b) = W (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps0_4` writes only the listed buffers. -/
theorem keep_hostOps0_4 (W : Valuation τ sig (Elt F)) (b : Ref sig .tc)
    (hb : b ∉ [main_v22]) :
    StableHlo.after (hostOps0_4 (F := F)) W (Proc.devRef .tc b) = W (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps1` writes only the listed buffers. -/
theorem keep_hostOps1 (W : Valuation τ sig (Elt F)) (b : Ref sig .tc)
    (hb : b ∉ [main_v24]) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps2` writes only the listed buffers. -/
theorem keep_hostOps2 (W : Valuation τ sig (Elt F)) (b : Ref sig .tc)
    (hb : b ∉ [main_c, main_v26, main_v27, main_c_11, main_v28, main_v29, main_v30, main_v31, main_v32, main_cst_12, main_v33, main_v34, main_v35, main_c_13, main_v36, main_v37, main_c_14, main_v38, main_v39, main_v40, main_v41, main_v42, main_cst_15, main_v43, main_v44, main_v45, main_v46, main_v47]) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps3` writes only the listed buffers. -/
theorem keep_hostOps3 (W : Valuation τ sig (Elt F)) (b : Ref sig .tc)
    (hb : b ∉ [main_v49, main_v50]) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps4` writes only the listed buffers. -/
theorem keep_hostOps4 (W : Valuation τ sig (Elt F)) (b : Ref sig .tc)
    (hb : b ∉ [main_v52]) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps5` writes only the listed buffers. -/
theorem keep_hostOps5 (W : Valuation τ sig (Elt F)) (b : Ref sig .tc)
    (hb : b ∉ [main_v54]) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps6` writes only the listed buffers. -/
theorem keep_hostOps6 (W : Valuation τ sig (Elt F)) (b : Ref sig .tc)
    (hb : b ∉ [main_c_16, main_v56, main_v57, main_c_17, main_v58, main_v59, main_v60, main_v61, main_v62, main_cst_18, main_v63, main_v64, main_v65, main_c_19, main_v66, main_v67, main_c_20, main_v68, main_v69, main_v70, main_v71, main_v72, main_cst_21, main_v73, main_v74, main_v75, main_v76, main_v77]) :
    StableHlo.after (hostOps6 (F := F)) W (Proc.devRef .tc b) = W (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

/-- `hostOps7` writes only the listed buffers. -/
theorem keep_hostOps7 (W : Valuation τ sig (Elt F)) (b : Ref sig .tc)
    (hb : b ∉ [main_v79, main_v80]) :
    StableHlo.after (hostOps7 (F := F)) W (Proc.devRef .tc b) = W (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => hb (by subst h; simp))))

variable (m : (ℓ : Loc nD τ sig) → Buf (Elt F) ℓ) (ρ : Dev nD → PrngReg)

/-- Region 0 changes only its output array `main_v23`. -/
theorem keep_region0 (c : Dev nD) (b : Ref sig .tc) (hb : b ≠ main_v23) :
    W6 m ρ c (Proc.devRef .tc b) = W5 m ρ c (Proc.devRef .tc b) := by
  by_cases h : ∃ w, Pipeline.arrRef spec0 w = b
  · obtain ⟨w, rfl⟩ := h
    have hin : (cfg0.win w).isOut = false := by
      revert hb; revert w; decide
    exact (W6_arr m ρ c w).trans (((dat0 (V5 m ρ) c).arrAt_in w hin _).trans (A_eq0 (V5 m ρ) c w))
  · exact W6_of_ne m ρ c b (fun w e => h ⟨w, e⟩)

/-- Region 1 changes only its output array `main_v25`. -/
theorem keep_region1 (c : Dev nD) (b : Ref sig .tc) (hb : b ≠ main_v25) :
    W8 m ρ c (Proc.devRef .tc b) = W7 m ρ c (Proc.devRef .tc b) := by
  by_cases h : ∃ w, Pipeline.arrRef spec1 w = b
  · obtain ⟨w, rfl⟩ := h
    have hin : (cfg1.win w).isOut = false := by
      revert hb; revert w; decide
    exact (W8_arr m ρ c w).trans (((dat1 (V7 m ρ) c).arrAt_in w hin _).trans (A_eq1 (V7 m ρ) c w))
  · exact W8_of_ne m ρ c b (fun w e => h ⟨w, e⟩)

/-- Region 2 changes only its output array `main_v48`. -/
theorem keep_region2 (c : Dev nD) (b : Ref sig .tc) (hb : b ≠ main_v48) :
    W10 m ρ c (Proc.devRef .tc b) = W9 m ρ c (Proc.devRef .tc b) := by
  by_cases h : ∃ w, Pipeline.arrRef spec2 w = b
  · obtain ⟨w, rfl⟩ := h
    have hin : (cfg2.win w).isOut = false := by
      revert hb; revert w; decide
    exact (W10_arr m ρ c w).trans (((dat2 (V9 m ρ) c).arrAt_in w hin _).trans (A_eq2 (V9 m ρ) c w))
  · exact W10_of_ne m ρ c b (fun w e => h ⟨w, e⟩)

/-- Region 3 changes only its output array `main_v51`. -/
theorem keep_region3 (c : Dev nD) (b : Ref sig .tc) (hb : b ≠ main_v51) :
    W12 m ρ c (Proc.devRef .tc b) = W11 m ρ c (Proc.devRef .tc b) := by
  by_cases h : ∃ w, Pipeline.arrRef spec3 w = b
  · obtain ⟨w, rfl⟩ := h
    have hin : (cfg3.win w).isOut = false := by
      revert hb; revert w; decide
    exact (W12_arr m ρ c w).trans (((dat3 (V11 m ρ) c).arrAt_in w hin _).trans (A_eq3 (V11 m ρ) c w))
  · exact W12_of_ne m ρ c b (fun w e => h ⟨w, e⟩)

/-- Region 4 changes only its output array `main_v53`. -/
theorem keep_region4 (c : Dev nD) (b : Ref sig .tc) (hb : b ≠ main_v53) :
    W14 m ρ c (Proc.devRef .tc b) = W13 m ρ c (Proc.devRef .tc b) := by
  by_cases h : ∃ w, Pipeline.arrRef spec4 w = b
  · obtain ⟨w, rfl⟩ := h
    have hin : (cfg4.win w).isOut = false := by
      revert hb; revert w; decide
    exact (W14_arr m ρ c w).trans (((dat4 (V13 m ρ) c).arrAt_in w hin _).trans (A_eq4 (V13 m ρ) c w))
  · exact W14_of_ne m ρ c b (fun w e => h ⟨w, e⟩)

/-- Region 5 changes only its output array `main_v55`. -/
theorem keep_region5 (c : Dev nD) (b : Ref sig .tc) (hb : b ≠ main_v55) :
    W16 m ρ c (Proc.devRef .tc b) = W15 m ρ c (Proc.devRef .tc b) := by
  by_cases h : ∃ w, Pipeline.arrRef spec5 w = b
  · obtain ⟨w, rfl⟩ := h
    have hin : (cfg5.win w).isOut = false := by
      revert hb; revert w; decide
    exact (W16_arr m ρ c w).trans (((dat5 (V15 m ρ) c).arrAt_in w hin _).trans (A_eq5 (V15 m ρ) c w))
  · exact W16_of_ne m ρ c b (fun w e => h ⟨w, e⟩)

/-- Region 6 changes only its output array `main_v78`. -/
theorem keep_region6 (c : Dev nD) (b : Ref sig .tc) (hb : b ≠ main_v78) :
    W18 m ρ c (Proc.devRef .tc b) = W17 m ρ c (Proc.devRef .tc b) := by
  by_cases h : ∃ w, Pipeline.arrRef spec6 w = b
  · obtain ⟨w, rfl⟩ := h
    have hin : (cfg6.win w).isOut = false := by
      revert hb; revert w; decide
    exact (W18_arr m ρ c w).trans (((dat6 (V17 m ρ) c).arrAt_in w hin _).trans (A_eq6 (V17 m ρ) c w))
  · exact W18_of_ne m ρ c b (fun w e => h ⟨w, e⟩)

/-- Region 7 changes only its output array `main_v81`. -/
theorem keep_region7 (c : Dev nD) (b : Ref sig .tc) (hb : b ≠ main_v81) :
    W20 m ρ c (Proc.devRef .tc b) = W19 m ρ c (Proc.devRef .tc b) := by
  by_cases h : ∃ w, Pipeline.arrRef spec7 w = b
  · obtain ⟨w, rfl⟩ := h
    have hin : (cfg7.win w).isOut = false := by
      revert hb; revert w; decide
    exact (W20_arr m ρ c w).trans (((dat7 (V19 m ρ) c).arrAt_in w hin _).trans (A_eq7 (V19 m ρ) c w))
  · exact W20_of_ne m ρ c b (fun w e => h ⟨w, e⟩)

end Cert.KernelIdeal.Named

end
-- ==== Proof.LibDense.lean ====
/-
  The dense maps of a relational graph-convolution network, on the extended reals.

  A layer of the network sends a node-feature matrix x (one row per node) to
      x · W_root + b   and   x · W_rel[r]   for each relation r,
  and the read-out sends the pooled features to  pooled · W_lin + b_lin.  Entry (p, q) of a product x · w is the sum
  over k of x(p, k) · w(k, q); the bias b adds b(q) to every row; W_rel[r] is the r-th K x N slab of a 3 x K x N array.
  These are stated once here, over any sizes, as functions of whole arrays; nothing in them needs the entries to be
  finite (a sum of products is read the same way at the infinities).
-/
import Idealize.ShloMosaic.Lib.ValueIdx
import Idealize.ShloMosaic.Lib.Pipeline.Value
import Idealize.ShloMosaic.PureOps.Ideal

noncomputable section

namespace Cert.Rgcn

open Idealize.ShloMosaic Idealize.ShloMosaic.ValueIdx

/-- The matrix product x · w: entry (p, q) is the sum over k of x(p, k) · w(k, q). -/
def linear {M K N : Nat} (x : FVec Ideal ⟨2, ![M, K]⟩ .f32) (w : FVec Ideal ⟨2, ![K, N]⟩ .f32) :
    FVec Ideal ⟨2, ![M, N]⟩ .f32 :=
  fun j => (∑ k : Fin K, x (ix2 (j 0) k) * w (ix2 k (j 1)) : EReal)

/-- The affine map x · w + b: the product with b(q) added in column q of every row. -/
def affine {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun j => (linear x w j + b (ix1 (j 1)) : EReal)

/-- The r-th K x N slab of a 3 x K x N array of weights. -/
def slab {K N : Nat} (w3 : FVec Ideal ⟨3, ![3, K, N]⟩ .f32) (r : Fin 3) : FVec Ideal ⟨2, ![K, N]⟩ .f32 :=
  fun i => w3 (ix3 r (i 0) (i 1))

theorem linear_apply {M K N : Nat} (x : FVec Ideal ⟨2, ![M, K]⟩ .f32) (w : FVec Ideal ⟨2, ![K, N]⟩ .f32)
    (p : Fin M) (q : Fin N) : linear x w (ix2 p q) = ∑ k : Fin K, x (ix2 p k) * w (ix2 k q) := rfl

theorem affine_apply {M K N : Nat} (x : FVec Ideal ⟨2, ![M, K]⟩ .f32) (w : FVec Ideal ⟨2, ![K, N]⟩ .f32)
    (b : FVec Ideal ⟨1, ![N]⟩ .f32) (p : Fin M) (q : Fin N) :
    affine x w b (ix2 p q) = (∑ k : Fin K, x (ix2 p k) * w (ix2 k q)) + b (ix1 q) := rfl

theorem slab_apply {K N : Nat} (w3 : FVec Ideal ⟨3, ![3, K, N]⟩ .f32) (r : Fin 3) (k : Fin K) (q : Fin N) :
    slab w3 r (ix2 k q) = w3 (ix3 r k q) := rfl

/-- A length-n vector reshaped to one row [1, n] and repeated down the rows of an [a, n] block, read at (p, q),
    is its entry q. -/
theorem rowBlock_apply {α : Type} {a n : Nat} (b : (⟨1, ![n]⟩ : Shape).Idx → α)
    (h1 : (⟨1, ![n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ b h1) h2 (ix2 p q) = b (ix1 q) := by
  rw [broadcastTo_apply (shapeCast ⟨2, ![1, n]⟩ b h1) h2 (ix2 p q) (ix2 (0 : Fin 1) q) (fun ax => by
    match ax with
    | ⟨0, _⟩ => rfl
    | ⟨1, _⟩ =>
      show q.val = if n = 1 then 0 else q.val
      split
      · have := q.isLt; omega
      · rfl)]
  rw [shapeCast_addUnit_apply ![n] b h1 (ix2 (0 : Fin 1) q)]
  exact congrArg b (funext fun d => by match d with | ⟨0, _⟩ => rfl)

/-- Entry j of the affine map of a block of rows is entry i of the affine map of the whole arrays, whenever the block's
    row j reads the whole array's row i, the weights and the bias are read at the same columns. -/
theorem affine_block {M M' K N : Nat} (X : FVec Ideal ⟨2, ![M, K]⟩ .f32) (W : FVec Ideal ⟨2, ![K, N]⟩ .f32)
    (B : FVec Ideal ⟨1, ![N]⟩ .f32) (x' : FVec Ideal ⟨2, ![M', K]⟩ .f32) (w' : FVec Ideal ⟨2, ![K, N]⟩ .f32)
    (b' : FVec Ideal ⟨1, ![N]⟩ .f32) (j : (⟨2, ![M', N]⟩ : Shape).Idx) (i : (⟨2, ![M, N]⟩ : Shape).Idx)
    (hx : ∀ k : Fin K, x' (ix2 (j 0) k) = X (ix2 (i 0) k)) (hw : ∀ k : Fin K, w' (ix2 k (j 1)) = W (ix2 k (i 1)))
    (hb : b' (ix1 (j 1)) = B (ix1 (i 1))) : affine x' w' b' j = affine X W B i := by
  unfold affine linear
  rw [hb]
  exact congrArg (· + B (ix1 (i 1))) (Finset.sum_congr rfl fun k _ => by rw [hx k, hw k])

/-- The same for the product with the r-th slab of a stack of weight matrices. -/
theorem linear_slab_block {M M' K N : Nat} (X : FVec Ideal ⟨2, ![M, K]⟩ .f32) (W3 : FVec Ideal ⟨3, ![3, K, N]⟩ .f32)
    (x' : FVec Ideal ⟨2, ![M', K]⟩ .f32) (w3' : FVec Ideal ⟨3, ![3, K, N]⟩ .f32) (r : Fin 3)
    (j : (⟨2, ![M', N]⟩ : Shape).Idx) (i : (⟨2, ![M, N]⟩ : Shape).Idx)
    (hx : ∀ k : Fin K, x' (ix2 (j 0) k) = X (ix2 (i 0) k))
    (hw : ∀ k : Fin K, w3' (ix3 r k (j 1)) = W3 (ix3 r k (i 1))) :
    linear x' (slab w3' r) j = linear X (slab W3 r) i := by
  unfold linear slab
  exact Finset.sum_congr rfl fun k _ => by rw [hx k]; exact congrArg (X (ix2 (i 0) k) * ·) (hw k)

/-- Loading the 1 x K x N rectangle at offset (r, 0, 0) of a 3 x K x N block and dropping its unit axis gives the
    r-th slab. -/
theorem slabLoad_eq {K N : Nat} (w3 : Vec Ideal ⟨3, ![3, K, N]⟩ .f32) (r : Fin 3)
    (inb : ∀ a, (![r.val, 0, 0] : Fin 3 → Nat) a + (⟨3, ![1, K, N]⟩ : Shape).size a ≤ (⟨3, ![3, K, N]⟩ : Shape).size a)
    (h : (⟨3, ![1, K, N]⟩ : Shape).ShapeCasts ⟨2, ![K, N]⟩) :
    shapeCast ⟨2, ![K, N]⟩
      (View.ld (Val := Elt Ideal) (e' := .f32) w3
        (Rect.unit (s := ⟨3, ![3, K, N]⟩) ![r.val, 0, 0] (⟨3, ![1, K, N]⟩ : Shape).size inb)) h
      = slab w3 r := by
  funext i
  obtain ⟨k, q, rfl⟩ : ∃ (k : Fin K) (q : Fin N), i = ix2 k q := ⟨i 0, i 1, eq_ix2 i⟩
  rw [shapeCast_dropUnit_apply ![K, N] _ h (ix2 k q)]
  refine congrArg w3 (funext fun a => Fin.ext ?_)
  match a with
  | ⟨0, _⟩ => show r.val + 1 * 0 = r.val; omega
  | ⟨1, _⟩ => show 0 + 1 * k.val = k.val; omega
  | ⟨2, _⟩ => show 0 + 1 * q.val = q.val; omega

/-- Slicing rows r … r of the leading axis of a 3 x K x N array and reshaping away the unit axis gives the r-th slab. -/
theorem sliceSlab_eq {K N : Nat} (w3 : FVec Ideal ⟨3, ![3, K, N]⟩ .f32) (r : Fin 3)
    (hs : (⟨3, ![3, K, N]⟩ : Shape).Slices ![r.val, 0, 0] ⟨3, ![1, K, N]⟩)
    (hc : (⟨3, ![1, K, N]⟩ : Shape).ShapeCasts ⟨2, ![K, N]⟩) :
    shapeCast ⟨2, ![K, N]⟩ (extractStridedSlice ⟨3, ![1, K, N]⟩ ![r.val, 0, 0] w3 hs) hc = slab w3 r := by
  funext i
  obtain ⟨k, q, rfl⟩ : ∃ (k : Fin K) (q : Fin N), i = ix2 k q := ⟨i 0, i 1, eq_ix2 i⟩
  rw [shapeCast_dropUnit_apply ![K, N] _ hc (ix2 k q)]
  exact extractStridedSlice_apply ![r.val, 0, 0] w3 hs (Fin.cons ⟨0, Nat.one_pos⟩ (ix2 k q)) (ix3 r k q) (fun a => by
    match a with
    | ⟨0, _⟩ => show r.val = r.val + 0; omega
    | ⟨1, _⟩ => show k.val = 0 + k.val; omega
    | ⟨2, _⟩ => show q.val = 0 + q.val; omega)

end Cert.Rgcn

end
-- ==== Proof.Spec.lean ====
/-
  The node-update maps of a two-layer relational graph convolution, as whole-array functions on the extended reals.

  A relation transform is an affine map of the rows, x ↦ x·W + b, with the bias held as a one-row array.  A node update
  adds to it the aggregated messages scaled row by row: entry (p, q) of the result is s(p,q)·c(p) + (x·W)(p,q) + b(q),
  where c is a column holding one factor per node (the reciprocal of the node's in-degree, or 0 for a node with no
  incoming edge).  The first layer follows the update by the leaky rectifier h ↦ h if h ≥ 0, else 0.01·h (0.01 read as
  its single-precision value, the same on both sides).
-/
import proofs.«155910_j7129645711537_2_alg».proof.Proof.LibDense

noncomputable section

namespace Cert.Hrgcn

open Idealize.ShloMosaic Idealize.ShloMosaic.ValueIdx Cert.Rgcn

/-- x·W plus a bias held as a one-row array: entry (p, q) is Σₖ x(p,k)·W(k,q) + r(0,q). -/
def linRow {M K N : Nat} (x : FVec Ideal ⟨2, ![M, K]⟩ .f32) (w : FVec Ideal ⟨2, ![K, N]⟩ .f32)
    (r : FVec Ideal ⟨2, ![1, N]⟩ .f32) : FVec Ideal ⟨2, ![M, N]⟩ .f32 :=
  fun j => (linear x w j + r (ix2 0 (j 1)) : EReal)

/-- The node update before the rectifier: entry (p, q) is s(p,q)·c(p,0) + (Σₖ x(p,k)·W(k,q) + r(0,q)). -/
def comb {M K N : Nat} (s : FVec Ideal ⟨2, ![M, N]⟩ .f32) (c : FVec Ideal ⟨2, ![M, 1]⟩ .f32)
    (x : FVec Ideal ⟨2, ![M, K]⟩ .f32) (w : FVec Ideal ⟨2, ![K, N]⟩ .f32) (r : FVec Ideal ⟨2, ![1, N]⟩ .f32) :
    FVec Ideal ⟨2, ![M, N]⟩ .f32 :=
  fun j => (s j * c (ix2 (j 0) 0) + linRow x w r j : EReal)

/-- The leaky rectifier with slope the single-precision 0.01, entry by entry: h if 0 ≤ h, else 0.01·h. -/
def leaky {S : Shape} (h : FVec Ideal S .f32) : FVec Ideal S .f32 :=
  fun j => Scalar.select (Ideal.cmp .oge (h j) (Ideal.ofBits .f32 0x00000000#32)) (h j)
    ((Ideal.ofBits .f32 0x3C23D70A#32 * h j : EReal))

theorem linRow_apply {M K N : Nat} (x : FVec Ideal ⟨2, ![M, K]⟩ .f32) (w : FVec Ideal ⟨2, ![K, N]⟩ .f32)
    (r : FVec Ideal ⟨2, ![1, N]⟩ .f32) (p : Fin M) (q : Fin N) :
    linRow x w r (ix2 p q) = (∑ k : Fin K, x (ix2 p k) * w (ix2 k q)) + r (ix2 0 q) := rfl

theorem comb_apply {M K N : Nat} (s : FVec Ideal ⟨2, ![M, N]⟩ .f32) (c : FVec Ideal ⟨2, ![M, 1]⟩ .f32)
    (x : FVec Ideal ⟨2, ![M, K]⟩ .f32) (w : FVec Ideal ⟨2, ![K, N]⟩ .f32) (r : FVec Ideal ⟨2, ![1, N]⟩ .f32)
    (p : Fin M) (q : Fin N) :
    comb s c x w r (ix2 p q)
      = s (ix2 p q) * c (ix2 p 0) + ((∑ k : Fin K, x (ix2 p k) * w (ix2 k q)) + r (ix2 0 q)) := rfl

end Cert.Hrgcn

end
-- ==== Proof.KernelTerms.lean ====
/-
  The idealized kernel program's two results as whole-array functions of its eighteen argument arrays.

  The host side computes, per edge type, the in-degree of every destination node (a scatter-add of ones), its guarded
  reciprocal (1 / max(deg, 1) where deg > 0, else 0), and the aggregated messages (a gather of the transformed source
  rows by the normalised source indices, scatter-added at the destination indices).  The kernel regions compute the
  affine transforms and the node updates (Spec).  Composed in program order they give the second layer's two outputs.
-/
import proofs.«155910_j7129645711537_2_alg».proof.KernelIdeal
import proofs.«155910_j7129645711537_2_alg».proof.Proof.Gen.KernelIdeal
import proofs.«155910_j7129645711537_2_alg».proof.Proof.Spec

noncomputable section

namespace Cert.Hrgcn.Ker

open Idealize.ShloMosaic Cert.KernelIdeal Cert.KernelIdeal.Facts₀ Cert.KernelIdeal.Facts

/-- The in-degree of every destination node: ones scatter-added at the destination indices into zeros. -/
def cnt (dst : IVec S500000 32) : FVec Ideal S100000 .f32 :=
  Host.scatterAdd scatter_S100000_S500000x1_S500000_n_0_0_1
    (broadcastInDim S100000 ![] bcast_S_S100000 (constant (F := Ideal) S_ .f32 0x00000000#32))
    (broadcastInDim S500000x1 ![0] bcast_S500000_S500000x1_0 dst)
    (broadcastInDim S500000 ![] bcast_S_S500000 (constant (F := Ideal) S_ .f32 0x3F800000#32))

/-- The guarded reciprocal of a degree vector: 1 / max(deg, 1) where deg > 0, else 0. -/
def inv (c : FVec Ideal S100000 .f32) : FVec Ideal S100000 .f32 :=
  select (cmpf .ogt c (broadcastInDim S100000 ![] bcast_S_S100000 (constant (F := Ideal) S_ .f32 0x00000000#32)))
    (Host.divf (broadcastInDim S100000 ![] bcast_S_S100000 (constant (F := Ideal) S_ .f32 0x3F800000#32))
      (maximumf c (broadcastInDim S100000 ![] bcast_S_S100000 (constant (F := Ideal) S_ .f32 0x3F800000#32))))
    (broadcastInDim S100000 ![] bcast_S_S100000 (id (constant (F := Ideal) S_ .f32 0x00000000#32)))

/-- Source indices with negative entries shifted by the node count, as a column. -/
def normIdx (i : IVec S500000 32) : IVec S500000x1 32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 100000#32))) i)

/-- Aggregated messages of width 128: gather the source rows, scatter-add them at the destinations. -/
def agg128 (wh : FVec Ideal S100000x128 .f32) (src dst : IVec S500000 32) : FVec Ideal S100000x128 .f32 :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 dst)
    (Host.gather gather_S100000x128_S500000x1_S500000x128_1_0_n_n_0_1_1128 wh (normIdx src))

/-- Aggregated messages of width 64. -/
def agg64 (wh : FVec Ideal S100000x64 .f32) (src dst : IVec S500000 32) : FVec Ideal S100000x64 .f32 :=
  Host.scatterAdd scatter_S100000x64_S500000x1_S500000x64_1_0_0_1
    (broadcastInDim S100000x64 ![] bcast_S_S100000x64 (constant (F := Ideal) S_ .f32 0x00000000#32))
    (broadcastInDim S500000x1 ![0] bcast_S500000_S500000x1_0 dst)
    (Host.gather gather_S100000x64_S500000x1_S500000x64_1_0_n_n_0_1_164 wh (normIdx src))

/-- A per-node vector as a column. -/
def col (v : FVec Ideal S100000 .f32) : FVec Ideal S100000x1 .f32 := shapeCast S100000x1 v shapeCasts_S100000_S100000x1
/-- A bias vector as a one-row array. -/
def row128 (b : FVec Ideal S128 .f32) : FVec Ideal S1x128 .f32 := shapeCast S1x128 b shapeCasts_S128_S1x128
def row64 (b : FVec Ideal S64 .f32) : FVec Ideal S1x64 .f32 := shapeCast S1x64 b shapeCasts_S64_S1x64

variable (a0 a1 : FVec Ideal S100000x128 .f32) (a2 : FVec Ideal S128x128 .f32) (a3 : FVec Ideal S128 .f32)
  (a4 : FVec Ideal S128x128 .f32) (a5 : FVec Ideal S128 .f32) (a6 : FVec Ideal S128x128 .f32) (a7 : FVec Ideal S128 .f32)
  (a8 : FVec Ideal S128x64 .f32) (a9 : FVec Ideal S64 .f32) (a10 : FVec Ideal S128x64 .f32) (a11 : FVec Ideal S64 .f32)
  (a12 : FVec Ideal S128x64 .f32) (a13 : FVec Ideal S64 .f32) (a14 a15 a16 a17 : IVec S500000 32)

/-- First-layer user features: messages from items along the item→user edges, plus the self transform, rectified. -/
def h1u : FVec Ideal S100000x128 .f32 :=
  leaky (comb (agg128 (linRow a1 a6 (row128 a7)) a16 a17) (col (inv (cnt a17))) a0 a2 (row128 a3))
/-- First-layer item features. -/
def h1i : FVec Ideal S100000x128 .f32 :=
  leaky (comb (agg128 (linRow a0 a4 (row128 a5)) a14 a15) (col (inv (cnt a15))) a1 a2 (row128 a3))
/-- Second-layer user features: the program's first result. -/
def outU : FVec Ideal S100000x64 .f32 :=
  comb (agg64 (linRow (h1i a0 a1 a2 a3 a4 a5 a14 a15) a12 (row64 a13)) a16 a17) (col (inv (cnt a17)))
    (h1u a0 a1 a2 a3 a6 a7 a16 a17) a8 (row64 a9)
/-- Second-layer item features: the program's second result. -/
def outI : FVec Ideal S100000x64 .f32 :=
  comb (agg64 (linRow (h1u a0 a1 a2 a3 a6 a7 a16 a17) a10 (row64 a11)) a14 a15) (col (inv (cnt a15)))
    (h1i a0 a1 a2 a3 a4 a5 a14 a15) a8 (row64 a9)

end Cert.Hrgcn.Ker

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.LibDenseForms.lean ====
/-
  The two ways a program writes the dense maps of LibDense.lean, each shown to be that map.

  On the matrix unit: the operands are narrowed to bf16 (no change on the extended reals) and the product is
  accumulated into an all-zero block, so entry (p, q) is 0 + the sum over k of x(p, k) · w(k, q); the bias, a length-N
  vector, is reshaped to one row and repeated down the rows before it is added. On the host: one dot_general of the
  whole arrays, and the bias broadcast along axis 1 and then down the rows. Both are the functions `linear` and
  `affine`, for any dimension numbers that describe an ordinary M x K by K x N product.
-/
import proofs.«155910_j7129645711537_2_alg».proof.Proof.LibDense
import proofs.«155910_j7129645711537_2_alg».proof.Proof.LibPlainDot
import proofs.«155910_j7129645711537_2_alg».proof.Proof.LibRowBroadcast

noncomputable section

namespace Cert.Rgcn

open Idealize.ShloMosaic Idealize.ShloMosaic.ValueIdx

section Forms

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hrc hln hrn hlb hrb hr hs in
/-- The matrix unit's product of the bf16-narrowed operands, accumulated from zero, is x · w. -/
theorem unitProduct_eq (prec : Option ContractPrecision) (hb : FTy.bits .bf16 < FTy.bits .f32)
    (x : FVec Ideal ⟨2, ![M, K]⟩ .f32) (w : FVec Ideal ⟨2, ![K, N]⟩ .f32) :
    FloatOps.matmul D prec (truncf .bf16 x hb) (truncf .bf16 w hb) (constant ⟨2, ![M, N]⟩ .f32 0x00000000#32)
      = linear x w := by
  funext j
  obtain ⟨p, q, rfl⟩ : ∃ (p : Fin M) (q : Fin N), j = ix2 p q := ⟨j 0, j 1, eq_ix2 j⟩
  exact PlainDot.matmul_zero_apply D hlc hrc hln hrn hlb hrb hr hs prec (truncf .bf16 x hb) (truncf .bf16 w hb) p q

include hlc hrc hln hrn hlb hrb hr hs in
/-- The same product with the bias row added: x · w + b. -/
theorem unitAffine_eq (prec : Option ContractPrecision) (hb : FTy.bits .bf16 < FTy.bits .f32)
    (x : FVec Ideal ⟨2, ![M, K]⟩ .f32) (w : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) :
    addf (FloatOps.matmul D prec (truncf .bf16 x hb) (truncf .bf16 w hb) (constant ⟨2, ![M, N]⟩ .f32 0x00000000#32))
        (broadcastTo ⟨2, ![M, N]⟩ (shapeCast ⟨2, ![1, N]⟩ b h1) h2)
      = affine x w b := by
  funext j
  obtain ⟨p, q, rfl⟩ : ∃ (p : Fin M) (q : Fin N), j = ix2 p q := ⟨j 0, j 1, eq_ix2 j⟩
  rw [addf_apply, unitProduct_eq D hlc hrc hln hrn hlb hrb hr hs prec hb x w, rowBlock_apply b h1 h2 p q]
  rfl

include hlc hrc hln hrn hlb hrb hr hs in
/-- The host's product of the whole arrays is x · w. -/
theorem hostProduct_eq (prec : Option ContractPrecision) (sched : HostSchedule)
    (x : FVec Ideal ⟨2, ![M, K]⟩ .f32) (w : FVec Ideal ⟨2, ![K, N]⟩ .f32) :
    FloatOps.dotGeneral D prec sched x w = linear x w := by
  funext j
  obtain ⟨p, q, rfl⟩ : ∃ (p : Fin M) (q : Fin N), j = ix2 p q := ⟨j 0, j 1, eq_ix2 j⟩
  exact PlainDot.dotGeneral_apply D hlc hrc hln hrn hlb hrb hr hs prec sched x w p q

include hlc hrc hln hrn hlb hrb hr hs in
/-- The host's product with the bias broadcast over the rows: x · w + b. -/
theorem hostAffine_eq (prec : Option ContractPrecision) (sched : HostSchedule)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (FloatOps.dotGeneral D prec sched x w)
        (broadcastInDim ⟨2, ![M, N]⟩ ![0, 1] h2 (broadcastInDim ⟨2, ![1, N]⟩ ![1] h1 b))
      = affine x w b := by
  funext j
  obtain ⟨p, q, rfl⟩ : ∃ (p : Fin M) (q : Fin N), j = ix2 p q := ⟨j 0, j 1, eq_ix2 j⟩
  rw [addf_apply, hostProduct_eq D hlc hrc hln hrn hlb hrb hr hs prec sched x w, RowBroadcast.rowsOf_apply b h1 h2 p q]
  rfl

end Forms

end Cert.Rgcn

end
-- ==== Proof.RegionLib.lean ====
/-
  Blocks of rows of the node-update maps, and the form in which a program's body computes them.

  Entry (p, q) of x·W + r reads only row p of x, column q of W and entry q of the one-row array r; entry (p, q) of the
  node update reads in addition entry (p, q) of the aggregated messages and the factor of node p. So when a block of
  rows of the inputs is cut out of whole arrays, the map applied to the block is the same rows of the map applied to the
  whole arrays: this is what lets a result written block by block be read as one whole-array function.

  A body computes these maps on a block as: the product of the operands narrowed to bf16 (no change on the extended
  reals) accumulated from an all-zero block; the one-row array repeated down the rows; the one-column array of factors
  repeated along the columns; entrywise sums and products; and, for the rectifier, a comparison with zero and a select.
-/
import proofs.«155910_j7129645711537_2_alg».proof.Proof.Spec
import proofs.«155910_j7129645711537_2_alg».proof.Proof.LibDenseForms

noncomputable section

namespace Cert.Hrgcn

open Idealize.ShloMosaic Idealize.ShloMosaic.ValueIdx Cert.Rgcn

/-! ## A block of rows of each map -/

/-- Entry j of x'·w' + r' is entry i of X·W + R whenever row (j 0) of x' is row (i 0) of X, column (j 1) of w' is column
    (i 1) of W, and r' at (j 1) is R at (i 1). -/
theorem linRow_block {M M' K N : Nat} (X : FVec Ideal ⟨2, ![M, K]⟩ .f32) (W : FVec Ideal ⟨2, ![K, N]⟩ .f32)
    (R : FVec Ideal ⟨2, ![1, N]⟩ .f32) (x' : FVec Ideal ⟨2, ![M', K]⟩ .f32) (w' : FVec Ideal ⟨2, ![K, N]⟩ .f32)
    (r' : FVec Ideal ⟨2, ![1, N]⟩ .f32) (j : (⟨2, ![M', N]⟩ : Shape).Idx) (i : (⟨2, ![M, N]⟩ : Shape).Idx)
    (hx : ∀ k : Fin K, x' (ix2 (j 0) k) = X (ix2 (i 0) k)) (hw : ∀ k : Fin K, w' (ix2 k (j 1)) = W (ix2 k (i 1)))
    (hr : r' (ix2 0 (j 1)) = R (ix2 0 (i 1))) : linRow x' w' r' j = linRow X W R i := by
  unfold linRow linear
  rw [hr]
  exact congrArg (· + R (ix2 0 (i 1))) (Finset.sum_congr rfl fun k _ => by rw [hx k, hw k])

/-- The same for the node update: in addition the messages agree at the two entries and the factors at the two rows. -/
theorem comb_block {M M' K N : Nat} (S : FVec Ideal ⟨2, ![M, N]⟩ .f32) (C : FVec Ideal ⟨2, ![M, 1]⟩ .f32)
    (X : FVec Ideal ⟨2, ![M, K]⟩ .f32) (W : FVec Ideal ⟨2, ![K, N]⟩ .f32) (R : FVec Ideal ⟨2, ![1, N]⟩ .f32)
    (s' : FVec Ideal ⟨2, ![M', N]⟩ .f32) (c' : FVec Ideal ⟨2, ![M', 1]⟩ .f32)
    (x' : FVec Ideal ⟨2, ![M', K]⟩ .f32) (w' : FVec Ideal ⟨2, ![K, N]⟩ .f32) (r' : FVec Ideal ⟨2, ![1, N]⟩ .f32)
    (j : (⟨2, ![M', N]⟩ : Shape).Idx) (i : (⟨2, ![M, N]⟩ : Shape).Idx)
    (hs : s' j = S i) (hc : c' (ix2 (j 0) 0) = C (ix2 (i 0) 0))
    (hx : ∀ k : Fin K, x' (ix2 (j 0) k) = X (ix2 (i 0) k)) (hw : ∀ k : Fin K, w' (ix2 k (j 1)) = W (ix2 k (i 1)))
    (hr : r' (ix2 0 (j 1)) = R (ix2 0 (i 1))) : comb s' c' x' w' r' j = comb S C X W R i := by
  unfold comb
  rw [hs, hc, linRow_block X W R x' w' r' j i hx hw hr]

/-- The rectifier acts entry by entry. -/
theorem leaky_block {S S' : Shape} (H : FVec Ideal S .f32) (h' : FVec Ideal S' .f32) (j : S'.Idx) (i : S.Idx)
    (hh : h' j = H i) : leaky h' j = leaky H i := by
  unfold leaky
  rw [hh]

/-! ## The two repeated operands, read at an entry -/

/-- A one-row array repeated down the rows of an a x n block, read at (p, q), is its entry (0, q). -/
theorem rowRep_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply r h2 (ix2 p q) (ix2 (0 : Fin 1) q) (fun ax => by
    match ax with
    | ⟨0, _⟩ => rfl
    | ⟨1, _⟩ =>
      show q.val = if n = 1 then 0 else q.val
      split
      · have := q.isLt; omega
      · rfl)

/-- A one-column array repeated along the columns of an a x n block, read at (p, q), is its entry (p, 0). -/
theorem colRep_apply {α : Type} {a n : Nat} (c : (⟨2, ![a, 1]⟩ : Shape).Idx → α)
    (h1 : (⟨2, ![a, 1]⟩ : Shape).ShapeCasts ⟨2, ![a, 1]⟩) (h2 : (⟨2, ![a, 1]⟩ : Shape).Broadcasts ⟨2, ![a, n]⟩)
    (p : Fin a) (q : Fin n) :
    broadcastTo ⟨2, ![a, n]⟩ (shapeCast ⟨2, ![a, 1]⟩ c h1) h2 (ix2 p q) = c (ix2 p 0) := by
  rw [shapeCast_self]
  exact broadcastTo_apply c h2 (ix2 p q) (ix2 p (0 : Fin 1)) (fun ax => by
    match ax with
    | ⟨0, _⟩ =>
      show p.val = if a = 1 then 0 else p.val
      split
      · have := p.isLt; omega
      · rfl
    | ⟨1, _⟩ => rfl)

/-! ## The body's forms -/

section Forms

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hrc hln hrn hlb hrb hr hs in
/-- The product accumulated from zero plus the repeated row is x·w + r. The left operand may reach the product through a
    reshape to its own shape (x' = x). -/
theorem unitLinRow_eq (prec : Option ContractPrecision) (hb : FTy.bits .bf16 < FTy.bits .f32)
    (x : FVec Ideal ⟨2, ![M, K]⟩ .f32) (w : FVec Ideal ⟨2, ![K, N]⟩ .f32) (r : FVec Ideal ⟨2, ![1, N]⟩ .f32)
    (x' : FVec Ideal ⟨2, ![M, K]⟩ .f32) (hx : x' = x)
    (h1 : (⟨2, ![1, N]⟩ : Shape).ShapeCasts ⟨2, ![1, N]⟩) (h2 : (⟨2, ![1, N]⟩ : Shape).Broadcasts ⟨2, ![M, N]⟩) :
    addf (FloatOps.matmul D prec (truncf .bf16 x' hb) (truncf .bf16 w hb) (constant ⟨2, ![M, N]⟩ .f32 0x00000000#32))
        (broadcastTo ⟨2, ![M, N]⟩ (shapeCast ⟨2, ![1, N]⟩ r h1) h2)
      = linRow x w r := by
  subst hx
  funext j
  obtain ⟨p, q, rfl⟩ : ∃ (p : Fin M) (q : Fin N), j = ix2 p q := ⟨j 0, j 1, eq_ix2 j⟩
  rw [addf_apply, unitProduct_eq D hlc hrc hln hrn hlb hrb hr hs prec hb x' w, rowRep_apply r h1 h2 p q]
  rfl

include hlc hrc hln hrn hlb hrb hr hs in
/-- The messages times the repeated column of factors, plus the affine part, is the node update. The messages and the
    left operand of the product may pass through a reshape to their own shape (s' = s, x' = x). -/
theorem unitComb_eq (prec : Option ContractPrecision) (hb : FTy.bits .bf16 < FTy.bits .f32)
    (s : FVec Ideal ⟨2, ![M, N]⟩ .f32) (c : FVec Ideal ⟨2, ![M, 1]⟩ .f32)
    (x : FVec Ideal ⟨2, ![M, K]⟩ .f32) (w : FVec Ideal ⟨2, ![K, N]⟩ .f32) (r : FVec Ideal ⟨2, ![1, N]⟩ .f32)
    (s' : FVec Ideal ⟨2, ![M, N]⟩ .f32) (hs' : s' = s) (x' : FVec Ideal ⟨2, ![M, K]⟩ .f32) (hx : x' = x)
    (hc1 : (⟨2, ![M, 1]⟩ : Shape).ShapeCasts ⟨2, ![M, 1]⟩) (hc2 : (⟨2, ![M, 1]⟩ : Shape).Broadcasts ⟨2, ![M, N]⟩)
    (h1 : (⟨2, ![1, N]⟩ : Shape).ShapeCasts ⟨2, ![1, N]⟩) (h2 : (⟨2, ![1, N]⟩ : Shape).Broadcasts ⟨2, ![M, N]⟩) :
    addf (mulf s' (broadcastTo ⟨2, ![M, N]⟩ (shapeCast ⟨2, ![M, 1]⟩ c hc1) hc2))
        (addf (FloatOps.matmul D prec (truncf .bf16 x' hb) (truncf .bf16 w hb) (constant ⟨2, ![M, N]⟩ .f32 0x00000000#32))
          (broadcastTo ⟨2, ![M, N]⟩ (shapeCast ⟨2, ![1, N]⟩ r h1) h2))
      = comb s c x w r := by
  subst hs'
  funext j
  obtain ⟨p, q, rfl⟩ : ∃ (p : Fin M) (q : Fin N), j = ix2 p q := ⟨j 0, j 1, eq_ix2 j⟩
  rw [addf_apply, mulf_apply, colRep_apply c hc1 hc2 p q,
    unitLinRow_eq D hlc hrc hln hrn hlb hrb hr hs prec hb x w r x' hx h1 h2]
  rfl

end Forms

/-- Comparing with zero and selecting between h and 0.01·h is the rectifier. -/
theorem selectLeaky_eq {S : Shape} (h : FVec Ideal S .f32) :
    select (cmpf .oge h (broadcast S (Scalar.ofBits (F := Ideal) .f32 0x00000000#32))) h
        (mulf (broadcast S (Scalar.ofBits (F := Ideal) .f32 0x3C23D70A#32)) h)
      = leaky h := rfl

end Cert.Hrgcn

end
-- ==== Proof.Region0.lean ====
/-
  Region 0: its output array after the region is the rows' affine image x·W + r of the arrays the region finds.
  Each grid point writes one block of 5000 rows; a row of the result depends only on the same row of the row-blocked
  input, so the blocks are the restrictions of one whole-array function, and the twenty blocks cover the array.

  The steps: the body's value as x·W + r of the blocks it loads; the index maps decided over the twenty points
  (the row-blocked windows sit at block row t, the weight and the one-row array at block (0, 0)); what point t writes
  back as block t of the whole-array function, by reading each loaded block where the output block's rows say; the
  point whose block holds row p is p / 5000.
-/
import proofs.«155910_j7129645711537_2_alg».proof.Proof.Gen.KernelIdeal.Frame
import proofs.«155910_j7129645711537_2_alg».proof.Proof.Spec
import proofs.«155910_j7129645711537_2_alg».proof.Proof.RegionLib
import Idealize.ShloMosaic.Lib.Pipeline.Value

noncomputable section

namespace Cert.Hrgcn

open Idealize.ShloMosaic Idealize.ShloMosaic.TcCoe Idealize.ShloMosaic.ValueIdx Idealize.SL.Sem Cert.KernelIdeal Cert.KernelIdeal.Gen
open Idealize.ShloMosaic.Pipeline (Dat)

namespace Region0

theorem zeros : (![0, 0] : Fin 2 → Nat) = fun _ => 0 := funext fun a => by fin_cases a <;> rfl

/-- The body's value is the affine map x·W + r of the three blocks it loads. -/
theorem pay_eq (x0 : Vec Ideal S5000x128 .f32) (x1 : Vec Ideal S128x128 .f32) (x2 : Vec Ideal S1x128 .f32) :
    k0_pay1 x0 x1 x2 = linRow x0 x1 x2 :=
  unitLinRow_eq dot_S5000x128_S128x128_S5000x128_1_0_0_1_n_n rfl rfl rfl rfl rfl rfl rfl rfl none _ x0 x1 x2 _ rfl _ _

/-- The index maps over the grid: at point t the row-blocked windows sit at block row t, the weight and the one-row array
    at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

set_option maxHeartbeats 2000000 in
/-- What point t writes back is block t of the whole-array function of the arrays the region finds. -/
theorem flushed_eq (c : Dev nD) (t : Fin cfg0.N) :
    (dat0 (F := Ideal) V c).flushed 3 t
      = ((cfg0.win 3).blk t).view.read (Elt Ideal)
          (linRow (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zeros]
  simp only [View.ld_unit_zero (S := S5000x128) zeros, View.ld_unit_zero (S := S128x128) zeros, View.ld_unit_zero (S := S1x128) zeros]
  rw [pay_eq]
  obtain ⟨e00, e01, e10, e11, e20, e21, eo0, eo1⟩ := idx_facts t
  funext j
  show linRow (iblk0 V c 0 t) (iblk0 V c 1 t) (iblk0 V c 2 t) j
    = linRow (V c (Pipeline.arrRef spec0 0)) (V c (Pipeline.arrRef spec0 1)) (V c (Pipeline.arrRef spec0 2)) (((cfg0.win 3).blk t).view.emb j)
  refine linRow_block _ _ _ _ _ _ j _ (fun k => ?_) (fun k => ?_) ?_
  · show (V c (Pipeline.arrRef spec0 0)) (((cfg0.win 0).blk t).view.emb (ix2 (j 0) k))
      = (V c (Pipeline.arrRef spec0 0)) (ix2 ((((cfg0.win 3).blk t).view.emb j) 0) k)
    refine congrArg _ (funext fun a => Fin.ext ?_)
    match a with
    | ⟨0, _⟩ =>
      show win0_0.index t (0 : Fin 2) * 5000 + 1 * (j 0).val = win0_3.index t (0 : Fin 2) * 5000 + 1 * (j 0).val
      rw [e00, eo0]
    | ⟨1, _⟩ =>
      show win0_0.index t (1 : Fin 2) * 128 + 1 * k.val = k.val
      rw [e01]; omega
  · show (V c (Pipeline.arrRef spec0 1)) (((cfg0.win 1).blk t).view.emb (ix2 k (j 1)))
      = (V c (Pipeline.arrRef spec0 1)) (ix2 k ((((cfg0.win 3).blk t).view.emb j) 1))
    refine congrArg _ (funext fun a => Fin.ext ?_)
    match a with
    | ⟨0, _⟩ =>
      show win0_1.index t (0 : Fin 2) * 128 + 1 * k.val = k.val
      rw [e10]; omega
    | ⟨1, _⟩ =>
      show win0_1.index t (1 : Fin 2) * 128 + 1 * (j 1).val = win0_3.index t (1 : Fin 2) * 128 + 1 * (j 1).val
      rw [e11, eo1]
  · show (V c (Pipeline.arrRef spec0 2)) (((cfg0.win 2).blk t).view.emb (ix2 0 (j 1)))
      = (V c (Pipeline.arrRef spec0 2)) (ix2 0 ((((cfg0.win 3).blk t).view.emb j) 1))
    refine congrArg _ (funext fun a => Fin.ext ?_)
    match a with
    | ⟨0, _⟩ =>
      show win0_2.index t (0 : Fin 2) * 1 + 1 * 0 = 0
      rw [e20]
    | ⟨1, _⟩ =>
      show win0_2.index t (1 : Fin 2) * 128 + 1 * (j 1).val = win0_3.index t (1 : Fin 2) * 128 + 1 * (j 1).val
      rw [e21, eo1]

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v23).slice (win0_3.rect t)).set ↔ _
  rw [View.set_slice_whole, Rect.mem_set_unit]
  exact Iff.rfl

/-- Row p of the array lies in the block of point p / 5000: the twenty blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, eo0, eo1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [eo0, ht]; omega
  | ⟨1, _⟩ =>
    show win0_3.index t (1 : Fin 2) * 128 ≤ (i 1).val ∧ (i 1).val < win0_3.index t (1 : Fin 2) * 128 + 128
    rw [eo1]; omega

end Region0

theorem region0 (V : (c : Dev nD) → (b : Ref sig .tc) → Buf (Elt Ideal) ((c : Thread nD τ).loc b)) (c : Dev nD) :
    (dat0 (F := Ideal) V c).arrAt 3 cfg0.N = linRow (V c (Pipeline.arrRef spec0 0)) (V c (Pipeline.arrRef spec0 1)) (V c (Pipeline.arrRef spec0 2)) :=
  (dat0 (F := Ideal) V c).arrAt_eq_of_cover 3 _ (fun t _ => Region0.flushed_eq V c t) Region0.cover

end Cert.Hrgcn

end
-- ==== Proof.Region1.lean ====
/-
  Region 1: its output array after the region is the rows' affine image x·W + r of the arrays the region finds.
  Each grid point writes one block of 5000 rows; a row of the result depends only on the same row of the row-blocked
  input, so the blocks are the restrictions of one whole-array function, and the twenty blocks cover the array.

  The steps: the body's value as x·W + r of the blocks it loads; the index maps decided over the twenty points
  (the row-blocked windows sit at block row t, the weight and the one-row array at block (0, 0)); what point t writes
  back as block t of the whole-array function, by reading each loaded block where the output block's rows say; the
  point whose block holds row p is p / 5000.
-/
import proofs.«155910_j7129645711537_2_alg».proof.Proof.Gen.KernelIdeal.Frame
import proofs.«155910_j7129645711537_2_alg».proof.Proof.Spec
import proofs.«155910_j7129645711537_2_alg».proof.Proof.RegionLib
import Idealize.ShloMosaic.Lib.Pipeline.Value

noncomputable section

namespace Cert.Hrgcn

open Idealize.ShloMosaic Idealize.ShloMosaic.TcCoe Idealize.ShloMosaic.ValueIdx Idealize.SL.Sem Cert.KernelIdeal Cert.KernelIdeal.Gen
open Idealize.ShloMosaic.Pipeline (Dat)

namespace Region1

theorem zeros : (![0, 0] : Fin 2 → Nat) = fun _ => 0 := funext fun a => by fin_cases a <;> rfl

/-- The body's value is the affine map x·W + r of the three blocks it loads. -/
theorem pay_eq (x0 : Vec Ideal S5000x128 .f32) (x1 : Vec Ideal S128x128 .f32) (x2 : Vec Ideal S1x128 .f32) :
    k1_pay1 x0 x1 x2 = linRow x0 x1 x2 :=
  unitLinRow_eq dot_S5000x128_S128x128_S5000x128_1_0_0_1_n_n rfl rfl rfl rfl rfl rfl rfl rfl none _ x0 x1 x2 _ rfl _ _

/-- The index maps over the grid: at point t the row-blocked windows sit at block row t, the weight and the one-row array
    at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

set_option maxHeartbeats 2000000 in
/-- What point t writes back is block t of the whole-array function of the arrays the region finds. -/
theorem flushed_eq (c : Dev nD) (t : Fin cfg1.N) :
    (dat1 (F := Ideal) V c).flushed 3 t
      = ((cfg1.win 3).blk t).view.read (Elt Ideal)
          (linRow (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zeros]
  simp only [View.ld_unit_zero (S := S5000x128) zeros, View.ld_unit_zero (S := S128x128) zeros, View.ld_unit_zero (S := S1x128) zeros]
  rw [pay_eq]
  obtain ⟨e00, e01, e10, e11, e20, e21, eo0, eo1⟩ := idx_facts t
  funext j
  show linRow (iblk1 V c 0 t) (iblk1 V c 1 t) (iblk1 V c 2 t) j
    = linRow (V c (Pipeline.arrRef spec1 0)) (V c (Pipeline.arrRef spec1 1)) (V c (Pipeline.arrRef spec1 2)) (((cfg1.win 3).blk t).view.emb j)
  refine linRow_block _ _ _ _ _ _ j _ (fun k => ?_) (fun k => ?_) ?_
  · show (V c (Pipeline.arrRef spec1 0)) (((cfg1.win 0).blk t).view.emb (ix2 (j 0) k))
      = (V c (Pipeline.arrRef spec1 0)) (ix2 ((((cfg1.win 3).blk t).view.emb j) 0) k)
    refine congrArg _ (funext fun a => Fin.ext ?_)
    match a with
    | ⟨0, _⟩ =>
      show win1_0.index t (0 : Fin 2) * 5000 + 1 * (j 0).val = win1_3.index t (0 : Fin 2) * 5000 + 1 * (j 0).val
      rw [e00, eo0]
    | ⟨1, _⟩ =>
      show win1_0.index t (1 : Fin 2) * 128 + 1 * k.val = k.val
      rw [e01]; omega
  · show (V c (Pipeline.arrRef spec1 1)) (((cfg1.win 1).blk t).view.emb (ix2 k (j 1)))
      = (V c (Pipeline.arrRef spec1 1)) (ix2 k ((((cfg1.win 3).blk t).view.emb j) 1))
    refine congrArg _ (funext fun a => Fin.ext ?_)
    match a with
    | ⟨0, _⟩ =>
      show win1_1.index t (0 : Fin 2) * 128 + 1 * k.val = k.val
      rw [e10]; omega
    | ⟨1, _⟩ =>
      show win1_1.index t (1 : Fin 2) * 128 + 1 * (j 1).val = win1_3.index t (1 : Fin 2) * 128 + 1 * (j 1).val
      rw [e11, eo1]
  · show (V c (Pipeline.arrRef spec1 2)) (((cfg1.win 2).blk t).view.emb (ix2 0 (j 1)))
      = (V c (Pipeline.arrRef spec1 2)) (ix2 0 ((((cfg1.win 3).blk t).view.emb j) 1))
    refine congrArg _ (funext fun a => Fin.ext ?_)
    match a with
    | ⟨0, _⟩ =>
      show win1_2.index t (0 : Fin 2) * 1 + 1 * 0 = 0
      rw [e20]
    | ⟨1, _⟩ =>
      show win1_2.index t (1 : Fin 2) * 128 + 1 * (j 1).val = win1_3.index t (1 : Fin 2) * 128 + 1 * (j 1).val
      rw [e21, eo1]

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v25).slice (win1_3.rect t)).set ↔ _
  rw [View.set_slice_whole, Rect.mem_set_unit]
  exact Iff.rfl

/-- Row p of the array lies in the block of point p / 5000: the twenty blocks cover the array. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, eo0, eo1⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [eo0, ht]; omega
  | ⟨1, _⟩ =>
    show win1_3.index t (1 : Fin 2) * 128 ≤ (i 1).val ∧ (i 1).val < win1_3.index t (1 : Fin 2) * 128 + 128
    rw [eo1]; omega

end Region1

theorem region1 (V : (c : Dev nD) → (b : Ref sig .tc) → Buf (Elt Ideal) ((c : Thread nD τ).loc b)) (c : Dev nD) :
    (dat1 (F := Ideal) V c).arrAt 3 cfg1.N = linRow (V c (Pipeline.arrRef spec1 0)) (V c (Pipeline.arrRef spec1 1)) (V c (Pipeline.arrRef spec1 2)) :=
  (dat1 (F := Ideal) V c).arrAt_eq_of_cover 3 _ (fun t _ => Region1.flushed_eq V c t) Region1.cover

end Cert.Hrgcn

end
-- ==== Proof.Region2.lean ====
/-
  Region 2: its output array after the region is the rectified node update of the arrays the region finds.
  Each grid point writes one block of 5000 rows; a row of the result depends only on the same row of the row-blocked
  inputs, so the blocks are the restrictions of one whole-array function, and the twenty blocks cover the array.

  The steps: the body's value as the rectified node update s·c + (x·W + r) of the blocks it loads; the index maps decided over the twenty points
  (the row-blocked windows sit at block row t, the weight and the one-row array at block (0, 0)); what point t writes
  back as block t of the whole-array function, by reading each loaded block where the output block's rows say; the
  point whose block holds row p is p / 5000.
-/
import proofs.«155910_j7129645711537_2_alg».proof.Proof.Gen.KernelIdeal.Frame
import proofs.«155910_j7129645711537_2_alg».proof.Proof.Spec
import proofs.«155910_j7129645711537_2_alg».proof.Proof.RegionLib
import Idealize.ShloMosaic.Lib.Pipeline.Value

noncomputable section

namespace Cert.Hrgcn

open Idealize.ShloMosaic Idealize.ShloMosaic.TcCoe Idealize.ShloMosaic.ValueIdx Idealize.SL.Sem Cert.KernelIdeal Cert.KernelIdeal.Gen
open Idealize.ShloMosaic.Pipeline (Dat)

namespace Region2

theorem zeros : (![0, 0] : Fin 2 → Nat) = fun _ => 0 := funext fun a => by fin_cases a <;> rfl

/-- The body's value is the rectifier of the node update s·c + (x·W + r) of the five blocks it loads. -/
theorem pay_eq (s : Vec Ideal S5000x128 .f32) (c : Vec Ideal S5000x1 .f32) (x : Vec Ideal S5000x128 .f32)
    (w : Vec Ideal S128x128 .f32) (r : Vec Ideal S1x128 .f32) :
    k2_pay1 s c x w r = leaky (comb s c x w r) :=
  (selectLeaky_eq _).trans (congrArg leaky (unitComb_eq dot_S5000x128_S128x128_S5000x128_1_0_0_1_n_n rfl rfl rfl rfl rfl rfl rfl rfl none _ s c x w r _ (shapeCast_self s _) _ rfl _ _ _ _))

/-- The index maps over the grid: at point t the row-blocked windows sit at block row t, the weight and the one-row array
    at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

set_option maxHeartbeats 2000000 in
/-- What point t writes back is block t of the whole-array function of the arrays the region finds. -/
theorem flushed_eq (c : Dev nD) (t : Fin cfg2.N) :
    (dat2 (F := Ideal) V c).flushed 5 t
      = ((cfg2.win 5).blk t).view.read (Elt Ideal)
          (leaky (comb (V c (Pipeline.arrRef spec2 0)) (V c (Pipeline.arrRef spec2 1)) (V c (Pipeline.arrRef spec2 2)) (V c (Pipeline.arrRef spec2 3)) (V c (Pipeline.arrRef spec2 4)))) := by
  show (cfg2.win 5).cut (grid2.coords t) ((dat2 (F := Ideal) V c).after 5 t) = _
  rw [after2_5]
  unfold out2_5
  rw [View.canon_unit_zero zeros]
  simp only [View.ld_unit_zero (S := S5000x128) zeros, View.ld_unit_zero (S := S5000x1) zeros, View.ld_unit_zero (S := S128x128) zeros, View.ld_unit_zero (S := S1x128) zeros]
  rw [pay_eq]
  obtain ⟨e00, e01, e10, e11, e20, e21, e30, e31, e40, e41, eo0, eo1⟩ := idx_facts t
  funext j
  show leaky (comb (iblk2 V c 0 t) (iblk2 V c 1 t) (iblk2 V c 2 t) (iblk2 V c 3 t) (iblk2 V c 4 t)) j
    = leaky (comb (V c (Pipeline.arrRef spec2 0)) (V c (Pipeline.arrRef spec2 1)) (V c (Pipeline.arrRef spec2 2)) (V c (Pipeline.arrRef spec2 3)) (V c (Pipeline.arrRef spec2 4))) (((cfg2.win 5).blk t).view.emb j)
  refine leaky_block _ _ j _ ?_
  refine comb_block _ _ _ _ _ _ _ _ _ _ j _ ?_ ?_ (fun k => ?_) (fun k => ?_) ?_
  · show (V c (Pipeline.arrRef spec2 0)) (((cfg2.win 0).blk t).view.emb j) = (V c (Pipeline.arrRef spec2 0)) (((cfg2.win 5).blk t).view.emb j)
    refine congrArg _ (funext fun a => Fin.ext ?_)
    match a with
    | ⟨0, _⟩ =>
      show win2_0.index t (0 : Fin 2) * 5000 + 1 * (j 0).val = win2_5.index t (0 : Fin 2) * 5000 + 1 * (j 0).val
      rw [e00, eo0]
    | ⟨1, _⟩ =>
      show win2_0.index t (1 : Fin 2) * 128 + 1 * (j 1).val = win2_5.index t (1 : Fin 2) * 128 + 1 * (j 1).val
      rw [e01, eo1]
  · show (V c (Pipeline.arrRef spec2 1)) (((cfg2.win 1).blk t).view.emb (ix2 (j 0) 0))
      = (V c (Pipeline.arrRef spec2 1)) (ix2 ((((cfg2.win 5).blk t).view.emb j) 0) 0)
    refine congrArg _ (funext fun a => Fin.ext ?_)
    match a with
    | ⟨0, _⟩ =>
      show win2_1.index t (0 : Fin 2) * 5000 + 1 * (j 0).val = win2_5.index t (0 : Fin 2) * 5000 + 1 * (j 0).val
      rw [e10, eo0]
    | ⟨1, _⟩ =>
      show win2_1.index t (1 : Fin 2) * 1 + 1 * 0 = 0
      rw [e11]
  · show (V c (Pipeline.arrRef spec2 2)) (((cfg2.win 2).blk t).view.emb (ix2 (j 0) k))
      = (V c (Pipeline.arrRef spec2 2)) (ix2 ((((cfg2.win 5).blk t).view.emb j) 0) k)
    refine congrArg _ (funext fun a => Fin.ext ?_)
    match a with
    | ⟨0, _⟩ =>
      show win2_2.index t (0 : Fin 2) * 5000 + 1 * (j 0).val = win2_5.index t (0 : Fin 2) * 5000 + 1 * (j 0).val
      rw [e20, eo0]
    | ⟨1, _⟩ =>
      show win2_2.index t (1 : Fin 2) * 128 + 1 * k.val = k.val
      rw [e21]; omega
  · show (V c (Pipeline.arrRef spec2 3)) (((cfg2.win 3).blk t).view.emb (ix2 k (j 1)))
      = (V c (Pipeline.arrRef spec2 3)) (ix2 k ((((cfg2.win 5).blk t).view.emb j) 1))
    refine congrArg _ (funext fun a => Fin.ext ?_)
    match a with
    | ⟨0, _⟩ =>
      show win2_3.index t (0 : Fin 2) * 128 + 1 * k.val = k.val
      rw [e30]; omega
    | ⟨1, _⟩ =>
      show win2_3.index t (1 : Fin 2) * 128 + 1 * (j 1).val = win2_5.index t (1 : Fin 2) * 128 + 1 * (j 1).val
      rw [e31, eo1]
  · show (V c (Pipeline.arrRef spec2 4)) (((cfg2.win 4).blk t).view.emb (ix2 0 (j 1)))
      = (V c (Pipeline.arrRef spec2 4)) (ix2 0 ((((cfg2.win 5).blk t).view.emb j) 1))
    refine congrArg _ (funext fun a => Fin.ext ?_)
    match a with
    | ⟨0, _⟩ =>
      show win2_4.index t (0 : Fin 2) * 1 + 1 * 0 = 0
      rw [e40]
    | ⟨1, _⟩ =>
      show win2_4.index t (1 : Fin 2) * 128 + 1 * (j 1).val = win2_5.index t (1 : Fin 2) * 128 + 1 * (j 1).val
      rw [e41, eo1]

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v48).slice (win2_5.rect t)).set ↔ _
  rw [View.set_slice_whole, Rect.mem_set_unit]
  exact Iff.rfl

/-- Row p of the array lies in the block of point p / 5000: the twenty blocks cover the array. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, eo0, eo1⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [eo0, ht]; omega
  | ⟨1, _⟩ =>
    show win2_5.index t (1 : Fin 2) * 128 ≤ (i 1).val ∧ (i 1).val < win2_5.index t (1 : Fin 2) * 128 + 128
    rw [eo1]; omega

end Region2

theorem region2 (V : (c : Dev nD) → (b : Ref sig .tc) → Buf (Elt Ideal) ((c : Thread nD τ).loc b)) (c : Dev nD) :
    (dat2 (F := Ideal) V c).arrAt 5 cfg2.N = leaky (comb (V c (Pipeline.arrRef spec2 0)) (V c (Pipeline.arrRef spec2 1)) (V c (Pipeline.arrRef spec2 2)) (V c (Pipeline.arrRef spec2 3)) (V c (Pipeline.arrRef spec2 4))) :=
  (dat2 (F := Ideal) V c).arrAt_eq_of_cover 5 _ (fun t _ => Region2.flushed_eq V c t) Region2.cover

end Cert.Hrgcn

end
-- ==== Proof.Region3.lean ====
/-
  Region 3: its output array after the region is the rectified node update of the arrays the region finds.
  Each grid point writes one block of 5000 rows; a row of the result depends only on the same row of the row-blocked
  inputs, so the blocks are the restrictions of one whole-array function, and the twenty blocks cover the array.

  The steps: the body's value as the rectified node update s·c + (x·W + r) of the blocks it loads; the index maps decided over the twenty points
  (the row-blocked windows sit at block row t, the weight and the one-row array at block (0, 0)); what point t writes
  back as block t of the whole-array function, by reading each loaded block where the output block's rows say; the
  point whose block holds row p is p / 5000.
-/
import proofs.«155910_j7129645711537_2_alg».proof.Proof.Gen.KernelIdeal.Frame
import proofs.«155910_j7129645711537_2_alg».proof.Proof.Spec
import proofs.«155910_j7129645711537_2_alg».proof.Proof.RegionLib
import Idealize.ShloMosaic.Lib.Pipeline.Value

noncomputable section

namespace Cert.Hrgcn

open Idealize.ShloMosaic Idealize.ShloMosaic.TcCoe Idealize.ShloMosaic.ValueIdx Idealize.SL.Sem Cert.KernelIdeal Cert.KernelIdeal.Gen
open Idealize.ShloMosaic.Pipeline (Dat)

namespace Region3

theorem zeros : (![0, 0] : Fin 2 → Nat) = fun _ => 0 := funext fun a => by fin_cases a <;> rfl

/-- The body's value is the rectifier of the node update s·c + (x·W + r) of the five blocks it loads. -/
theorem pay_eq (s : Vec Ideal S5000x128 .f32) (c : Vec Ideal S5000x1 .f32) (x : Vec Ideal S5000x128 .f32)
    (w : Vec Ideal S128x128 .f32) (r : Vec Ideal S1x128 .f32) :
    k3_pay1 s c x w r = leaky (comb s c x w r) :=
  (selectLeaky_eq _).trans (congrArg leaky (unitComb_eq dot_S5000x128_S128x128_S5000x128_1_0_0_1_n_n rfl rfl rfl rfl rfl rfl rfl rfl none _ s c x w r _ (shapeCast_self s _) _ rfl _ _ _ _))

/-- The index maps over the grid: at point t the row-blocked windows sit at block row t, the weight and the one-row array
    at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

set_option maxHeartbeats 2000000 in
/-- What point t writes back is block t of the whole-array function of the arrays the region finds. -/
theorem flushed_eq (c : Dev nD) (t : Fin cfg3.N) :
    (dat3 (F := Ideal) V c).flushed 5 t
      = ((cfg3.win 5).blk t).view.read (Elt Ideal)
          (leaky (comb (V c (Pipeline.arrRef spec3 0)) (V c (Pipeline.arrRef spec3 1)) (V c (Pipeline.arrRef spec3 2)) (V c (Pipeline.arrRef spec3 3)) (V c (Pipeline.arrRef spec3 4)))) := by
  show (cfg3.win 5).cut (grid3.coords t) ((dat3 (F := Ideal) V c).after 5 t) = _
  rw [after3_5]
  unfold out3_5
  rw [View.canon_unit_zero zeros]
  simp only [View.ld_unit_zero (S := S5000x128) zeros, View.ld_unit_zero (S := S5000x1) zeros, View.ld_unit_zero (S := S128x128) zeros, View.ld_unit_zero (S := S1x128) zeros]
  rw [pay_eq]
  obtain ⟨e00, e01, e10, e11, e20, e21, e30, e31, e40, e41, eo0, eo1⟩ := idx_facts t
  funext j
  show leaky (comb (iblk3 V c 0 t) (iblk3 V c 1 t) (iblk3 V c 2 t) (iblk3 V c 3 t) (iblk3 V c 4 t)) j
    = leaky (comb (V c (Pipeline.arrRef spec3 0)) (V c (Pipeline.arrRef spec3 1)) (V c (Pipeline.arrRef spec3 2)) (V c (Pipeline.arrRef spec3 3)) (V c (Pipeline.arrRef spec3 4))) (((cfg3.win 5).blk t).view.emb j)
  refine leaky_block _ _ j _ ?_
  refine comb_block _ _ _ _ _ _ _ _ _ _ j _ ?_ ?_ (fun k => ?_) (fun k => ?_) ?_
  · show (V c (Pipeline.arrRef spec3 0)) (((cfg3.win 0).blk t).view.emb j) = (V c (Pipeline.arrRef spec3 0)) (((cfg3.win 5).blk t).view.emb j)
    refine congrArg _ (funext fun a => Fin.ext ?_)
    match a with
    | ⟨0, _⟩ =>
      show win3_0.index t (0 : Fin 2) * 5000 + 1 * (j 0).val = win3_5.index t (0 : Fin 2) * 5000 + 1 * (j 0).val
      rw [e00, eo0]
    | ⟨1, _⟩ =>
      show win3_0.index t (1 : Fin 2) * 128 + 1 * (j 1).val = win3_5.index t (1 : Fin 2) * 128 + 1 * (j 1).val
      rw [e01, eo1]
  · show (V c (Pipeline.arrRef spec3 1)) (((cfg3.win 1).blk t).view.emb (ix2 (j 0) 0))
      = (V c (Pipeline.arrRef spec3 1)) (ix2 ((((cfg3.win 5).blk t).view.emb j) 0) 0)
    refine congrArg _ (funext fun a => Fin.ext ?_)
    match a with
    | ⟨0, _⟩ =>
      show win3_1.index t (0 : Fin 2) * 5000 + 1 * (j 0).val = win3_5.index t (0 : Fin 2) * 5000 + 1 * (j 0).val
      rw [e10, eo0]
    | ⟨1, _⟩ =>
      show win3_1.index t (1 : Fin 2) * 1 + 1 * 0 = 0
      rw [e11]
  · show (V c (Pipeline.arrRef spec3 2)) (((cfg3.win 2).blk t).view.emb (ix2 (j 0) k))
      = (V c (Pipeline.arrRef spec3 2)) (ix2 ((((cfg3.win 5).blk t).view.emb j) 0) k)
    refine congrArg _ (funext fun a => Fin.ext ?_)
    match a with
    | ⟨0, _⟩ =>
      show win3_2.index t (0 : Fin 2) * 5000 + 1 * (j 0).val = win3_5.index t (0 : Fin 2) * 5000 + 1 * (j 0).val
      rw [e20, eo0]
    | ⟨1, _⟩ =>
      show win3_2.index t (1 : Fin 2) * 128 + 1 * k.val = k.val
      rw [e21]; omega
  · show (V c (Pipeline.arrRef spec3 3)) (((cfg3.win 3).blk t).view.emb (ix2 k (j 1)))
      = (V c (Pipeline.arrRef spec3 3)) (ix2 k ((((cfg3.win 5).blk t).view.emb j) 1))
    refine congrArg _ (funext fun a => Fin.ext ?_)
    match a with
    | ⟨0, _⟩ =>
      show win3_3.index t (0 : Fin 2) * 128 + 1 * k.val = k.val
      rw [e30]; omega
    | ⟨1, _⟩ =>
      show win3_3.index t (1 : Fin 2) * 128 + 1 * (j 1).val = win3_5.index t (1 : Fin 2) * 128 + 1 * (j 1).val
      rw [e31, eo1]
  · show (V c (Pipeline.arrRef spec3 4)) (((cfg3.win 4).blk t).view.emb (ix2 0 (j 1)))
      = (V c (Pipeline.arrRef spec3 4)) (ix2 0 ((((cfg3.win 5).blk t).view.emb j) 1))
    refine congrArg _ (funext fun a => Fin.ext ?_)
    match a with
    | ⟨0, _⟩ =>
      show win3_4.index t (0 : Fin 2) * 1 + 1 * 0 = 0
      rw [e40]
    | ⟨1, _⟩ =>
      show win3_4.index t (1 : Fin 2) * 128 + 1 * (j 1).val = win3_5.index t (1 : Fin 2) * 128 + 1 * (j 1).val
      rw [e41, eo1]

/-- An index of the array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v51).slice (win3_5.rect t)).set ↔ _
  rw [View.set_slice_whole, Rect.mem_set_unit]
  exact Iff.rfl

/-- Row p of the array lies in the block of point p / 5000: the twenty blocks cover the array. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, -, -, -, -, eo0, eo1⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    rw [eo0, ht]; omega
  | ⟨1, _⟩ =>
    show win3_5.index t (1 : Fin 2) * 128 ≤ (i 1).val ∧ (i 1).val < win3_5.index t (1 : Fin 2) * 128 + 128
    rw [eo1]; omega

end Region3

theorem region3 (V : (c : Dev nD) → (b : Ref sig .tc) → Buf (Elt Ideal) ((c : Thread nD τ).loc b)) (c : Dev nD) :
    (dat3 (F := Ideal) V c).arrAt 5 cfg3.N = leaky (comb (V c (Pipeline.arrRef spec3 0)) (V c (Pipeline.arrRef spec3 1)) (V c (Pipeline.arrRef spec3 2)) (V c (Pipeline.arrRef spec3 3)) (V c (Pipeline.arrRef spec3 4))) :=
  (dat3 (F := Ideal) V c).arrAt_eq_of_cover 5 _ (fun t _ => Region3.flushed_eq V c t) Region3.cover

end Cert.Hrgcn

end
-- ==== Proof.Region4.lean ====
/-
  Region 4: its output array after the region is the rows' affine image x·W + r of the arrays the region finds.
  Each grid point writes one block of 5000 rows; a row of the result depends only on the same row of the row-blocked
  input, so the blocks are the restrictions of one whole-array function, and the twenty blocks cover the array.

  The steps: the body's value as x·W + r of the blocks it loads; the index maps decided over the twenty points
  (the row-blocked windows sit at block row t, the weight and the one-row array at block (0, 0)); what point t writes
  back as block t of the whole-array function, by reading each loaded block where the output block's rows say; the
  point whose block holds row p is p / 5000.
-/
import proofs.«155910_j7129645711537_2_alg».proof.Proof.Gen.KernelIdeal.Frame
import proofs.«155910_j7129645711537_2_alg».proof.Proof.Spec
import proofs.«155910_j7129645711537_2_alg».proof.Proof.RegionLib
import Idealize.ShloMosaic.Lib.Pipeline.Value

noncomputable section

namespace Cert.Hrgcn

open Idealize.ShloMosaic Idealize.ShloMosaic.TcCoe Idealize.ShloMosaic.ValueIdx Idealize.SL.Sem Cert.KernelIdeal Cert.KernelIdeal.Gen
open Idealize.ShloMosaic.Pipeline (Dat)

namespace Region4

theorem zeros : (![0, 0] : Fin 2 → Nat) = fun _ => 0 := funext fun a => by fin_cases a <;> rfl

/-- The body's value is the affine map x·W + r of the three blocks it loads. -/
theorem pay_eq (x0 : Vec Ideal S5000x128 .f32) (x1 : Vec Ideal S128x64 .f32) (x2 : Vec Ideal S1x64 .f32) :
    k4_pay1 x0 x1 x2 = linRow x0 x1 x2 :=
  unitLinRow_eq dot_S5000x128_S128x64_S5000x64_1_0_0_1_n_n rfl rfl rfl rfl rfl rfl rfl rfl none _ x0 x1 x2 _ (shapeCast_self x0 _) _ _

/-- The index maps over the grid: at point t the row-blocked windows sit at block row t, the weight and the one-row array
    at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

set_option maxHeartbeats 2000000 in
/-- What point t writes back is block t of the whole-array function of the arrays the region finds. -/
theorem flushed_eq (c : Dev nD) (t : Fin cfg4.N) :
    (dat4 (F := Ideal) V c).flushed 3 t
      = ((cfg4.win 3).blk t).view.read (Elt Ideal)
          (linRow (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero zeros]
  simp only [View.ld_unit_zero (S := S5000x128) zeros, View.ld_unit_zero (S := S128x64) zeros, View.ld_unit_zero (S := S1x64) zeros]
  rw [pay_eq]
  obtain ⟨e00, e01, e10, e11, e20, e21, eo0, eo1⟩ := idx_facts t
  funext j
  show linRow (iblk4 V c 0 t) (iblk4 V c 1 t) (iblk4 V c 2 t) j
    = linRow (V c (Pipeline.arrRef spec4 0)) (V c (Pipeline.arrRef spec4 1)) (V c (Pipeline.arrRef spec4 2)) (((cfg4.win 3).blk t).view.emb j)
  refine linRow_block _ _ _ _ _ _ j _ (fun k => ?_) (fun k => ?_) ?_
  · show (V c (Pipeline.arrRef spec4 0)) (((cfg4.win 0).blk t).view.emb (ix2 (j 0) k))
      = (V c (Pipeline.arrRef spec4 0)) (ix2 ((((cfg4.win 3).blk t).view.emb j) 0) k)
    refine congrArg _ (funext fun a => Fin.ext ?_)
    match a with
    | ⟨0, _⟩ =>
      show win4_0.index t (0 : Fin 2) * 5000 + 1 * (j 0).val = win4_3.index t (0 : Fin 2) * 5000 + 1 * (j 0).val
      rw [e00, eo0]
    | ⟨1, _⟩ =>
      show win4_0.index t (1 : Fin 2) * 128 + 1 * k.val = k.val
      rw [e01]; omega
  · show (V c (Pipeline.arrRef spec4 1)) (((cfg4.win 1).blk t).view.emb (ix2 k (j 1)))
      = (V c (Pipeline.arrRef spec4 1)) (ix2 k ((((cfg4.win 3).blk t).view.emb j) 1))
    refine congrArg _ (funext fun a => Fin.ext ?_)
    match a with
    | ⟨0, _⟩ =>
      show win4_1.index t (0 : Fin 2) * 128 + 1 * k.val = k.val
      rw [e10]; omega
    | ⟨1, _⟩ =>
      show win4_1.index t (1 : Fin 2) * 64 + 1 * (j 1).val = win4_3.index t (1 : Fin 2) * 64 + 1 * (j 1).val
      rw [e11, eo1]
  · show (V c (Pipeline.arrRef spec4 2)) (((cfg4.win 2).blk t).view.emb (ix2 0 (j 1)))
      = (V c (Pipeline.arrRef spec4 2)) (ix2 0 ((((cfg4.win 3).blk t).view.emb j) 1))
    refine congrArg _ (funext fun a => Fin.ext ?_)
    match a with
    | ⟨0, _⟩ =>
      show win4_2.index t (0 : Fin 2) * 1 + 1 * 0 = 0
      rw [e20]
    | ⟨1, _⟩ =>
      show win4_2.index t (1 : Fin 2) * 64 + 1 * (j 1).val = win4_3.index t (1 : Fin 2) * 64 + 1 * (j 1).val
      rw [e21, eo1]

/-- An index of the array is in point t's block iff each coordinate is in the block's range on its axis. -/
theorem mem_blk (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v53).slice (win4_3.rect t)).set ↔ _
  rw [View.set_slice_whole, Rect.mem_set_unit]
  exact Iff.rfl

/-- Row p of the array lies in the block of point p / 5000: the twenty blocks cover the array. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, eo0, eo1⟩ := idx_facts t
  refine ⟨t, flush4_3 t, ?_⟩
  rw [mem_blk]
  intro a
  match a with
  | ⟨0, _⟩ =>
    show win4_3.index t (0 : Fin 2) * 5000 ≤ (i 0).val ∧ (i 0).val < win4_3.index t (0 : Fin 2) * 5000 + 5000
    rw [eo0, ht]; omega
  | ⟨1, _⟩ =>
    show win4_3.index t (1 : Fin 2) * 64 ≤ (i 1).val ∧ (i 1).val < win4_3.index t (1 : Fin 2) * 64 + 64
    rw [eo1]; omega

end Region4

theorem region4 (V : (c : Dev nD) → (b : Ref sig .tc) → Buf (Elt Ideal) ((c : Thread nD τ).loc b)) (c : Dev nD) :
    (dat4 (F := Ideal) V c).arrAt 3 cfg4.N = linRow (V c (Pipeline.arrRef spec4 0)) (V c (Pipeline.arrRef spec4 1)) (V c (Pipeline.arrRef spec4 2)) :=
  (dat4 (F := Ideal) V c).arrAt_eq_of_cover 3 _ (fun t _ => Region4.flushed_eq V c t) Region4.cover

end Cert.Hrgcn

end
-- ==== Proof.Region5.lean ====
/-
  Region 5: its output array after the region is the rows' affine image x·W + r of the arrays the region finds.
  Each grid point writes one block of 5000 rows; a row of the result depends only on the same row of the row-blocked
  input, so the blocks are the restrictions of one whole-array function, and the twenty blocks cover the array.

  The steps: the body's value as x·W + r of the blocks it loads; the index maps decided over the twenty points
  (the row-blocked windows sit at block row t, the weight and the one-row array at block (0, 0)); what point t writes
  back as block t of the whole-array function, by reading each loaded block where the output block's rows say; the
  point whose block holds row p is p / 5000.
-/
import proofs.«155910_j7129645711537_2_alg».proof.Proof.Gen.KernelIdeal.Frame
import proofs.«155910_j7129645711537_2_alg».proof.Proof.Spec
import proofs.«155910_j7129645711537_2_alg».proof.Proof.RegionLib
import Idealize.ShloMosaic.Lib.Pipeline.Value

noncomputable section

namespace Cert.Hrgcn

open Idealize.ShloMosaic Idealize.ShloMosaic.TcCoe Idealize.ShloMosaic.ValueIdx Idealize.SL.Sem Cert.KernelIdeal Cert.KernelIdeal.Gen
open Idealize.ShloMosaic.Pipeline (Dat)

namespace Region5

theorem zeros : (![0, 0] : Fin 2 → Nat) = fun _ => 0 := funext fun a => by fin_cases a <;> rfl

/-- The body's value is the affine map x·W + r of the three blocks it loads. -/
theorem pay_eq (x0 : Vec Ideal S5000x128 .f32) (x1 : Vec Ideal S128x64 .f32) (x2 : Vec Ideal S1x64 .f32) :
    k5_pay1 x0 x1 x2 = linRow x0 x1 x2 :=
  unitLinRow_eq dot_S5000x128_S128x64_S5000x64_1_0_0_1_n_n rfl rfl rfl rfl rfl rfl rfl rfl none _ x0 x1 x2 _ (shapeCast_self x0 _) _ _

/-- The index maps over the grid: at point t the row-blocked windows sit at block row t, the weight and the one-row array
    at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

set_option maxHeartbeats 2000000 in
/-- What point t writes back is block t of the whole-array function of the arrays the region finds. -/
theorem flushed_eq (c : Dev nD) (t : Fin cfg5.N) :
    (dat5 (F := Ideal) V c).flushed 3 t
      = ((cfg5.win 3).blk t).view.read (Elt Ideal)
          (linRow (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero zeros]
  simp only [View.ld_unit_zero (S := S5000x128) zeros, View.ld_unit_zero (S := S128x64) zeros, View.ld_unit_zero (S := S1x64) zeros]
  rw [pay_eq]
  obtain ⟨e00, e01, e10, e11, e20, e21, eo0, eo1⟩ := idx_facts t
  funext j
  show linRow (iblk5 V c 0 t) (iblk5 V c 1 t) (iblk5 V c 2 t) j
    = linRow (V c (Pipeline.arrRef spec5 0)) (V c (Pipeline.arrRef spec5 1)) (V c (Pipeline.arrRef spec5 2)) (((cfg5.win 3).blk t).view.emb j)
  refine linRow_block _ _ _ _ _ _ j _ (fun k => ?_) (fun k => ?_) ?_
  · show (V c (Pipeline.arrRef spec5 0)) (((cfg5.win 0).blk t).view.emb (ix2 (j 0) k))
      = (V c (Pipeline.arrRef spec5 0)) (ix2 ((((cfg5.win 3).blk t).view.emb j) 0) k)
    refine congrArg _ (funext fun a => Fin.ext ?_)
    match a with
    | ⟨0, _⟩ =>
      show win5_0.index t (0 : Fin 2) * 5000 + 1 * (j 0).val = win5_3.index t (0 : Fin 2) * 5000 + 1 * (j 0).val
      rw [e00, eo0]
    | ⟨1, _⟩ =>
      show win5_0.index t (1 : Fin 2) * 128 + 1 * k.val = k.val
      rw [e01]; omega
  · show (V c (Pipeline.arrRef spec5 1)) (((cfg5.win 1).blk t).view.emb (ix2 k (j 1)))
      = (V c (Pipeline.arrRef spec5 1)) (ix2 k ((((cfg5.win 3).blk t).view.emb j) 1))
    refine congrArg _ (funext fun a => Fin.ext ?_)
    match a with
    | ⟨0, _⟩ =>
      show win5_1.index t (0 : Fin 2) * 128 + 1 * k.val = k.val
      rw [e10]; omega
    | ⟨1, _⟩ =>
      show win5_1.index t (1 : Fin 2) * 64 + 1 * (j 1).val = win5_3.index t (1 : Fin 2) * 64 + 1 * (j 1).val
      rw [e11, eo1]
  · show (V c (Pipeline.arrRef spec5 2)) (((cfg5.win 2).blk t).view.emb (ix2 0 (j 1)))
      = (V c (Pipeline.arrRef spec5 2)) (ix2 0 ((((cfg5.win 3).blk t).view.emb j) 1))
    refine congrArg _ (funext fun a => Fin.ext ?_)
    match a with
    | ⟨0, _⟩ =>
      show win5_2.index t (0 : Fin 2) * 1 + 1 * 0 = 0
      rw [e20]
    | ⟨1, _⟩ =>
      show win5_2.index t (1 : Fin 2) * 64 + 1 * (j 1).val = win5_3.index t (1 : Fin 2) * 64 + 1 * (j 1).val
      rw [e21, eo1]

/-- An index of the array is in point t's block iff each coordinate is in the block's range on its axis. -/
theorem mem_blk (t : Fin cfg5.N) (i : S100000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v55).slice (win5_3.rect t)).set ↔ _
  rw [View.set_slice_whole, Rect.mem_set_unit]
  exact Iff.rfl

/-- Row p of the array lies in the block of point p / 5000: the twenty blocks cover the array. -/
theorem cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, -, -, eo0, eo1⟩ := idx_facts t
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    rw [eo0, ht]; omega
  | ⟨1, _⟩ =>
    show win5_3.index t (1 : Fin 2) * 64 ≤ (i 1).val ∧ (i 1).val < win5_3.index t (1 : Fin 2) * 64 + 64
    rw [eo1]; omega

end Region5

theorem region5 (V : (c : Dev nD) → (b : Ref sig .tc) → Buf (Elt Ideal) ((c : Thread nD τ).loc b)) (c : Dev nD) :
    (dat5 (F := Ideal) V c).arrAt 3 cfg5.N = linRow (V c (Pipeline.arrRef spec5 0)) (V c (Pipeline.arrRef spec5 1)) (V c (Pipeline.arrRef spec5 2)) :=
  (dat5 (F := Ideal) V c).arrAt_eq_of_cover 3 _ (fun t _ => Region5.flushed_eq V c t) Region5.cover

end Cert.Hrgcn

end
-- ==== Proof.Region6.lean ====
/-
  Region 6: its output array after the region is the node update of the arrays the region finds.
  Each grid point writes one block of 5000 rows; a row of the result depends only on the same row of the row-blocked
  inputs, so the blocks are the restrictions of one whole-array function, and the twenty blocks cover the array.

  The steps: the body's value as the node update s·c + (x·W + r) of the blocks it loads; the index maps decided over the twenty points
  (the row-blocked windows sit at block row t, the weight and the one-row array at block (0, 0)); what point t writes
  back as block t of the whole-array function, by reading each loaded block where the output block's rows say; the
  point whose block holds row p is p / 5000.
-/
import proofs.«155910_j7129645711537_2_alg».proof.Proof.Gen.KernelIdeal.Frame
import proofs.«155910_j7129645711537_2_alg».proof.Proof.Spec
import proofs.«155910_j7129645711537_2_alg».proof.Proof.RegionLib
import Idealize.ShloMosaic.Lib.Pipeline.Value

noncomputable section

namespace Cert.Hrgcn

open Idealize.ShloMosaic Idealize.ShloMosaic.TcCoe Idealize.ShloMosaic.ValueIdx Idealize.SL.Sem Cert.KernelIdeal Cert.KernelIdeal.Gen
open Idealize.ShloMosaic.Pipeline (Dat)

namespace Region6

theorem zeros : (![0, 0] : Fin 2 → Nat) = fun _ => 0 := funext fun a => by fin_cases a <;> rfl

/-- The body's value is the node update s·c + (x·W + r) of the five blocks it loads. -/
theorem pay_eq (s : Vec Ideal S5000x64 .f32) (c : Vec Ideal S5000x1 .f32) (x : Vec Ideal S5000x128 .f32)
    (w : Vec Ideal S128x64 .f32) (r : Vec Ideal S1x64 .f32) :
    k6_pay1 s c x w r = comb s c x w r :=
  unitComb_eq dot_S5000x128_S128x64_S5000x64_1_0_0_1_n_n rfl rfl rfl rfl rfl rfl rfl rfl none _ s c x w r _ (shapeCast_self s _) _ (shapeCast_self x _) _ _ _ _

/-- The index maps over the grid: at point t the row-blocked windows sit at block row t, the weight and the one-row array
    at block (0, 0). -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

variable (V : (c : Dev nD) → (b : Ref sig .tc) → Buf (Elt Ideal) ((c : Thread nD τ).loc b))

set_option maxHeartbeats 2000000 in
/-- What point t writes back is block t of the whole-array function of the arrays the region finds. -/
theorem flushed_eq (c : Dev nD) (t : Fin cfg6.N) :
    (dat6 (F := Ideal) V c).flushed 5 t
      = ((cfg6.win 5).blk t).view.read (Elt Ideal)
          (comb (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 (F := Ideal) V c).after 5 t) = _
  rw [after6_5]
  unfold out6_5
  rw [View.canon_unit_zero zeros]
  simp only [View.ld_unit_zero (S := S5000x64) zeros, View.ld_unit_zero (S := S5000x1) zeros, View.ld_unit_zero (S := S5000x128) zeros, View.ld_unit_zero (S := S128x64) zeros, View.ld_unit_zero (S := S1x64) zeros]
  rw [pay_eq]
  obtain ⟨e00, e01, e10, e11, e20, e21, e30, e31, e40, e41, eo0, eo1⟩ := idx_facts t
  funext j
  show comb (iblk6 V c 0 t) (iblk6 V c 1 t) (iblk6 V c 2 t) (iblk6 V c 3 t) (iblk6 V c 4 t) j
    = comb (V c (Pipeline.arrRef spec6 0)) (V c (Pipeline.arrRef spec6 1)) (V c (Pipeline.arrRef spec6 2)) (V c (Pipeline.arrRef spec6 3)) (V c (Pipeline.arrRef spec6 4)) (((cfg6.win 5).blk t).view.emb j)
  refine comb_block _ _ _ _ _ _ _ _ _ _ j _ ?_ ?_ (fun k => ?_) (fun k => ?_) ?_
  · show (V c (Pipeline.arrRef spec6 0)) (((cfg6.win 0).blk t).view.emb j) = (V c (Pipeline.arrRef spec6 0)) (((cfg6.win 5).blk t).view.emb j)
    refine congrArg _ (funext fun a => Fin.ext ?_)
    match a with
    | ⟨0, _⟩ =>
      show win6_0.index t (0 : Fin 2) * 5000 + 1 * (j 0).val = win6_5.index t (0 : Fin 2) * 5000 + 1 * (j 0).val
      rw [e00, eo0]
    | ⟨1, _⟩ =>
      show win6_0.index t (1 : Fin 2) * 64 + 1 * (j 1).val = win6_5.index t (1 : Fin 2) * 64 + 1 * (j 1).val
      rw [e01, eo1]
  · show (V c (Pipeline.arrRef spec6 1)) (((cfg6.win 1).blk t).view.emb (ix2 (j 0) 0))
      = (V c (Pipeline.arrRef spec6 1)) (ix2 ((((cfg6.win 5).blk t).view.emb j) 0) 0)
    refine congrArg _ (funext fun a => Fin.ext ?_)
    match a with
    | ⟨0, _⟩ =>
      show win6_1.index t (0 : Fin 2) * 5000 + 1 * (j 0).val = win6_5.index t (0 : Fin 2) * 5000 + 1 * (j 0).val
      rw [e10, eo0]
    | ⟨1, _⟩ =>
      show win6_1.index t (1 : Fin 2) * 1 + 1 * 0 = 0
      rw [e11]
  · show (V c (Pipeline.arrRef spec6 2)) (((cfg6.win 2).blk t).view.emb (ix2 (j 0) k))
      = (V c (Pipeline.arrRef spec6 2)) (ix2 ((((cfg6.win 5).blk t).view.emb j) 0) k)
    refine congrArg _ (funext fun a => Fin.ext ?_)
    match a with
    | ⟨0, _⟩ =>
      show win6_2.index t (0 : Fin 2) * 5000 + 1 * (j 0).val = win6_5.index t (0 : Fin 2) * 5000 + 1 * (j 0).val
      rw [e20, eo0]
    | ⟨1, _⟩ =>
      show win6_2.index t (1 : Fin 2) * 128 + 1 * k.val = k.val
      rw [e21]; omega
  · show (V c (Pipeline.arrRef spec6 3)) (((cfg6.win 3).blk t).view.emb (ix2 k (j 1)))
      = (V c (Pipeline.arrRef spec6 3)) (ix2 k ((((cfg6.win 5).blk t).view.emb j) 1))
    refine congrArg _ (funext fun a => Fin.ext ?_)
    match a with
    | ⟨0, _⟩ =>
      show win6_3.index t (0 : Fin 2) * 128 + 1 * k.val = k.val
      rw [e30]; omega
    | ⟨1, _⟩ =>
      show win6_3.index t (1 : Fin 2) * 64 + 1 * (j 1).val = win6_5.index t (1 : Fin 2) * 64 + 1 * (j 1).val
      rw [e31, eo1]
  · show (V c (Pipeline.arrRef spec6 4)) (((cfg6.win 4).blk t).view.emb (ix2 0 (j 1)))
      = (V c (Pipeline.arrRef spec6 4)) (ix2 0 ((((cfg6.win 5).blk t).view.emb j) 1))
    refine congrArg _ (funext fun a => Fin.ext ?_)
    match a with
    | ⟨0, _⟩ =>
      show win6_4.index t (0 : Fin 2) * 1 + 1 * 0 = 0
      rw [e40]
    | ⟨1, _⟩ =>
      show win6_4.index t (1 : Fin 2) * 64 + 1 * (j 1).val = win6_5.index t (1 : Fin 2) * 64 + 1 * (j 1).val
      rw [e41, eo1]

/-- An index of the array is in point t's block iff each coordinate is in the block's range on its axis. -/
theorem mem_blk (t : Fin cfg6.N) (i : S100000x64.Idx) :
    i ∈ ((cfg6.win 5).blk t).view.set ↔ ∀ a : Fin 2, win6_5.index t a * S5000x64.size a ≤ (i a).val
      ∧ (i a).val < win6_5.index t a * S5000x64.size a + S5000x64.size a := by
  show i ∈ ((View.whole main_v78).slice (win6_5.rect t)).set ↔ _
  rw [View.set_slice_whole, Rect.mem_set_unit]
  exact Iff.rfl

/-- Row p of the array lies in the block of point p / 5000: the twenty blocks cover the array. -/
theorem cover (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  obtain ⟨t, ht⟩ : ∃ t : Fin cfg6.N, t.val = (i 0).val / 5000 :=
    ⟨⟨(i 0).val / 5000, by rw [show cfg6.N = 20 from N_6]; omega⟩, rfl⟩
  obtain ⟨-, -, -, -, -, -, -, -, -, -, eo0, eo1⟩ := idx_facts t
  refine ⟨t, flush6_5 t, ?_⟩
  rw [mem_blk]
  intro a
  match a with
  | ⟨0, _⟩ =>
    show win6_5.index t (0 : Fin 2) * 5000 ≤ (i 0).val ∧ (i 0).val < win6_5.index t (0 : Fin 2) * 5000 + 5000
    rw [eo0, ht]; omega
  | ⟨1, _⟩ =>
    show win6_5.index t (1 : Fin 2) * 64 ≤ (i 1).val ∧ (i 1).val < win6_5.index t (1 : Fin 2) * 64 + 64
    rw [eo1]; omega

end Region6

theorem region6 (V : (c : Dev nD) → (b : Ref sig .tc) → Buf (Elt Ideal) ((c : Thread nD τ).loc b)) (c : Dev nD) :
    (dat6 (F := Ideal) V c).arrAt 5 cfg6.N = comb (V c (Pipeline.arrRef spec6 0)) (V c (Pipeline.arrRef spec6 1)) (V c (Pipeline.arrRef spec6 2)) (V c (Pipeline.arrRef spec6 3)) (V c (Pipeline.arrRef spec6 4)) :=
  (dat6 (F := Ideal) V c).arrAt_eq_of_cover 5 _ (fun t _ => Region6.flushed_eq V c t) Region6.cover

end Cert.Hrgcn

end
-- ==== Proof.Region7.lean ====
/-
  Region 7: its output array after the region is the node update of the arrays the region finds.
  Each grid point writes one block of 5000 rows; a row of the result depends only on the same row of the row-blocked
  inputs, so the blocks are the restrictions of one whole-array function, and the twenty blocks cover the array.

  The steps: the body's value as the node update s·c + (x·W + r) of the blocks it loads; the index maps decided over the twenty points
  (the row-blocked windows sit at block row t, the weight and the one-row array at block (0, 0)); what point t writes
  back as block t of the whole-array function, by reading each loaded block where the output block's rows say; the
  point whose block holds row p is p / 5000.
-/
import proofs.«155910_j7129645711537_2_alg».proof.Proof.Gen.KernelIdeal.Frame
import proofs.«155910_j7129645711537_2_alg».proof.Proof.Spec
import proofs.«155910_j7129645711537_2_alg».proof.Proof.RegionLib
import Idealize.ShloMosaic.Lib.Pipeline.Value

noncomputable section

namespace Cert.Hrgcn

open Idealize.ShloMosaic Idealize.ShloMosaic.TcCoe Idealize.ShloMosaic.ValueIdx Idealize.SL.Sem Cert.KernelIdeal Cert.KernelIdeal.Gen
open Idealize.ShloMosaic.Pipeline (Dat)

namespace Region7

theorem zeros : (![0, 0] : Fin 2 → Nat) = fun _ => 0 := funext fun a => by fin_cases a <;> rfl

/-- The body's value is the node update s·c + (x·W + r) of the five blocks it loads. -/
theorem pay_eq (s : Vec Ideal S5000x64 .f32) (c : Vec Ideal S5000x1 .f32) (x : Vec Ideal S5000x128 .f32)
    (w : Vec Ideal S128x64 .f32) (r : Vec Ideal S1x64 .f32) :
    k7_pay1 s c x w r = comb s c x w r :=
  unitComb_eq dot_S5000x128_S128x64_S5000x64_1_0_0_1_n_n rfl rfl rfl rfl rfl rfl rfl rfl none _ s c x w r _ (shapeCast_self s _) _ (shapeCast_self x _) _ _ _ _

/-- The index maps over the grid: at point t the row-blocked windows sit at block row t, the weight and the one-row array
    at block (0, 0). -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

variable (V : (c : Dev nD) → (b : Ref sig .tc) → Buf (Elt Ideal) ((c : Thread nD τ).loc b))

set_option maxHeartbeats 2000000 in
/-- What point t writes back is block t of the whole-array function of the arrays the region finds. -/
theorem flushed_eq (c : Dev nD) (t : Fin cfg7.N) :
    (dat7 (F := Ideal) V c).flushed 5 t
      = ((cfg7.win 5).blk t).view.read (Elt Ideal)
          (comb (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 (F := Ideal) V c).after 5 t) = _
  rw [after7_5]
  unfold out7_5
  rw [View.canon_unit_zero zeros]
  simp only [View.ld_unit_zero (S := S5000x64) zeros, View.ld_unit_zero (S := S5000x1) zeros, View.ld_unit_zero (S := S5000x128) zeros, View.ld_unit_zero (S := S128x64) zeros, View.ld_unit_zero (S := S1x64) zeros]
  rw [pay_eq]
  obtain ⟨e00, e01, e10, e11, e20, e21, e30, e31, e40, e41, eo0, eo1⟩ := idx_facts t
  funext j
  show comb (iblk7 V c 0 t) (iblk7 V c 1 t) (iblk7 V c 2 t) (iblk7 V c 3 t) (iblk7 V c 4 t) j
    = comb (V c (Pipeline.arrRef spec7 0)) (V c (Pipeline.arrRef spec7 1)) (V c (Pipeline.arrRef spec7 2)) (V c (Pipeline.arrRef spec7 3)) (V c (Pipeline.arrRef spec7 4)) (((cfg7.win 5).blk t).view.emb j)
  refine comb_block _ _ _ _ _ _ _ _ _ _ j _ ?_ ?_ (fun k => ?_) (fun k => ?_) ?_
  · show (V c (Pipeline.arrRef spec7 0)) (((cfg7.win 0).blk t).view.emb j) = (V c (Pipeline.arrRef spec7 0)) (((cfg7.win 5).blk t).view.emb j)
    refine congrArg _ (funext fun a => Fin.ext ?_)
    match a with
    | ⟨0, _⟩ =>
      show win7_0.index t (0 : Fin 2) * 5000 + 1 * (j 0).val = win7_5.index t (0 : Fin 2) * 5000 + 1 * (j 0).val
      rw [e00, eo0]
    | ⟨1, _⟩ =>
      show win7_0.index t (1 : Fin 2) * 64 + 1 * (j 1).val = win7_5.index t (1 : Fin 2) * 64 + 1 * (j 1).val
      rw [e01, eo1]
  · show (V c (Pipeline.arrRef spec7 1)) (((cfg7.win 1).blk t).view.emb (ix2 (j 0) 0))
      = (V c (Pipeline.arrRef spec7 1)) (ix2 ((((cfg7.win 5).blk t).view.emb j) 0) 0)
    refine congrArg _ (funext fun a => Fin.ext ?_)
    match a with
    | ⟨0, _⟩ =>
      show win7_1.index t (0 : Fin 2) * 5000 + 1 * (j 0).val = win7_5.index t (0 : Fin 2) * 5000 + 1 * (j 0).val
      rw [e10, eo0]
    | ⟨1, _⟩ =>
      show win7_1.index t (1 : Fin 2) * 1 + 1 * 0 = 0
      rw [e11]
  · show (V c (Pipeline.arrRef spec7 2)) (((cfg7.win 2).blk t).view.emb (ix2 (j 0) k))
      = (V c (Pipeline.arrRef spec7 2)) (ix2 ((((cfg7.win 5).blk t).view.emb j) 0) k)
    refine congrArg _ (funext fun a => Fin.ext ?_)
    match a with
    | ⟨0, _⟩ =>
      show win7_2.index t (0 : Fin 2) * 5000 + 1 * (j 0).val = win7_5.index t (0 : Fin 2) * 5000 + 1 * (j 0).val
      rw [e20, eo0]
    | ⟨1, _⟩ =>
      show win7_2.index t (1 : Fin 2) * 128 + 1 * k.val = k.val
      rw [e21]; omega
  · show (V c (Pipeline.arrRef spec7 3)) (((cfg7.win 3).blk t).view.emb (ix2 k (j 1)))
      = (V c (Pipeline.arrRef spec7 3)) (ix2 k ((((cfg7.win 5).blk t).view.emb j) 1))
    refine congrArg _ (funext fun a => Fin.ext ?_)
    match a with
    | ⟨0, _⟩ =>
      show win7_3.index t (0 : Fin 2) * 128 + 1 * k.val = k.val
      rw [e30]; omega
    | ⟨1, _⟩ =>
      show win7_3.index t (1 : Fin 2) * 64 + 1 * (j 1).val = win7_5.index t (1 : Fin 2) * 64 + 1 * (j 1).val
      rw [e31, eo1]
  · show (V c (Pipeline.arrRef spec7 4)) (((cfg7.win 4).blk t).view.emb (ix2 0 (j 1)))
      = (V c (Pipeline.arrRef spec7 4)) (ix2 0 ((((cfg7.win 5).blk t).view.emb j) 1))
    refine congrArg _ (funext fun a => Fin.ext ?_)
    match a with
    | ⟨0, _⟩ =>
      show win7_4.index t (0 : Fin 2) * 1 + 1 * 0 = 0
      rw [e40]
    | ⟨1, _⟩ =>
      show win7_4.index t (1 : Fin 2) * 64 + 1 * (j 1).val = win7_5.index t (1 : Fin 2) * 64 + 1 * (j 1).val
      rw [e41, eo1]

/-- An index of the array is in point t's block iff each coordinate is in the block's range on its axis. -/
theorem mem_blk (t : Fin cfg7.N) (i : S100000x64.Idx) :
    i ∈ ((cfg7.win 5).blk t).view.set ↔ ∀ a : Fin 2, win7_5.index t a * S5000x64.size a ≤ (i a).val
      ∧ (i a).val < win7_5.index t a * S5000x64.size a + S5000x64.size a := by
  show i ∈ ((View.whole main_v81).slice (win7_5.rect t)).set ↔ _
  rw [View.set_slice_whole, Rect.mem_set_unit]
  exact Iff.rfl

/-- Row p of the array lies in the block of point p / 5000: the twenty blocks cover the array. -/
theorem cover (i : S100000x64.Idx) :
    ∃ t : Fin cfg7.N, (cfg7.win 5).flush t = true ∧ i ∈ ((cfg7.win 5).blk t).view.set := by
  have hi0 : (i 0).val < 100000 := (i 0).isLt
  have hi1 : (i 1).val < 64 := (i 1).isLt
  obtain ⟨t, ht⟩ : ∃ t : Fin cfg7.N, t.val = (i 0).val / 5000 :=
    ⟨⟨(i 0).val / 5000, by rw [show cfg7.N = 20 from N_7]; omega⟩, rfl⟩
  obtain ⟨-, -, -, -, -, -, -, -, -, -, eo0, eo1⟩ := idx_facts t
  refine ⟨t, flush7_5 t, ?_⟩
  rw [mem_blk]
  intro a
  match a with
  | ⟨0, _⟩ =>
    show win7_5.index t (0 : Fin 2) * 5000 ≤ (i 0).val ∧ (i 0).val < win7_5.index t (0 : Fin 2) * 5000 + 5000
    rw [eo0, ht]; omega
  | ⟨1, _⟩ =>
    show win7_5.index t (1 : Fin 2) * 64 ≤ (i 1).val ∧ (i 1).val < win7_5.index t (1 : Fin 2) * 64 + 64
    rw [eo1]; omega

end Region7

theorem region7 (V : (c : Dev nD) → (b : Ref sig .tc) → Buf (Elt Ideal) ((c : Thread nD τ).loc b)) (c : Dev nD) :
    (dat7 (F := Ideal) V c).arrAt 5 cfg7.N = comb (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 5 _ (fun t _ => Region7.flushed_eq V c t) Region7.cover

end Cert.Hrgcn

end
-- ==== Proof.KernelValue.lean ====
/-
  The two results of the idealized kernel program, read back through its stages to functions of the argument arrays.

  Stage by stage: a region's output array is its whole-array function (the affine image, or the node update) of the
  arrays it finds; a host stretch's written buffers are its operations applied to what it finds; every other buffer is
  carried unchanged.  These are the single steps; the next module follows them through the program.
-/
import proofs.«155910_j7129645711537_2_alg».proof.Proof.Gen.KernelIdeal.Frame
import proofs.«155910_j7129645711537_2_alg».proof.Proof.KernelKeep
import proofs.«155910_j7129645711537_2_alg».proof.Proof.KernelTerms
import proofs.«155910_j7129645711537_2_alg».proof.Proof.Region0
import proofs.«155910_j7129645711537_2_alg».proof.Proof.Region1
import proofs.«155910_j7129645711537_2_alg».proof.Proof.Region2
import proofs.«155910_j7129645711537_2_alg».proof.Proof.Region3
import proofs.«155910_j7129645711537_2_alg».proof.Proof.Region4
import proofs.«155910_j7129645711537_2_alg».proof.Proof.Region5
import proofs.«155910_j7129645711537_2_alg».proof.Proof.Region6
import proofs.«155910_j7129645711537_2_alg».proof.Proof.Region7
import Idealize.ShloMosaic.Lib.StableHlo.Run

set_option maxRecDepth 16384

noncomputable section

namespace Cert.KernelIdeal.Named

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Hrgcn

variable (m : (ℓ : Loc nD τ sig) → Buf (Elt Ideal) ℓ) (ρ : Dev nD → PrngReg)

/-- At launch a buffer holds the launch memory. -/
theorem W0_at (c : Dev nD) (b : Ref sig .tc) : W0 m ρ c (Proc.devRef .tc b) = m ((c : Thread nD τ).loc b) := rfl

/-! ## What the host stretches write -/

theorem W5_v14 (c : Dev nD) : W5 m ρ c (Proc.devRef .tc main_v14) = Ker.inv (Ker.cnt (m ((c : Thread nD τ).loc main_arg15))) := by
  show StableHlo.after (hostOps0_4 (F := Ideal)) (StableHlo.after hostOps0_3 (StableHlo.after hostOps0_2 (StableHlo.after hostOps0_1 (StableHlo.after hostOps0 _)))) _ = _
  after_results_simp
  simp only [StableHlo.TRef.toBuf, StableHlo.TRef.ofBuf, cast_eq]
  rfl
theorem W5_v21 (c : Dev nD) : W5 m ρ c (Proc.devRef .tc main_v21) = Ker.inv (Ker.cnt (m ((c : Thread nD τ).loc main_arg17))) := by
  show StableHlo.after (hostOps0_4 (F := Ideal)) (StableHlo.after hostOps0_3 (StableHlo.after hostOps0_2 (StableHlo.after hostOps0_1 (StableHlo.after hostOps0 _)))) _ = _
  after_results_simp
  simp only [StableHlo.TRef.toBuf, StableHlo.TRef.ofBuf, cast_eq]
  rfl
theorem W5_v22 (c : Dev nD) : W5 m ρ c (Proc.devRef .tc main_v22) = Ker.row128 (m ((c : Thread nD τ).loc main_arg5)) := by
  show StableHlo.after (hostOps0_4 (F := Ideal)) (StableHlo.after hostOps0_3 (StableHlo.after hostOps0_2 (StableHlo.after hostOps0_1 (StableHlo.after hostOps0 _)))) _ = _
  after_results_simp
  rfl
/-- The first five stretches write no argument array. -/
theorem W5_arg (c : Dev nD) (b : Ref sig .tc)
    (h0 : b ∉ [main_cst, main_v0, main_cst_0, main_v1, main_v2, main_v3, main_cst_1, main_v4, main_cst_2, main_v5, main_v6, main_v7, main_cst_3, main_v8, main_v9, main_cst_4, main_v10, main_v11, main_cst_5, main_v12, main_v13, main_cst_6])
    (h1 : b ∉ [main_call0_v0, main_call0_v1, main_v14])
    (h2 : b ∉ [main_cst_7, main_v15, main_v16, main_cst_8, main_v17, main_v18, main_cst_9, main_v19, main_v20, main_cst_10])
    (h3 : b ∉ [main_call1_v0, main_call1_v1, main_v21])
    (h4 : b ∉ [main_v22]) :
    W5 m ρ c (Proc.devRef .tc b) = m ((c : Thread nD τ).loc b) :=
  (keep_hostOps0_4 _ b h4).trans ((keep_hostOps0_3 _ b h3).trans ((keep_hostOps0_2 _ b h2).trans
    ((keep_hostOps0_1 _ b h1).trans (keep_hostOps0 _ b h0))))

theorem W7_v24 (c : Dev nD) : W7 m ρ c (Proc.devRef .tc main_v24) = Ker.row128 (W6 m ρ c (Proc.devRef .tc main_arg7)) := by
  show StableHlo.after (hostOps1 (F := Ideal)) _ _ = _
  after_results_simp
  rfl

theorem W9_v35 (c : Dev nD) : W9 m ρ c (Proc.devRef .tc main_v35) = Ker.agg128 (W8 m ρ c (Proc.devRef .tc main_v23)) (W8 m ρ c (Proc.devRef .tc main_arg14)) (W8 m ρ c (Proc.devRef .tc main_arg15)) := by
  show StableHlo.after (hostOps2 (F := Ideal)) _ _ = _
  after_results_simp
  rfl

theorem W9_v45 (c : Dev nD) : W9 m ρ c (Proc.devRef .tc main_v45) = Ker.agg128 (W8 m ρ c (Proc.devRef .tc main_v25)) (W8 m ρ c (Proc.devRef .tc main_arg16)) (W8 m ρ c (Proc.devRef .tc main_arg17)) := by
  show StableHlo.after (hostOps2 (F := Ideal)) _ _ = _
  after_results_simp
  rfl

theorem W9_v46 (c : Dev nD) : W9 m ρ c (Proc.devRef .tc main_v46) = Ker.col (W8 m ρ c (Proc.devRef .tc main_v14)) := by
  show StableHlo.after (hostOps2 (F := Ideal)) _ _ = _
  after_results_simp
  rfl

theorem W9_v47 (c : Dev nD) : W9 m ρ c (Proc.devRef .tc main_v47) = Ker.row128 (W8 m ρ c (Proc.devRef .tc main_arg3)) := by
  show StableHlo.after (hostOps2 (F := Ideal)) _ _ = _
  after_results_simp
  rfl

theorem W11_v49 (c : Dev nD) : W11 m ρ c (Proc.devRef .tc main_v49) = Ker.col (W10 m ρ c (Proc.devRef .tc main_v21)) := by
  show StableHlo.after (hostOps3 (F := Ideal)) _ _ = _
  after_results_simp
  rfl

theorem W11_v50 (c : Dev nD) : W11 m ρ c (Proc.devRef .tc main_v50) = Ker.row128 (W10 m ρ c (Proc.devRef .tc main_arg3)) := by
  show StableHlo.after (hostOps3 (F := Ideal)) _ _ = _
  after_results_simp
  rfl

theorem W13_v52 (c : Dev nD) : W13 m ρ c (Proc.devRef .tc main_v52) = Ker.row64 (W12 m ρ c (Proc.devRef .tc main_arg11)) := by
  show StableHlo.after (hostOps4 (F := Ideal)) _ _ = _
  after_results_simp
  rfl

theorem W15_v54 (c : Dev nD) : W15 m ρ c (Proc.devRef .tc main_v54) = Ker.row64 (W14 m ρ c (Proc.devRef .tc main_arg13)) := by
  show StableHlo.after (hostOps5 (F := Ideal)) _ _ = _
  after_results_simp
  rfl

theorem W17_v65 (c : Dev nD) : W17 m ρ c (Proc.devRef .tc main_v65) = Ker.agg64 (W16 m ρ c (Proc.devRef .tc main_v53)) (W16 m ρ c (Proc.devRef .tc main_arg14)) (W16 m ρ c (Proc.devRef .tc main_arg15)) := by
  show StableHlo.after (hostOps6 (F := Ideal)) _ _ = _
  after_results_simp
  rfl

theorem W17_v75 (c : Dev nD) : W17 m ρ c (Proc.devRef .tc main_v75) = Ker.agg64 (W16 m ρ c (Proc.devRef .tc main_v55)) (W16 m ρ c (Proc.devRef .tc main_arg16)) (W16 m ρ c (Proc.devRef .tc main_arg17)) := by
  show StableHlo.after (hostOps6 (F := Ideal)) _ _ = _
  after_results_simp
  rfl

theorem W17_v76 (c : Dev nD) : W17 m ρ c (Proc.devRef .tc main_v76) = Ker.col (W16 m ρ c (Proc.devRef .tc main_v14)) := by
  show StableHlo.after (hostOps6 (F := Ideal)) _ _ = _
  after_results_simp
  rfl

theorem W17_v77 (c : Dev nD) : W17 m ρ c (Proc.devRef .tc main_v77) = Ker.row64 (W16 m ρ c (Proc.devRef .tc main_arg9)) := by
  show StableHlo.after (hostOps6 (F := Ideal)) _ _ = _
  after_results_simp
  rfl

theorem W19_v79 (c : Dev nD) : W19 m ρ c (Proc.devRef .tc main_v79) = Ker.col (W18 m ρ c (Proc.devRef .tc main_v21)) := by
  show StableHlo.after (hostOps7 (F := Ideal)) _ _ = _
  after_results_simp
  rfl

theorem W19_v80 (c : Dev nD) : W19 m ρ c (Proc.devRef .tc main_v80) = Ker.row64 (W18 m ρ c (Proc.devRef .tc main_arg9)) := by
  show StableHlo.after (hostOps7 (F := Ideal)) _ _ = _
  after_results_simp
  rfl

/-! ## What the regions write -/

theorem W6_out (c : Dev nD) : W6 m ρ c (Proc.devRef .tc main_v23) = linRow (W5 m ρ c (Proc.devRef .tc main_arg0)) (W5 m ρ c (Proc.devRef .tc main_arg4)) (W5 m ρ c (Proc.devRef .tc main_v22)) :=
  (W6_arr m ρ c 3).trans (region0 (V5 m ρ) c)

theorem W8_out (c : Dev nD) : W8 m ρ c (Proc.devRef .tc main_v25) = linRow (W7 m ρ c (Proc.devRef .tc main_arg1)) (W7 m ρ c (Proc.devRef .tc main_arg6)) (W7 m ρ c (Proc.devRef .tc main_v24)) :=
  (W8_arr m ρ c 3).trans (region1 (V7 m ρ) c)

theorem W10_out (c : Dev nD) : W10 m ρ c (Proc.devRef .tc main_v48) = leaky (comb (W9 m ρ c (Proc.devRef .tc main_v35)) (W9 m ρ c (Proc.devRef .tc main_v46)) (W9 m ρ c (Proc.devRef .tc main_arg1)) (W9 m ρ c (Proc.devRef .tc main_arg2)) (W9 m ρ c (Proc.devRef .tc main_v47))) :=
  (W10_arr m ρ c 5).trans (region2 (V9 m ρ) c)

theorem W12_out (c : Dev nD) : W12 m ρ c (Proc.devRef .tc main_v51) = leaky (comb (W11 m ρ c (Proc.devRef .tc main_v45)) (W11 m ρ c (Proc.devRef .tc main_v49)) (W11 m ρ c (Proc.devRef .tc main_arg0)) (W11 m ρ c (Proc.devRef .tc main_arg2)) (W11 m ρ c (Proc.devRef .tc main_v50))) :=
  (W12_arr m ρ c 5).trans (region3 (V11 m ρ) c)

theorem W14_out (c : Dev nD) : W14 m ρ c (Proc.devRef .tc main_v53) = linRow (W13 m ρ c (Proc.devRef .tc main_v51)) (W13 m ρ c (Proc.devRef .tc main_arg10)) (W13 m ρ c (Proc.devRef .tc main_v52)) :=
  (W14_arr m ρ c 3).trans (region4 (V13 m ρ) c)

theorem W16_out (c : Dev nD) : W16 m ρ c (Proc.devRef .tc main_v55) = linRow (W15 m ρ c (Proc.devRef .tc main_v48)) (W15 m ρ c (Proc.devRef .tc main_arg12)) (W15 m ρ c (Proc.devRef .tc main_v54)) :=
  (W16_arr m ρ c 3).trans (region5 (V15 m ρ) c)

theorem W18_out (c : Dev nD) : W18 m ρ c (Proc.devRef .tc main_v78) = comb (W17 m ρ c (Proc.devRef .tc main_v65)) (W17 m ρ c (Proc.devRef .tc main_v76)) (W17 m ρ c (Proc.devRef .tc main_v48)) (W17 m ρ c (Proc.devRef .tc main_arg8)) (W17 m ρ c (Proc.devRef .tc main_v77)) :=
  (W18_arr m ρ c 5).trans (region6 (V17 m ρ) c)

theorem W20_out (c : Dev nD) : W20 m ρ c (Proc.devRef .tc main_v81) = comb (W19 m ρ c (Proc.devRef .tc main_v75)) (W19 m ρ c (Proc.devRef .tc main_v79)) (W19 m ρ c (Proc.devRef .tc main_v51)) (W19 m ρ c (Proc.devRef .tc main_arg8)) (W19 m ρ c (Proc.devRef .tc main_v80)) :=
  (W20_arr m ρ c 5).trans (region7 (V19 m ρ) c)

end Cert.KernelIdeal.Named

end
-- ==== Proof.KernelChain.lean ====
/-
  The program's buffers followed forward through its stages.

  For every buffer a stage reads, its contents there as a function of the argument arrays: an argument array is never
  written, so it holds the launch memory at every stage; a buffer written at one stage is carried unchanged to the
  stages that read it; a written buffer's value is its stage's function of what the stage reads.  The last two lemmas
  are the program's two results.
-/
import proofs.«155910_j7129645711537_2_alg».proof.Proof.KernelValue

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen Cert.Hrgcn

variable (m : (ℓ : Loc nD τ sig) → Buf (Elt Ideal) ℓ) (ρ : Dev nD → PrngReg)

theorem arg0_at5 (c : Dev nD) : W5 m ρ c (Proc.devRef .tc main_arg0) = (m ((c : Thread nD τ).loc main_arg0)) :=
  W5_arg m ρ c main_arg0 (by decide) (by decide) (by decide) (by decide) (by decide)
theorem arg4_at5 (c : Dev nD) : W5 m ρ c (Proc.devRef .tc main_arg4) = (m ((c : Thread nD τ).loc main_arg4)) :=
  W5_arg m ρ c main_arg4 (by decide) (by decide) (by decide) (by decide) (by decide)
theorem arg7_at6 (c : Dev nD) : W6 m ρ c (Proc.devRef .tc main_arg7) = (m ((c : Thread nD τ).loc main_arg7)) :=
  (keep_region0 m ρ c main_arg7 (by decide)).trans (W5_arg m ρ c main_arg7 (by decide) (by decide) (by decide) (by decide) (by decide))
theorem arg1_at7 (c : Dev nD) : W7 m ρ c (Proc.devRef .tc main_arg1) = (m ((c : Thread nD τ).loc main_arg1)) :=
  ((keep_hostOps1 (W6 m ρ c) main_arg1 (by decide)).trans (keep_region0 m ρ c main_arg1 (by decide))).trans (W5_arg m ρ c main_arg1 (by decide) (by decide) (by decide) (by decide) (by decide))
theorem arg6_at7 (c : Dev nD) : W7 m ρ c (Proc.devRef .tc main_arg6) = (m ((c : Thread nD τ).loc main_arg6)) :=
  ((keep_hostOps1 (W6 m ρ c) main_arg6 (by decide)).trans (keep_region0 m ρ c main_arg6 (by decide))).trans (W5_arg m ρ c main_arg6 (by decide) (by decide) (by decide) (by decide) (by decide))
theorem arg14_at8 (c : Dev nD) : W8 m ρ c (Proc.devRef .tc main_arg14) = (m ((c : Thread nD τ).loc main_arg14)) :=
  ((keep_region1 m ρ c main_arg14 (by decide)).trans ((keep_hostOps1 (W6 m ρ c) main_arg14 (by decide)).trans (keep_region0 m ρ c main_arg14 (by decide)))).trans (W5_arg m ρ c main_arg14 (by decide) (by decide) (by decide) (by decide) (by decide))
theorem arg15_at8 (c : Dev nD) : W8 m ρ c (Proc.devRef .tc main_arg15) = (m ((c : Thread nD τ).loc main_arg15)) :=
  ((keep_region1 m ρ c main_arg15 (by decide)).trans ((keep_hostOps1 (W6 m ρ c) main_arg15 (by decide)).trans (keep_region0 m ρ c main_arg15 (by decide)))).trans (W5_arg m ρ c main_arg15 (by decide) (by decide) (by decide) (by decide) (by decide))
theorem arg16_at8 (c : Dev nD) : W8 m ρ c (Proc.devRef .tc main_arg16) = (m ((c : Thread nD τ).loc main_arg16)) :=
  ((keep_region1 m ρ c main_arg16 (by decide)).trans ((keep_hostOps1 (W6 m ρ c) main_arg16 (by decide)).trans (keep_region0 m ρ c main_arg16 (by decide)))).trans (W5_arg m ρ c main_arg16 (by decide) (by decide) (by decide) (by decide) (by decide))
theorem arg17_at8 (c : Dev nD) : W8 m ρ c (Proc.devRef .tc main_arg17) = (m ((c : Thread nD τ).loc main_arg17)) :=
  ((keep_region1 m ρ c main_arg17 (by decide)).trans ((keep_hostOps1 (W6 m ρ c) main_arg17 (by decide)).trans (keep_region0 m ρ c main_arg17 (by decide)))).trans (W5_arg m ρ c main_arg17 (by decide) (by decide) (by decide) (by decide) (by decide))
theorem arg3_at8 (c : Dev nD) : W8 m ρ c (Proc.devRef .tc main_arg3) = (m ((c : Thread nD τ).loc main_arg3)) :=
  ((keep_region1 m ρ c main_arg3 (by decide)).trans ((keep_hostOps1 (W6 m ρ c) main_arg3 (by decide)).trans (keep_region0 m ρ c main_arg3 (by decide)))).trans (W5_arg m ρ c main_arg3 (by decide) (by decide) (by decide) (by decide) (by decide))
theorem arg1_at9 (c : Dev nD) : W9 m ρ c (Proc.devRef .tc main_arg1) = (m ((c : Thread nD τ).loc main_arg1)) :=
  ((keep_hostOps2 (W8 m ρ c) main_arg1 (by decide)).trans ((keep_region1 m ρ c main_arg1 (by decide)).trans ((keep_hostOps1 (W6 m ρ c) main_arg1 (by decide)).trans (keep_region0 m ρ c main_arg1 (by decide))))).trans (W5_arg m ρ c main_arg1 (by decide) (by decide) (by decide) (by decide) (by decide))
theorem arg2_at9 (c : Dev nD) : W9 m ρ c (Proc.devRef .tc main_arg2) = (m ((c : Thread nD τ).loc main_arg2)) :=
  ((keep_hostOps2 (W8 m ρ c) main_arg2 (by decide)).trans ((keep_region1 m ρ c main_arg2 (by decide)).trans ((keep_hostOps1 (W6 m ρ c) main_arg2 (by decide)).trans (keep_region0 m ρ c main_arg2 (by decide))))).trans (W5_arg m ρ c main_arg2 (by decide) (by decide) (by decide) (by decide) (by decide))
theorem arg3_at10 (c : Dev nD) : W10 m ρ c (Proc.devRef .tc main_arg3) = (m ((c : Thread nD τ).loc main_arg3)) :=
  ((keep_region2 m ρ c main_arg3 (by decide)).trans ((keep_hostOps2 (W8 m ρ c) main_arg3 (by decide)).trans ((keep_region1 m ρ c main_arg3 (by decide)).trans ((keep_hostOps1 (W6 m ρ c) main_arg3 (by decide)).trans (keep_region0 m ρ c main_arg3 (by decide)))))).trans (W5_arg m ρ c main_arg3 (by decide) (by decide) (by decide) (by decide) (by decide))
theorem arg0_at11 (c : Dev nD) : W11 m ρ c (Proc.devRef .tc main_arg0) = (m ((c : Thread nD τ).loc main_arg0)) :=
  ((keep_hostOps3 (W10 m ρ c) main_arg0 (by decide)).trans ((keep_region2 m ρ c main_arg0 (by decide)).trans ((keep_hostOps2 (W8 m ρ c) main_arg0 (by decide)).trans ((keep_region1 m ρ c main_arg0 (by decide)).trans ((keep_hostOps1 (W6 m ρ c) main_arg0 (by decide)).trans (keep_region0 m ρ c main_arg0 (by decide))))))).trans (W5_arg m ρ c main_arg0 (by decide) (by decide) (by decide) (by decide) (by decide))
theorem arg2_at11 (c : Dev nD) : W11 m ρ c (Proc.devRef .tc main_arg2) = (m ((c : Thread nD τ).loc main_arg2)) :=
  ((keep_hostOps3 (W10 m ρ c) main_arg2 (by decide)).trans ((keep_region2 m ρ c main_arg2 (by decide)).trans ((keep_hostOps2 (W8 m ρ c) main_arg2 (by decide)).trans ((keep_region1 m ρ c main_arg2 (by decide)).trans ((keep_hostOps1 (W6 m ρ c) main_arg2 (by decide)).trans (keep_region0 m ρ c main_arg2 (by decide))))))).trans (W5_arg m ρ c main_arg2 (by decide) (by decide) (by decide) (by decide) (by decide))
theorem arg11_at12 (c : Dev nD) : W12 m ρ c (Proc.devRef .tc main_arg11) = (m ((c : Thread nD τ).loc main_arg11)) :=
  ((keep_region3 m ρ c main_arg11 (by decide)).trans ((keep_hostOps3 (W10 m ρ c) main_arg11 (by decide)).trans ((keep_region2 m ρ c main_arg11 (by decide)).trans ((keep_hostOps2 (W8 m ρ c) main_arg11 (by decide)).trans ((keep_region1 m ρ c main_arg11 (by decide)).trans ((keep_hostOps1 (W6 m ρ c) main_arg11 (by decide)).trans (keep_region0 m ρ c main_arg11 (by decide)))))))).trans (W5_arg m ρ c main_arg11 (by decide) (by decide) (by decide) (by decide) (by decide))
theorem arg10_at13 (c : Dev nD) : W13 m ρ c (Proc.devRef .tc main_arg10) = (m ((c : Thread nD τ).loc main_arg10)) :=
  ((keep_hostOps4 (W12 m ρ c) main_arg10 (by decide)).trans ((keep_region3 m ρ c main_arg10 (by decide)).trans ((keep_hostOps3 (W10 m ρ c) main_arg10 (by decide)).trans ((keep_region2 m ρ c main_arg10 (by decide)).trans ((keep_hostOps2 (W8 m ρ c) main_arg10 (by decide)).trans ((keep_region1 m ρ c main_arg10 (by decide)).trans ((keep_hostOps1 (W6 m ρ c) main_arg10 (by decide)).trans (keep_region0 m ρ c main_arg10 (by decide))))))))).trans (W5_arg m ρ c main_arg10 (by decide) (by decide) (by decide) (by decide) (by decide))
theorem arg13_at14 (c : Dev nD) : W14 m ρ c (Proc.devRef .tc main_arg13) = (m ((c : Thread nD τ).loc main_arg13)) :=
  ((keep_region4 m ρ c main_arg13 (by decide)).trans ((keep_hostOps4 (W12 m ρ c) main_arg13 (by decide)).trans ((keep_region3 m ρ c main_arg13 (by decide)).trans ((keep_hostOps3 (W10 m ρ c) main_arg13 (by decide)).trans ((keep_region2 m ρ c main_arg13 (by decide)).trans ((keep_hostOps2 (W8 m ρ c) main_arg13 (by decide)).trans ((keep_region1 m ρ c main_arg13 (by decide)).trans ((keep_hostOps1 (W6 m ρ c) main_arg13 (by decide)).trans (keep_region0 m ρ c main_arg13 (by decide)))))))))).trans (W5_arg m ρ c main_arg13 (by decide) (by decide) (by decide) (by decide) (by decide))
theorem arg12_at15 (c : Dev nD) : W15 m ρ c (Proc.devRef .tc main_arg12) = (m ((c : Thread nD τ).loc main_arg12)) :=
  ((keep_hostOps5 (W14 m ρ c) main_arg12 (by decide)).trans ((keep_region4 m ρ c main_arg12 (by decide)).trans ((keep_hostOps4 (W12 m ρ c) main_arg12 (by decide)).trans ((keep_region3 m ρ c main_arg12 (by decide)).trans ((keep_hostOps3 (W10 m ρ c) main_arg12 (by decide)).trans ((keep_region2 m ρ c main_arg12 (by decide)).trans ((keep_hostOps2 (W8 m ρ c) main_arg12 (by decide)).trans ((keep_region1 m ρ c main_arg12 (by decide)).trans ((keep_hostOps1 (W6 m ρ c) main_arg12 (by decide)).trans (keep_region0 m ρ c main_arg12 (by decide))))))))))).trans (W5_arg m ρ c main_arg12 (by decide) (by decide) (by decide) (by decide) (by decide))
theorem arg14_at16 (c : Dev nD) : W16 m ρ c (Proc.devRef .tc main_arg14) = (m ((c : Thread nD τ).loc main_arg14)) :=
  ((keep_region5 m ρ c main_arg14 (by decide)).trans ((keep_hostOps5 (W14 m ρ c) main_arg14 (by decide)).trans ((keep_region4 m ρ c main_arg14 (by decide)).trans ((keep_hostOps4 (W12 m ρ c) main_arg14 (by decide)).trans ((keep_region3 m ρ c main_arg14 (by decide)).trans ((keep_hostOps3 (W10 m ρ c) main_arg14 (by decide)).trans ((keep_region2 m ρ c main_arg14 (by decide)).trans ((keep_hostOps2 (W8 m ρ c) main_arg14 (by decide)).trans ((keep_region1 m ρ c main_arg14 (by decide)).trans ((keep_hostOps1 (W6 m ρ c) main_arg14 (by decide)).trans (keep_region0 m ρ c main_arg14 (by decide)))))))))))).trans (W5_arg m ρ c main_arg14 (by decide) (by decide) (by decide) (by decide) (by decide))
theorem arg15_at16 (c : Dev nD) : W16 m ρ c (Proc.devRef .tc main_arg15) = (m ((c : Thread nD τ).loc main_arg15)) :=
  ((keep_region5 m ρ c main_arg15 (by decide)).trans ((keep_hostOps5 (W14 m ρ c) main_arg15 (by decide)).trans ((keep_region4 m ρ c main_arg15 (by decide)).trans ((keep_hostOps4 (W12 m ρ c) main_arg15 (by decide)).trans ((keep_region3 m ρ c main_arg15 (by decide)).trans ((keep_hostOps3 (W10 m ρ c) main_arg15 (by decide)).trans ((keep_region2 m ρ c main_arg15 (by decide)).trans ((keep_hostOps2 (W8 m ρ c) main_arg15 (by decide)).trans ((keep_region1 m ρ c main_arg15 (by decide)).trans ((keep_hostOps1 (W6 m ρ c) main_arg15 (by decide)).trans (keep_region0 m ρ c main_arg15 (by decide)))))))))))).trans (W5_arg m ρ c main_arg15 (by decide) (by decide) (by decide) (by decide) (by decide))
theorem arg16_at16 (c : Dev nD) : W16 m ρ c (Proc.devRef .tc main_arg16) = (m ((c : Thread nD τ).loc main_arg16)) :=
  ((keep_region5 m ρ c main_arg16 (by decide)).trans ((keep_hostOps5 (W14 m ρ c) main_arg16 (by decide)).trans ((keep_region4 m ρ c main_arg16 (by decide)).trans ((keep_hostOps4 (W12 m ρ c) main_arg16 (by decide)).trans ((keep_region3 m ρ c main_arg16 (by decide)).trans ((keep_hostOps3 (W10 m ρ c) main_arg16 (by decide)).trans ((keep_region2 m ρ c main_arg16 (by decide)).trans ((keep_hostOps2 (W8 m ρ c) main_arg16 (by decide)).trans ((keep_region1 m ρ c main_arg16 (by decide)).trans ((keep_hostOps1 (W6 m ρ c) main_arg16 (by decide)).trans (keep_region0 m ρ c main_arg16 (by decide)))))))))))).trans (W5_arg m ρ c main_arg16 (by decide) (by decide) (by decide) (by decide) (by decide))
theorem arg17_at16 (c : Dev nD) : W16 m ρ c (Proc.devRef .tc main_arg17) = (m ((c : Thread nD τ).loc main_arg17)) :=
  ((keep_region5 m ρ c main_arg17 (by decide)).trans ((keep_hostOps5 (W14 m ρ c) main_arg17 (by decide)).trans ((keep_region4 m ρ c main_arg17 (by decide)).trans ((keep_hostOps4 (W12 m ρ c) main_arg17 (by decide)).trans ((keep_region3 m ρ c main_arg17 (by decide)).trans ((keep_hostOps3 (W10 m ρ c) main_arg17 (by decide)).trans ((keep_region2 m ρ c main_arg17 (by decide)).trans ((keep_hostOps2 (W8 m ρ c) main_arg17 (by decide)).trans ((keep_region1 m ρ c main_arg17 (by decide)).trans ((keep_hostOps1 (W6 m ρ c) main_arg17 (by decide)).trans (keep_region0 m ρ c main_arg17 (by decide)))))))))))).trans (W5_arg m ρ c main_arg17 (by decide) (by decide) (by decide) (by decide) (by decide))
theorem arg9_at16 (c : Dev nD) : W16 m ρ c (Proc.devRef .tc main_arg9) = (m ((c : Thread nD τ).loc main_arg9)) :=
  ((keep_region5 m ρ c main_arg9 (by decide)).trans ((keep_hostOps5 (W14 m ρ c) main_arg9 (by decide)).trans ((keep_region4 m ρ c main_arg9 (by decide)).trans ((keep_hostOps4 (W12 m ρ c) main_arg9 (by decide)).trans ((keep_region3 m ρ c main_arg9 (by decide)).trans ((keep_hostOps3 (W10 m ρ c) main_arg9 (by decide)).trans ((keep_region2 m ρ c main_arg9 (by decide)).trans ((keep_hostOps2 (W8 m ρ c) main_arg9 (by decide)).trans ((keep_region1 m ρ c main_arg9 (by decide)).trans ((keep_hostOps1 (W6 m ρ c) main_arg9 (by decide)).trans (keep_region0 m ρ c main_arg9 (by decide)))))))))))).trans (W5_arg m ρ c main_arg9 (by decide) (by decide) (by decide) (by decide) (by decide))
theorem arg8_at17 (c : Dev nD) : W17 m ρ c (Proc.devRef .tc main_arg8) = (m ((c : Thread nD τ).loc main_arg8)) :=
  ((keep_hostOps6 (W16 m ρ c) main_arg8 (by decide)).trans ((keep_region5 m ρ c main_arg8 (by decide)).trans ((keep_hostOps5 (W14 m ρ c) main_arg8 (by decide)).trans ((keep_region4 m ρ c main_arg8 (by decide)).trans ((keep_hostOps4 (W12 m ρ c) main_arg8 (by decide)).trans ((keep_region3 m ρ c main_arg8 (by decide)).trans ((keep_hostOps3 (W10 m ρ c) main_arg8 (by decide)).trans ((keep_region2 m ρ c main_arg8 (by decide)).trans ((keep_hostOps2 (W8 m ρ c) main_arg8 (by decide)).trans ((keep_region1 m ρ c main_arg8 (by decide)).trans ((keep_hostOps1 (W6 m ρ c) main_arg8 (by decide)).trans (keep_region0 m ρ c main_arg8 (by decide))))))))))))).trans (W5_arg m ρ c main_arg8 (by decide) (by decide) (by decide) (by decide) (by decide))
theorem arg9_at18 (c : Dev nD) : W18 m ρ c (Proc.devRef .tc main_arg9) = (m ((c : Thread nD τ).loc main_arg9)) :=
  ((keep_region6 m ρ c main_arg9 (by decide)).trans ((keep_hostOps6 (W16 m ρ c) main_arg9 (by decide)).trans ((keep_region5 m ρ c main_arg9 (by decide)).trans ((keep_hostOps5 (W14 m ρ c) main_arg9 (by decide)).trans ((keep_region4 m ρ c main_arg9 (by decide)).trans ((keep_hostOps4 (W12 m ρ c) main_arg9 (by decide)).trans ((keep_region3 m ρ c main_arg9 (by decide)).trans ((keep_hostOps3 (W10 m ρ c) main_arg9 (by decide)).trans ((keep_region2 m ρ c main_arg9 (by decide)).trans ((keep_hostOps2 (W8 m ρ c) main_arg9 (by decide)).trans ((keep_region1 m ρ c main_arg9 (by decide)).trans ((keep_hostOps1 (W6 m ρ c) main_arg9 (by decide)).trans (keep_region0 m ρ c main_arg9 (by decide)))))))))))))).trans (W5_arg m ρ c main_arg9 (by decide) (by decide) (by decide) (by decide) (by decide))
theorem arg8_at19 (c : Dev nD) : W19 m ρ c (Proc.devRef .tc main_arg8) = (m ((c : Thread nD τ).loc main_arg8)) :=
  ((keep_hostOps7 (W18 m ρ c) main_arg8 (by decide)).trans ((keep_region6 m ρ c main_arg8 (by decide)).trans ((keep_hostOps6 (W16 m ρ c) main_arg8 (by decide)).trans ((keep_region5 m ρ c main_arg8 (by decide)).trans ((keep_hostOps5 (W14 m ρ c) main_arg8 (by decide)).trans ((keep_region4 m ρ c main_arg8 (by decide)).trans ((keep_hostOps4 (W12 m ρ c) main_arg8 (by decide)).trans ((keep_region3 m ρ c main_arg8 (by decide)).trans ((keep_hostOps3 (W10 m ρ c) main_arg8 (by decide)).trans ((keep_region2 m ρ c main_arg8 (by decide)).trans ((keep_hostOps2 (W8 m ρ c) main_arg8 (by decide)).trans ((keep_region1 m ρ c main_arg8 (by decide)).trans ((keep_hostOps1 (W6 m ρ c) main_arg8 (by decide)).trans (keep_region0 m ρ c main_arg8 (by decide))))))))))))))).trans (W5_arg m ρ c main_arg8 (by decide) (by decide) (by decide) (by decide) (by decide))

theorem v23_at6 (c : Dev nD) : W6 m ρ c (Proc.devRef .tc main_v23) = linRow (m ((c : Thread nD τ).loc main_arg0)) (m ((c : Thread nD τ).loc main_arg4)) (Ker.row128 (m ((c : Thread nD τ).loc main_arg5))) := by
  rw [W6_out m ρ c, arg0_at5 m ρ c, arg4_at5 m ρ c, W5_v22 m ρ c]
theorem v24_at7 (c : Dev nD) : W7 m ρ c (Proc.devRef .tc main_v24) = Ker.row128 (m ((c : Thread nD τ).loc main_arg7)) := by
  rw [W7_v24 m ρ c, arg7_at6 m ρ c]
theorem v25_at8 (c : Dev nD) : W8 m ρ c (Proc.devRef .tc main_v25) = linRow (m ((c : Thread nD τ).loc main_arg1)) (m ((c : Thread nD τ).loc main_arg6)) (Ker.row128 (m ((c : Thread nD τ).loc main_arg7))) := by
  rw [W8_out m ρ c, arg1_at7 m ρ c, arg6_at7 m ρ c, v24_at7 m ρ c]
theorem v23_at8 (c : Dev nD) : W8 m ρ c (Proc.devRef .tc main_v23) = linRow (m ((c : Thread nD τ).loc main_arg0)) (m ((c : Thread nD τ).loc main_arg4)) (Ker.row128 (m ((c : Thread nD τ).loc main_arg5))) :=
  ((keep_region1 m ρ c main_v23 (by decide)).trans (keep_hostOps1 (W6 m ρ c) main_v23 (by decide))).trans (v23_at6 m ρ c)
theorem v14_at8 (c : Dev nD) : W8 m ρ c (Proc.devRef .tc main_v14) = Ker.inv (Ker.cnt (m ((c : Thread nD τ).loc main_arg15))) :=
  ((keep_region1 m ρ c main_v14 (by decide)).trans ((keep_hostOps1 (W6 m ρ c) main_v14 (by decide)).trans (keep_region0 m ρ c main_v14 (by decide)))).trans (W5_v14 m ρ c)
theorem v35_at9 (c : Dev nD) : W9 m ρ c (Proc.devRef .tc main_v35) = Ker.agg128 (linRow (m ((c : Thread nD τ).loc main_arg0)) (m ((c : Thread nD τ).loc main_arg4)) (Ker.row128 (m ((c : Thread nD τ).loc main_arg5)))) (m ((c : Thread nD τ).loc main_arg14)) (m ((c : Thread nD τ).loc main_arg15)) := by
  rw [W9_v35 m ρ c, v23_at8 m ρ c, arg14_at8 m ρ c, arg15_at8 m ρ c]
theorem v45_at9 (c : Dev nD) : W9 m ρ c (Proc.devRef .tc main_v45) = Ker.agg128 (linRow (m ((c : Thread nD τ).loc main_arg1)) (m ((c : Thread nD τ).loc main_arg6)) (Ker.row128 (m ((c : Thread nD τ).loc main_arg7)))) (m ((c : Thread nD τ).loc main_arg16)) (m ((c : Thread nD τ).loc main_arg17)) := by
  rw [W9_v45 m ρ c, v25_at8 m ρ c, arg16_at8 m ρ c, arg17_at8 m ρ c]
theorem v46_at9 (c : Dev nD) : W9 m ρ c (Proc.devRef .tc main_v46) = Ker.col (Ker.inv (Ker.cnt (m ((c : Thread nD τ).loc main_arg15)))) := by
  rw [W9_v46 m ρ c, v14_at8 m ρ c]
theorem v47_at9 (c : Dev nD) : W9 m ρ c (Proc.devRef .tc main_v47) = Ker.row128 (m ((c : Thread nD τ).loc main_arg3)) := by
  rw [W9_v47 m ρ c, arg3_at8 m ρ c]
theorem v48_at10 (c : Dev nD) : W10 m ρ c (Proc.devRef .tc main_v48) = Ker.h1i (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) := by
  rw [W10_out m ρ c, v35_at9 m ρ c, v46_at9 m ρ c, arg1_at9 m ρ c, arg2_at9 m ρ c, v47_at9 m ρ c]
  rfl
theorem v21_at10 (c : Dev nD) : W10 m ρ c (Proc.devRef .tc main_v21) = Ker.inv (Ker.cnt (m ((c : Thread nD τ).loc main_arg17))) :=
  ((keep_region2 m ρ c main_v21 (by decide)).trans ((keep_hostOps2 (W8 m ρ c) main_v21 (by decide)).trans ((keep_region1 m ρ c main_v21 (by decide)).trans ((keep_hostOps1 (W6 m ρ c) main_v21 (by decide)).trans (keep_region0 m ρ c main_v21 (by decide)))))).trans (W5_v21 m ρ c)
theorem v49_at11 (c : Dev nD) : W11 m ρ c (Proc.devRef .tc main_v49) = Ker.col (Ker.inv (Ker.cnt (m ((c : Thread nD τ).loc main_arg17)))) := by
  rw [W11_v49 m ρ c, v21_at10 m ρ c]
theorem v50_at11 (c : Dev nD) : W11 m ρ c (Proc.devRef .tc main_v50) = Ker.row128 (m ((c : Thread nD τ).loc main_arg3)) := by
  rw [W11_v50 m ρ c, arg3_at10 m ρ c]
theorem v45_at11 (c : Dev nD) : W11 m ρ c (Proc.devRef .tc main_v45) = Ker.agg128 (linRow (m ((c : Thread nD τ).loc main_arg1)) (m ((c : Thread nD τ).loc main_arg6)) (Ker.row128 (m ((c : Thread nD τ).loc main_arg7)))) (m ((c : Thread nD τ).loc main_arg16)) (m ((c : Thread nD τ).loc main_arg17)) :=
  ((keep_hostOps3 (W10 m ρ c) main_v45 (by decide)).trans (keep_region2 m ρ c main_v45 (by decide))).trans (v45_at9 m ρ c)
theorem v51_at12 (c : Dev nD) : W12 m ρ c (Proc.devRef .tc main_v51) = Ker.h1u (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg16)) (m ((c : Thread nD τ).loc main_arg17)) := by
  rw [W12_out m ρ c, v45_at11 m ρ c, v49_at11 m ρ c, arg0_at11 m ρ c, arg2_at11 m ρ c, v50_at11 m ρ c]
  rfl
theorem v52_at13 (c : Dev nD) : W13 m ρ c (Proc.devRef .tc main_v52) = Ker.row64 (m ((c : Thread nD τ).loc main_arg11)) := by
  rw [W13_v52 m ρ c, arg11_at12 m ρ c]
theorem v51_at13 (c : Dev nD) : W13 m ρ c (Proc.devRef .tc main_v51) = Ker.h1u (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg16)) (m ((c : Thread nD τ).loc main_arg17)) :=
  (keep_hostOps4 (W12 m ρ c) main_v51 (by decide)).trans (v51_at12 m ρ c)
theorem v53_at14 (c : Dev nD) : W14 m ρ c (Proc.devRef .tc main_v53) = linRow (Ker.h1u (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg16)) (m ((c : Thread nD τ).loc main_arg17))) (m ((c : Thread nD τ).loc main_arg10)) (Ker.row64 (m ((c : Thread nD τ).loc main_arg11))) := by
  rw [W14_out m ρ c, v51_at13 m ρ c, arg10_at13 m ρ c, v52_at13 m ρ c]
theorem v54_at15 (c : Dev nD) : W15 m ρ c (Proc.devRef .tc main_v54) = Ker.row64 (m ((c : Thread nD τ).loc main_arg13)) := by
  rw [W15_v54 m ρ c, arg13_at14 m ρ c]
theorem v48_at15 (c : Dev nD) : W15 m ρ c (Proc.devRef .tc main_v48) = Ker.h1i (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) :=
  ((keep_hostOps5 (W14 m ρ c) main_v48 (by decide)).trans ((keep_region4 m ρ c main_v48 (by decide)).trans ((keep_hostOps4 (W12 m ρ c) main_v48 (by decide)).trans ((keep_region3 m ρ c main_v48 (by decide)).trans (keep_hostOps3 (W10 m ρ c) main_v48 (by decide)))))).trans (v48_at10 m ρ c)
theorem v55_at16 (c : Dev nD) : W16 m ρ c (Proc.devRef .tc main_v55) = linRow (Ker.h1i (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15))) (m ((c : Thread nD τ).loc main_arg12)) (Ker.row64 (m ((c : Thread nD τ).loc main_arg13))) := by
  rw [W16_out m ρ c, v48_at15 m ρ c, arg12_at15 m ρ c, v54_at15 m ρ c]
theorem v53_at16 (c : Dev nD) : W16 m ρ c (Proc.devRef .tc main_v53) = linRow (Ker.h1u (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg16)) (m ((c : Thread nD τ).loc main_arg17))) (m ((c : Thread nD τ).loc main_arg10)) (Ker.row64 (m ((c : Thread nD τ).loc main_arg11))) :=
  ((keep_region5 m ρ c main_v53 (by decide)).trans (keep_hostOps5 (W14 m ρ c) main_v53 (by decide))).trans (v53_at14 m ρ c)
theorem v14_at16 (c : Dev nD) : W16 m ρ c (Proc.devRef .tc main_v14) = Ker.inv (Ker.cnt (m ((c : Thread nD τ).loc main_arg15))) :=
  ((keep_region5 m ρ c main_v14 (by decide)).trans ((keep_hostOps5 (W14 m ρ c) main_v14 (by decide)).trans ((keep_region4 m ρ c main_v14 (by decide)).trans ((keep_hostOps4 (W12 m ρ c) main_v14 (by decide)).trans ((keep_region3 m ρ c main_v14 (by decide)).trans ((keep_hostOps3 (W10 m ρ c) main_v14 (by decide)).trans ((keep_region2 m ρ c main_v14 (by decide)).trans ((keep_hostOps2 (W8 m ρ c) main_v14 (by decide)).trans ((keep_region1 m ρ c main_v14 (by decide)).trans ((keep_hostOps1 (W6 m ρ c) main_v14 (by decide)).trans (keep_region0 m ρ c main_v14 (by decide)))))))))))).trans (W5_v14 m ρ c)
theorem v65_at17 (c : Dev nD) : W17 m ρ c (Proc.devRef .tc main_v65) = Ker.agg64 (linRow (Ker.h1u (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg16)) (m ((c : Thread nD τ).loc main_arg17))) (m ((c : Thread nD τ).loc main_arg10)) (Ker.row64 (m ((c : Thread nD τ).loc main_arg11)))) (m ((c : Thread nD τ).loc main_arg14)) (m ((c : Thread nD τ).loc main_arg15)) := by
  rw [W17_v65 m ρ c, v53_at16 m ρ c, arg14_at16 m ρ c, arg15_at16 m ρ c]
theorem v75_at17 (c : Dev nD) : W17 m ρ c (Proc.devRef .tc main_v75) = Ker.agg64 (linRow (Ker.h1i (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15))) (m ((c : Thread nD τ).loc main_arg12)) (Ker.row64 (m ((c : Thread nD τ).loc main_arg13)))) (m ((c : Thread nD τ).loc main_arg16)) (m ((c : Thread nD τ).loc main_arg17)) := by
  rw [W17_v75 m ρ c, v55_at16 m ρ c, arg16_at16 m ρ c, arg17_at16 m ρ c]
theorem v76_at17 (c : Dev nD) : W17 m ρ c (Proc.devRef .tc main_v76) = Ker.col (Ker.inv (Ker.cnt (m ((c : Thread nD τ).loc main_arg15)))) := by
  rw [W17_v76 m ρ c, v14_at16 m ρ c]
theorem v77_at17 (c : Dev nD) : W17 m ρ c (Proc.devRef .tc main_v77) = Ker.row64 (m ((c : Thread nD τ).loc main_arg9)) := by
  rw [W17_v77 m ρ c, arg9_at16 m ρ c]
theorem v48_at17 (c : Dev nD) : W17 m ρ c (Proc.devRef .tc main_v48) = Ker.h1i (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) :=
  ((keep_hostOps6 (W16 m ρ c) main_v48 (by decide)).trans ((keep_region5 m ρ c main_v48 (by decide)).trans ((keep_hostOps5 (W14 m ρ c) main_v48 (by decide)).trans ((keep_region4 m ρ c main_v48 (by decide)).trans ((keep_hostOps4 (W12 m ρ c) main_v48 (by decide)).trans ((keep_region3 m ρ c main_v48 (by decide)).trans (keep_hostOps3 (W10 m ρ c) main_v48 (by decide)))))))).trans (v48_at10 m ρ c)
theorem v78_at18 (c : Dev nD) : W18 m ρ c (Proc.devRef .tc main_v78) = Ker.outI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16)) (m ((c : Thread nD τ).loc main_arg17)) := by
  rw [W18_out m ρ c, v65_at17 m ρ c, v76_at17 m ρ c, v48_at17 m ρ c, arg8_at17 m ρ c, v77_at17 m ρ c]
  rfl
theorem v21_at18 (c : Dev nD) : W18 m ρ c (Proc.devRef .tc main_v21) = Ker.inv (Ker.cnt (m ((c : Thread nD τ).loc main_arg17))) :=
  ((keep_region6 m ρ c main_v21 (by decide)).trans ((keep_hostOps6 (W16 m ρ c) main_v21 (by decide)).trans ((keep_region5 m ρ c main_v21 (by decide)).trans ((keep_hostOps5 (W14 m ρ c) main_v21 (by decide)).trans ((keep_region4 m ρ c main_v21 (by decide)).trans ((keep_hostOps4 (W12 m ρ c) main_v21 (by decide)).trans ((keep_region3 m ρ c main_v21 (by decide)).trans ((keep_hostOps3 (W10 m ρ c) main_v21 (by decide)).trans ((keep_region2 m ρ c main_v21 (by decide)).trans ((keep_hostOps2 (W8 m ρ c) main_v21 (by decide)).trans ((keep_region1 m ρ c main_v21 (by decide)).trans ((keep_hostOps1 (W6 m ρ c) main_v21 (by decide)).trans (keep_region0 m ρ c main_v21 (by decide)))))))))))))).trans (W5_v21 m ρ c)
theorem v79_at19 (c : Dev nD) : W19 m ρ c (Proc.devRef .tc main_v79) = Ker.col (Ker.inv (Ker.cnt (m ((c : Thread nD τ).loc main_arg17)))) := by
  rw [W19_v79 m ρ c, v21_at18 m ρ c]
theorem v80_at19 (c : Dev nD) : W19 m ρ c (Proc.devRef .tc main_v80) = Ker.row64 (m ((c : Thread nD τ).loc main_arg9)) := by
  rw [W19_v80 m ρ c, arg9_at18 m ρ c]
theorem v75_at19 (c : Dev nD) : W19 m ρ c (Proc.devRef .tc main_v75) = Ker.agg64 (linRow (Ker.h1i (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15))) (m ((c : Thread nD τ).loc main_arg12)) (Ker.row64 (m ((c : Thread nD τ).loc main_arg13)))) (m ((c : Thread nD τ).loc main_arg16)) (m ((c : Thread nD τ).loc main_arg17)) :=
  ((keep_hostOps7 (W18 m ρ c) main_v75 (by decide)).trans (keep_region6 m ρ c main_v75 (by decide))).trans (v75_at17 m ρ c)
theorem v51_at19 (c : Dev nD) : W19 m ρ c (Proc.devRef .tc main_v51) = Ker.h1u (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg16)) (m ((c : Thread nD τ).loc main_arg17)) :=
  ((keep_hostOps7 (W18 m ρ c) main_v51 (by decide)).trans ((keep_region6 m ρ c main_v51 (by decide)).trans ((keep_hostOps6 (W16 m ρ c) main_v51 (by decide)).trans ((keep_region5 m ρ c main_v51 (by decide)).trans ((keep_hostOps5 (W14 m ρ c) main_v51 (by decide)).trans ((keep_region4 m ρ c main_v51 (by decide)).trans (keep_hostOps4 (W12 m ρ c) main_v51 (by decide)))))))).trans (v51_at12 m ρ c)

/-- The first result. -/
theorem W20_v81 (c : Dev nD) : W20 m ρ c (Proc.devRef .tc main_v81) = Ker.outU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [W20_out m ρ c, v75_at19 m ρ c, v79_at19 m ρ c, v51_at19 m ρ c, arg8_at19 m ρ c, v80_at19 m ρ c]
  rfl
/-- The second result. -/
theorem W20_v78 (c : Dev nD) : W20 m ρ c (Proc.devRef .tc main_v78) = Ker.outI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16)) (m ((c : Thread nD τ).loc main_arg17)) :=
  ((keep_region7 m ρ c main_v78 (by decide)).trans (keep_hostOps7 (W18 m ρ c) main_v78 (by decide))).trans (v78_at18 m ρ c)

end Cert.KernelIdeal.Named

end
-- ==== Proof.RefRun.lean ====
/-
  The reference program as one straight line of host operations, and its run.

  The program is a two-layer relational graph convolution on two node sets.  Its 188 array operations (the bodies of
  the four small functions it calls written out at their call sites, over each call's own buffers) are listed here in
  program order as nine consecutive lines; `main_eq` says the program is that line, and `run` that every weakly fair
  execution terminates with every buffer at the line's fold over the launch contents.  For each of the nine lines the
  buffers it writes are listed, so that a buffer outside the list is carried through the line unchanged (`keepX`).
-/
import proofs.«155910_j7129645711537_2_alg».proof.Proof.Gen.ReferenceIdeal
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

variable {F : FTy → Type} [FloatOps F]

/-! ## Two facts about lines -/

/-- A property of every operation of two lines holds of every operation of their concatenation. -/
theorem forall_app {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  exacts [h₁ x h, h₂ x h]

/-- If every operation of a line writes exactly one buffer, and `W` lists those buffers, a buffer outside `W`
    holds after the line what it held before. -/
theorem after_keep {l : List (HloOp τ sig (Elt F))} {W : List (Ref sig .tc)}
    (h : l.map (fun op => op.writes) = W.map fun y => ({Proc.devRef .tc y} : Finset (DevRef τ sig)))
    (V : Valuation τ sig (Elt F)) {r : Ref sig .tc} (hr : r ∉ W) :
    after l V (Proc.devRef .tc r) = V (Proc.devRef .tc r) :=
  after_of_forall_not_mem l V fun op hop hb => by
    have hm : op.writes ∈ l.map (fun op => op.writes) := List.mem_map_of_mem hop
    rw [h] at hm
    obtain ⟨y, hy, he⟩ := List.mem_map.mp hm
    rw [← he, Finset.mem_singleton] at hb
    exact hr (Proc.devRef_injective _ hb ▸ hy)

/-- The fold of two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Every operation of a literal line touches TensorCore buffers only. -/
local macro "line_sub" : tactic =>
  `(tactic| (simp only [List.Forall, nullary_bufs_sub, unary_bufs_sub, binary_bufs_sub, ternary_bufs_sub, and_self]))

/-- Every operation of a literal line determines its results. -/
local macro "line_fresh" : tactic =>
  `(tactic| (simp only [List.Forall]
             repeat' (first | rfl | apply And.intro)))

/-! ## The nine lines -/

/-- Operations 1–16: the four first-layer affine maps x·W + b of the rows (%0–%15). -/
def opsA : List (HloOp τ sig (Elt F)) :=
  [
    StableHlo.binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %0 dot_general
    StableHlo.unary main_arg3 main_v1 (broadcastInDim S1x128 ![1] bcast_S128_S1x128_1 : (⟨S128, .f32⟩ : BufTy).Contents (Elt F) → (⟨S1x128, .f32⟩ : BufTy).Contents (Elt F)),  -- %1 broadcast_in_dim
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),  -- %2 broadcast_in_dim
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),  -- %3 add
    StableHlo.binary main_arg1 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %4 dot_general
    StableHlo.unary main_arg3 main_v5 (broadcastInDim S1x128 ![1] bcast_S128_S1x128_1 : (⟨S128, .f32⟩ : BufTy).Contents (Elt F) → (⟨S1x128, .f32⟩ : BufTy).Contents (Elt F)),  -- %5 broadcast_in_dim
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),  -- %6 broadcast_in_dim
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)),  -- %7 add
    StableHlo.binary main_arg0 main_arg4 main_v8 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %8 dot_general
    StableHlo.unary main_arg5 main_v9 (broadcastInDim S1x128 ![1] bcast_S128_S1x128_1 : (⟨S128, .f32⟩ : BufTy).Contents (Elt F) → (⟨S1x128, .f32⟩ : BufTy).Contents (Elt F)),  -- %9 broadcast_in_dim
    StableHlo.unary main_v9 main_v10 (broadcastInDim S100000x128 ![0, 1] bcast_S1x128_S100000x128_0_1 : (⟨S1x128, .f32⟩ : BufTy).Contents (Elt F) → (⟨S100000x128, .f32⟩ : BufTy).Contents (Elt F)),  -- %10 broadcast_in_dim
    StableHlo.binary main_v8 main_v10 main_v11 (addf : (⟨S100000x128, .f32⟩ : BufTy).Contents (Elt F) → (⟨S100000x128, .f32⟩ : BufTy).Contents (Elt F) → (⟨S100000x128, .f32⟩ : BufTy).Contents (Elt F)),  -- %11 add
    StableHlo.binary main_arg1 main_arg6 main_v12 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %12 dot_general
    StableHlo.unary main_arg7 main_v13 (broadcastInDim S1x128 ![1] bcast_S128_S1x128_1 : (⟨S128, .f32⟩ : BufTy).Contents (Elt F) → (⟨S1x128, .f32⟩ : BufTy).Contents (Elt F)),  -- %13 broadcast_in_dim
    StableHlo.unary main_v13 main_v14 (broadcastInDim S100000x128 ![0, 1] bcast_S1x128_S100000x128_0_1 : (⟨S1x128, .f32⟩ : BufTy).Contents (Elt F) → (⟨S100000x128, .f32⟩ : BufTy).Contents (Elt F)),  -- %14 broadcast_in_dim
    StableHlo.binary main_v12 main_v14 main_v15 (addf : (⟨S100000x128, .f32⟩ : BufTy).Contents (Elt F) → (⟨S100000x128, .f32⟩ : BufTy).Contents (Elt F) → (⟨S100000x128, .f32⟩ : BufTy).Contents (Elt F)) ]  -- %15 add

/-- The buffers that line writes, in order. -/
def WA : List (Ref sig .tc) :=
  [main_v0, main_v1, main_v2, main_v3, main_v4, main_v5, main_v6, main_v7, main_v8, main_v9, main_v10, main_v11, main_v12, main_v13, main_v14, main_v15]

/-- Operations 17–51: the first-layer messages into the item nodes — the source index brought into range, the gather of the transformed rows, their sum per target, the in-degree, the division by max(degree, 1) kept where the degree is positive — plus the item nodes' own affine image (%c–%39). -/
def opsB : List (HloOp τ sig (Elt F)) :=
  [
    StableHlo.nullary main_c (constantI S_ 32 0#32),  -- %c constant
    StableHlo.unary main_c main_v16 (broadcastInDim S500000 ![] bcast_S_S500000 : (⟨S_, .i32⟩ : BufTy).Contents (Elt F) → (⟨S500000, .i32⟩ : BufTy).Contents (Elt F)),  -- %16 broadcast_in_dim
    StableHlo.binary main_arg14 main_v16 main_v17 (cmpi .slt : (⟨S500000, .i32⟩ : BufTy).Contents (Elt F) → (⟨S500000, .i32⟩ : BufTy).Contents (Elt F) → (⟨S500000, .i1⟩ : BufTy).Contents (Elt F)),  -- %17 compare
    StableHlo.nullary main_c_0 (constantI S_ 32 100000#32),  -- %c_0 constant
    StableHlo.unary main_c_0 main_v18 (broadcastInDim S500000 ![] bcast_S_S500000 : (⟨S_, .i32⟩ : BufTy).Contents (Elt F) → (⟨S500000, .i32⟩ : BufTy).Contents (Elt F)),  -- %18 broadcast_in_dim
    StableHlo.binary main_arg14 main_v18 main_v19 (addi : (⟨S500000, .i32⟩ : BufTy).Contents (Elt F) → (⟨S500000, .i32⟩ : BufTy).Contents (Elt F) → (⟨S500000, .i32⟩ : BufTy).Contents (Elt F)),  -- %19 add
    StableHlo.ternary main_v17 main_v19 main_arg14 main_v20 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),  -- %20 select
    StableHlo.unary main_v20 main_v21 (broadcastInDim S500000x1 ![0] bcast_S500000_S500000x1_0 : (⟨S500000, .i32⟩ : BufTy).Contents (Elt F) → (⟨S500000x1, .i32⟩ : BufTy).Contents (Elt F)),  -- %21 broadcast_in_dim
    StableHlo.binary main_v11 main_v21 main_v22 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),  -- %22 gather
    StableHlo.nullary main_cst (constant S_ .f32 0x00000000#32),  -- %cst constant
    StableHlo.unary main_cst main_v23 (broadcastInDim S100000x128 ![] bcast_S_S100000x128 : (⟨S_, .f32⟩ : BufTy).Contents (Elt F) → (⟨S100000x128, .f32⟩ : BufTy).Contents (Elt F)),  -- %23 broadcast_in_dim
    StableHlo.unary main_arg15 main_v24 (broadcastInDim S500000x1 ![0] bcast_S500000_S500000x1_0 : (⟨S500000, .i32⟩ : BufTy).Contents (Elt F) → (⟨S500000x1, .i32⟩ : BufTy).Contents (Elt F)),  -- %24 broadcast_in_dim
    StableHlo.ternary main_v23 main_v24 main_v22 main_v25 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),  -- %25 scatter
    StableHlo.nullary main_cst_1 (constant S_ .f32 0x3F800000#32),  -- %cst_1 constant
    StableHlo.unary main_cst_1 main_v26 (broadcastInDim S500000 ![] bcast_S_S500000 : (⟨S_, .f32⟩ : BufTy).Contents (Elt F) → (⟨S500000, .f32⟩ : BufTy).Contents (Elt F)),  -- %26 broadcast_in_dim
    StableHlo.nullary main_cst_2 (constant S_ .f32 0x00000000#32),  -- %cst_2 constant
    StableHlo.unary main_cst_2 main_v27 (broadcastInDim S100000 ![] bcast_S_S100000 : (⟨S_, .f32⟩ : BufTy).Contents (Elt F) → (⟨S100000, .f32⟩ : BufTy).Contents (Elt F)),  -- %27 broadcast_in_dim
    StableHlo.unary main_arg15 main_v28 (broadcastInDim S500000x1 ![0] bcast_S500000_S500000x1_0 : (⟨S500000, .i32⟩ : BufTy).Contents (Elt F) → (⟨S500000x1, .i32⟩ : BufTy).Contents (Elt F)),  -- %28 broadcast_in_dim
    StableHlo.ternary main_v27 main_v28 main_v26 main_v29 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),  -- %29 scatter
    StableHlo.unary main_v29 main_v30 (broadcastInDim S100000x1 ![0] bcast_S100000_S100000x1_0 : (⟨S100000, .f32⟩ : BufTy).Contents (Elt F) → (⟨S100000x1, .f32⟩ : BufTy).Contents (Elt F)),  -- %30 broadcast_in_dim
    StableHlo.nullary main_cst_3 (constant S_ .f32 0x00000000#32),  -- %cst_3 constant
    StableHlo.unary main_cst_3 main_v31 (broadcastInDim S100000x1 ![] bcast_S_S100000x1 : (⟨S_, .f32⟩ : BufTy).Contents (Elt F) → (⟨S100000x1, .f32⟩ : BufTy).Contents (Elt F)),  -- %31 broadcast_in_dim
    StableHlo.binary main_v30 main_v31 main_v32 (cmpf .ogt : (⟨S100000x1, .f32⟩ : BufTy).Contents (Elt F) → (⟨S100000x1, .f32⟩ : BufTy).Contents (Elt F) → (⟨S100000x1, .i1⟩ : BufTy).Contents (Elt F)),  -- %32 compare
    StableHlo.nullary main_cst_4 (constant S_ .f32 0x3F800000#32),  -- %cst_4 constant
    StableHlo.unary main_cst_4 main_v33 (broadcastInDim S100000 ![] bcast_S_S100000 : (⟨S_, .f32⟩ : BufTy).Contents (Elt F) → (⟨S100000, .f32⟩ : BufTy).Contents (Elt F)),  -- %33 broadcast_in_dim
    StableHlo.binary main_v29 main_v33 main_v34 (maximumf : (⟨S100000, .f32⟩ : BufTy).Contents (Elt F) → (⟨S100000, .f32⟩ : BufTy).Contents (Elt F) → (⟨S100000, .f32⟩ : BufTy).Contents (Elt F)),  -- %34 maximum
    StableHlo.unary main_v34 main_v35 (broadcastInDim S100000x1 ![0] bcast_S100000_S100000x1_0 : (⟨S100000, .f32⟩ : BufTy).Contents (Elt F) → (⟨S100000x1, .f32⟩ : BufTy).Contents (Elt F)),  -- %35 broadcast_in_dim
    StableHlo.unary main_v35 main_v36 (broadcastInDim S100000x128 ![0, 1] bcast_S100000x1_S100000x128_0_1 : (⟨S100000x1, .f32⟩ : BufTy).Contents (Elt F) → (⟨S100000x128, .f32⟩ : BufTy).Contents (Elt F)),  -- %36 broadcast_in_dim
    StableHlo.binary main_v25 main_v36 main_v37 (Host.divf : (⟨S100000x128, .f32⟩ : BufTy).Contents (Elt F) → (⟨S100000x128, .f32⟩ : BufTy).Contents (Elt F) → (⟨S100000x128, .f32⟩ : BufTy).Contents (Elt F)),  -- %37 divide
    StableHlo.nullary main_cst_5 (constant S_ .f32 0x00000000#32),  -- %cst_5 constant
    StableHlo.TRef.unary (StableHlo.TRef.of main_cst_5 : StableHlo.TRef sig ⟨S_, .f32⟩) main_call0.v0 id,  -- @where: %0 convert
    StableHlo.TRef.unary (StableHlo.TRef.of main_v32 : StableHlo.TRef sig ⟨S100000x1, .i1⟩) main_call0.v1 (broadcastInDim S100000x128 ![0, 1] bcast_S100000x1_S100000x128_0_1),  -- @where: %1 broadcast_in_dim
    StableHlo.TRef.unary main_call0.v0 main_call0.v2 (broadcastInDim S100000x128 ![] bcast_S_S100000x128),  -- @where: %2 broadcast_in_dim
    StableHlo.TRef.ternary main_call0.v1 (StableHlo.TRef.of main_v37 : StableHlo.TRef sig ⟨S100000x128, .f32⟩) main_call0.v2 main_call0.v3 select,  -- @where: %3 select
    StableHlo.binary main_v38 main_v7 main_v39 (addf : (⟨S100000x128, .f32⟩ : BufTy).Contents (Elt F) → (⟨S100000x128, .f32⟩ : BufTy).Contents (Elt F) → (⟨S100000x128, .f32⟩ : BufTy).Contents (Elt F)) ]  -- %39 add

/-- The buffers that line writes, in order. -/
def WB : List (Ref sig .tc) :=
  [main_c, main_v16, main_v17, main_c_0, main_v18, main_v19, main_v20, main_v21, main_v22, main_cst, main_v23, main_v24, main_v25, main_cst_1, main_v26, main_cst_2, main_v27, main_v28, main_v29, main_v30, main_cst_3, main_v31, main_v32, main_cst_4, main_v33, main_v34, main_v35, main_v36, main_v37, main_cst_5, main_call0.v0.ref, main_call0.v1.ref, main_call0.v2.ref, main_call0.v3.ref, main_v39]

/-- Operations 52–63: the same for the messages into the user nodes, up to the scatter's operands (%c_6–%48). -/
def opsCa : List (HloOp τ sig (Elt F)) :=
  [
    StableHlo.nullary main_c_6 (constantI S_ 32 0#32),  -- %c_6 constant
    StableHlo.unary main_c_6 main_v40 (broadcastInDim S500000 ![] bcast_S_S500000 : (⟨S_, .i32⟩ : BufTy).Contents (Elt F) → (⟨S500000, .i32⟩ : BufTy).Contents (Elt F)),  -- %40 broadcast_in_dim
    StableHlo.binary main_arg16 main_v40 main_v41 (cmpi .slt : (⟨S500000, .i32⟩ : BufTy).Contents (Elt F) → (⟨S500000, .i32⟩ : BufTy).Contents (Elt F) → (⟨S500000, .i1⟩ : BufTy).Contents (Elt F)),  -- %41 compare
    StableHlo.nullary main_c_7 (constantI S_ 32 100000#32),  -- %c_7 constant
    StableHlo.unary main_c_7 main_v42 (broadcastInDim S500000 ![] bcast_S_S500000 : (⟨S_, .i32⟩ : BufTy).Contents (Elt F) → (⟨S500000, .i32⟩ : BufTy).Contents (Elt F)),  -- %42 broadcast_in_dim
    StableHlo.binary main_arg16 main_v42 main_v43 (addi : (⟨S500000, .i32⟩ : BufTy).Contents (Elt F) → (⟨S500000, .i32⟩ : BufTy).Contents (Elt F) → (⟨S500000, .i32⟩ : BufTy).Contents (Elt F)),  -- %43 add
    StableHlo.ternary main_v41 main_v43 main_arg16 main_v44 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),  -- %44 select
    StableHlo.unary main_v44 main_v45 (broadcastInDim S500000x1 ![0] bcast_S500000_S500000x1_0 : (⟨S500000, .i32⟩ : BufTy).Contents (Elt F) → (⟨S500000x1, .i32⟩ : BufTy).Contents (Elt F)),  -- %45 broadcast_in_dim
    StableHlo.binary main_v15 main_v45 main_v46 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),  -- %46 gather
    StableHlo.nullary main_cst_8 (constant S_ .f32 0x00000000#32),  -- %cst_8 constant
    StableHlo.unary main_cst_8 main_v47 (broadcastInDim S100000x128 ![] bcast_S_S100000x128 : (⟨S_, .f32⟩ : BufTy).Contents (Elt F) → (⟨S100000x128, .f32⟩ : BufTy).Contents (Elt F)),  -- %47 broadcast_in_dim
    StableHlo.unary main_arg17 main_v48 (broadcastInDim S500000x1 ![0] bcast_S500000_S500000x1_0 : (⟨S500000, .i32⟩ : BufTy).Contents (Elt F) → (⟨S500000x1, .i32⟩ : BufTy).Contents (Elt F)) ]  -- %48 broadcast_in_dim

/-- The buffers that line writes, in order. -/
def WCa : List (Ref sig .tc) :=
  [main_c_6, main_v40, main_v41, main_c_7, main_v42, main_v43, main_v44, main_v45, main_v46, main_cst_8, main_v47, main_v48]

/-- Operations 64–86: the sum per target, the in-degree, the mean and the addition of the user nodes' own affine image (%49–%63). -/
def opsCb : List (HloOp τ sig (Elt F)) :=
  [
    StableHlo.ternary main_v47 main_v48 main_v46 main_v49 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),  -- %49 scatter
    StableHlo.nullary main_cst_9 (constant S_ .f32 0x3F800000#32),  -- %cst_9 constant
    StableHlo.unary main_cst_9 main_v50 (broadcastInDim S500000 ![] bcast_S_S500000 : (⟨S_, .f32⟩ : BufTy).Contents (Elt F) → (⟨S500000, .f32⟩ : BufTy).Contents (Elt F)),  -- %50 broadcast_in_dim
    StableHlo.nullary main_cst_10 (constant S_ .f32 0x00000000#32),  -- %cst_10 constant
    StableHlo.unary main_cst_10 main_v51 (broadcastInDim S100000 ![] bcast_S_S100000 : (⟨S_, .f32⟩ : BufTy).Contents (Elt F) → (⟨S100000, .f32⟩ : BufTy).Contents (Elt F)),  -- %51 broadcast_in_dim
    StableHlo.unary main_arg17 main_v52 (broadcastInDim S500000x1 ![0] bcast_S500000_S500000x1_0 : (⟨S500000, .i32⟩ : BufTy).Contents (Elt F) → (⟨S500000x1, .i32⟩ : BufTy).Contents (Elt F)),  -- %52 broadcast_in_dim
    StableHlo.ternary main_v51 main_v52 main_v50 main_v53 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),  -- %53 scatter
    StableHlo.unary main_v53 main_v54 (broadcastInDim S100000x1 ![0] bcast_S100000_S100000x1_0 : (⟨S100000, .f32⟩ : BufTy).Contents (Elt F) → (⟨S100000x1, .f32⟩ : BufTy).Contents (Elt F)),  -- %54 broadcast_in_dim
    StableHlo.nullary main_cst_11 (constant S_ .f32 0x00000000#32),  -- %cst_11 constant
    StableHlo.unary main_cst_11 main_v55 (broadcastInDim S100000x1 ![] bcast_S_S100000x1 : (⟨S_, .f32⟩ : BufTy).Contents (Elt F) → (⟨S100000x1, .f32⟩ : BufTy).Contents (Elt F)),  -- %55 broadcast_in_dim
    StableHlo.binary main_v54 main_v55 main_v56 (cmpf .ogt : (⟨S100000x1, .f32⟩ : BufTy).Contents (Elt F) → (⟨S100000x1, .f32⟩ : BufTy).Contents (Elt F) → (⟨S100000x1, .i1⟩ : BufTy).Contents (Elt F)),  -- %56 compare
    StableHlo.nullary main_cst_12 (constant S_ .f32 0x3F800000#32),  -- %cst_12 constant
    StableHlo.unary main_cst_12 main_v57 (broadcastInDim S100000 ![] bcast_S_S100000 : (⟨S_, .f32⟩ : BufTy).Contents (Elt F) → (⟨S100000, .f32⟩ : BufTy).Contents (Elt F)),  -- %57 broadcast_in_dim
    StableHlo.binary main_v53 main_v57 main_v58 (maximumf : (⟨S100000, .f32⟩ : BufTy).Contents (Elt F) → (⟨S100000, .f32⟩ : BufTy).Contents (Elt F) → (⟨S100000, .f32⟩ : BufTy).Contents (Elt F)),  -- %58 maximum
    StableHlo.unary main_v58 main_v59 (broadcastInDim S100000x1 ![0] bcast_S100000_S100000x1_0 : (⟨S100000, .f32⟩ : BufTy).Contents (Elt F) → (⟨S100000x1, .f32⟩ : BufTy).Contents (Elt F)),  -- %59 broadcast_in_dim
    StableHlo.unary main_v59 main_v60 (broadcastInDim S100000x128 ![0, 1] bcast_S100000x1_S100000x128_0_1 : (⟨S100000x1, .f32⟩ : BufTy).Contents (Elt F) → (⟨S100000x128, .f32⟩ : BufTy).Contents (Elt F)),  -- %60 broadcast_in_dim
    StableHlo.binary main_v49 main_v60 main_v61 (Host.divf : (⟨S100000x128, .f32⟩ : BufTy).Contents (Elt F) → (⟨S100000x128, .f32⟩ : BufTy).Contents (Elt F) → (⟨S100000x128, .f32⟩ : BufTy).Contents (Elt F)),  -- %61 divide
    StableHlo.nullary main_cst_13 (constant S_ .f32 0x00000000#32),  -- %cst_13 constant
    StableHlo.TRef.unary (StableHlo.TRef.of main_cst_13 : StableHlo.TRef sig ⟨S_, .f32⟩) main_call1.v0 id,  -- @where: %0 convert
    StableHlo.TRef.unary (StableHlo.TRef.of main_v56 : StableHlo.TRef sig ⟨S100000x1, .i1⟩) main_call1.v1 (broadcastInDim S100000x128 ![0, 1] bcast_S100000x1_S100000x128_0_1),  -- @where: %1 broadcast_in_dim
    StableHlo.TRef.unary main_call1.v0 main_call1.v2 (broadcastInDim S100000x128 ![] bcast_S_S100000x128),  -- @where: %2 broadcast_in_dim
    StableHlo.TRef.ternary main_call1.v1 (StableHlo.TRef.of main_v61 : StableHlo.TRef sig ⟨S100000x128, .f32⟩) main_call1.v2 main_call1.v3 select,  -- @where: %3 select
    StableHlo.binary main_v62 main_v3 main_v63 (addf : (⟨S100000x128, .f32⟩ : BufTy).Contents (Elt F) → (⟨S100000x128, .f32⟩ : BufTy).Contents (Elt F) → (⟨S100000x128, .f32⟩ : BufTy).Contents (Elt F)) ]  -- %63 add

/-- The buffers that line writes, in order. -/
def WCb : List (Ref sig .tc) :=
  [main_v49, main_cst_9, main_v50, main_cst_10, main_v51, main_v52, main_v53, main_v54, main_cst_11, main_v55, main_v56, main_cst_12, main_v57, main_v58, main_v59, main_v60, main_v61, main_cst_13, main_call1.v0.ref, main_call1.v1.ref, main_call1.v2.ref, main_call1.v3.ref, main_v63]

/-- Operations 87–102: the leaky rectifier on both node sets (%cst_14–%65). -/
def opsD : List (HloOp τ sig (Elt F)) :=
  [
    StableHlo.nullary main_cst_14 (constant S_ .f32 0x3C23D70A#32),  -- %cst_14 constant
    StableHlo.TRef.nullary main_call2.cst (constant S_ .f32 0x00000000#32),  -- @leaky_relu: %cst constant
    StableHlo.TRef.unary main_call2.cst main_call2.v0 (broadcastInDim S100000x128 ![] bcast_S_S100000x128),  -- @leaky_relu: %0 broadcast_in_dim
    StableHlo.TRef.binary (StableHlo.TRef.of main_v63 : StableHlo.TRef sig ⟨S100000x128, .f32⟩) main_call2.v0 main_call2.v1 (cmpf .oge),  -- @leaky_relu: %1 compare
    StableHlo.TRef.unary (StableHlo.TRef.of main_cst_14 : StableHlo.TRef sig ⟨S_, .f32⟩) main_call2.v2 id,  -- @leaky_relu: %2 convert
    StableHlo.TRef.unary main_call2.v2 main_call2.v3 (broadcastInDim S100000x128 ![] bcast_S_S100000x128),  -- @leaky_relu: %3 broadcast_in_dim
    StableHlo.TRef.binary main_call2.v3 (StableHlo.TRef.of main_v63 : StableHlo.TRef sig ⟨S100000x128, .f32⟩) main_call2.v4 mulf,  -- @leaky_relu: %4 multiply
    StableHlo.TRef.ternary main_call2.v1 (StableHlo.TRef.of main_v63 : StableHlo.TRef sig ⟨S100000x128, .f32⟩) main_call2.v4 main_call2.call0.v0 select,  -- @where_0: %0 select
    StableHlo.nullary main_cst_15 (constant S_ .f32 0x3C23D70A#32),  -- %cst_15 constant
    StableHlo.TRef.nullary main_call3.cst (constant S_ .f32 0x00000000#32),  -- @leaky_relu: %cst constant
    StableHlo.TRef.unary main_call3.cst main_call3.v0 (broadcastInDim S100000x128 ![] bcast_S_S100000x128),  -- @leaky_relu: %0 broadcast_in_dim
    StableHlo.TRef.binary (StableHlo.TRef.of main_v39 : StableHlo.TRef sig ⟨S100000x128, .f32⟩) main_call3.v0 main_call3.v1 (cmpf .oge),  -- @leaky_relu: %1 compare
    StableHlo.TRef.unary (StableHlo.TRef.of main_cst_15 : StableHlo.TRef sig ⟨S_, .f32⟩) main_call3.v2 id,  -- @leaky_relu: %2 convert
    StableHlo.TRef.unary main_call3.v2 main_call3.v3 (broadcastInDim S100000x128 ![] bcast_S_S100000x128),  -- @leaky_relu: %3 broadcast_in_dim
    StableHlo.TRef.binary main_call3.v3 (StableHlo.TRef.of main_v39 : StableHlo.TRef sig ⟨S100000x128, .f32⟩) main_call3.v4 mulf,  -- @leaky_relu: %4 multiply
    StableHlo.TRef.ternary main_call3.v1 (StableHlo.TRef.of main_v39 : StableHlo.TRef sig ⟨S100000x128, .f32⟩) main_call3.v4 main_call3.call0.v0 select ]  -- @where_0: %0 select

/-- The buffers that line writes, in order. -/
def WD : List (Ref sig .tc) :=
  [main_cst_14, main_call2.cst.ref, main_call2.v0.ref, main_call2.v1.ref, main_call2.v2.ref, main_call2.v3.ref, main_call2.v4.ref, main_call2.call0.v0.ref, main_cst_15, main_call3.cst.ref, main_call3.v0.ref, main_call3.v1.ref, main_call3.v2.ref, main_call3.v3.ref, main_call3.v4.ref, main_call3.call0.v0.ref]

/-- Operations 103–118: the four second-layer affine maps (%66–%81). -/
def opsE : List (HloOp τ sig (Elt F)) :=
  [
    StableHlo.binary main_v64 main_arg8 main_v66 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),  -- %66 dot_general
    StableHlo.unary main_arg9 main_v67 (broadcastInDim S1x64 ![1] bcast_S64_S1x64_1 : (⟨S64, .f32⟩ : BufTy).Contents (Elt F) → (⟨S1x64, .f32⟩ : BufTy).Contents (Elt F)),  -- %67 broadcast_in_dim
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),  -- %68 broadcast_in_dim
    StableHlo.binary main_v66 main_v68 main_v69 (addf : (⟨S100000x64, .f32⟩ : BufTy).Contents (Elt F) → (⟨S100000x64, .f32⟩ : BufTy).Contents (Elt F) → (⟨S100000x64, .f32⟩ : BufTy).Contents (Elt F)),  -- %69 add
    StableHlo.binary main_v65 main_arg8 main_v70 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),  -- %70 dot_general
    StableHlo.unary main_arg9 main_v71 (broadcastInDim S1x64 ![1] bcast_S64_S1x64_1 : (⟨S64, .f32⟩ : BufTy).Contents (Elt F) → (⟨S1x64, .f32⟩ : BufTy).Contents (Elt F)),  -- %71 broadcast_in_dim
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),  -- %72 broadcast_in_dim
    StableHlo.binary main_v70 main_v72 main_v73 (addf : (⟨S100000x64, .f32⟩ : BufTy).Contents (Elt F) → (⟨S100000x64, .f32⟩ : BufTy).Contents (Elt F) → (⟨S100000x64, .f32⟩ : BufTy).Contents (Elt F)),  -- %73 add
    StableHlo.binary main_v64 main_arg10 main_v74 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),  -- %74 dot_general
    StableHlo.unary main_arg11 main_v75 (broadcastInDim S1x64 ![1] bcast_S64_S1x64_1 : (⟨S64, .f32⟩ : BufTy).Contents (Elt F) → (⟨S1x64, .f32⟩ : BufTy).Contents (Elt F)),  -- %75 broadcast_in_dim
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),  -- %76 broadcast_in_dim
    StableHlo.binary main_v74 main_v76 main_v77 (addf : (⟨S100000x64, .f32⟩ : BufTy).Contents (Elt F) → (⟨S100000x64, .f32⟩ : BufTy).Contents (Elt F) → (⟨S100000x64, .f32⟩ : BufTy).Contents (Elt F)),  -- %77 add
    StableHlo.binary main_v65 main_arg12 main_v78 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),  -- %78 dot_general
    StableHlo.unary main_arg13 main_v79 (broadcastInDim S1x64 ![1] bcast_S64_S1x64_1 : (⟨S64, .f32⟩ : BufTy).Contents (Elt F) → (⟨S1x64, .f32⟩ : BufTy).Contents (Elt F)),  -- %79 broadcast_in_dim
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),  -- %80 broadcast_in_dim
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)) ]  -- %81 add

/-- The buffers that line writes, in order. -/
def WE : List (Ref sig .tc) :=
  [main_v66, main_v67, main_v68, main_v69, main_v70, main_v71, main_v72, main_v73, main_v74, main_v75, main_v76, main_v77, main_v78, main_v79, main_v80, main_v81]

/-- Operations 119–138: the second-layer messages into the item nodes up to the in-degree column (%c_16–%96). -/
def opsGa : List (HloOp τ sig (Elt F)) :=
  [
    StableHlo.nullary main_c_16 (constantI S_ 32 0#32),  -- %c_16 constant
    StableHlo.unary main_c_16 main_v82 (broadcastInDim S500000 ![] bcast_S_S500000 : (⟨S_, .i32⟩ : BufTy).Contents (Elt F) → (⟨S500000, .i32⟩ : BufTy).Contents (Elt F)),  -- %82 broadcast_in_dim
    StableHlo.binary main_arg14 main_v82 main_v83 (cmpi .slt : (⟨S500000, .i32⟩ : BufTy).Contents (Elt F) → (⟨S500000, .i32⟩ : BufTy).Contents (Elt F) → (⟨S500000, .i1⟩ : BufTy).Contents (Elt F)),  -- %83 compare
    StableHlo.nullary main_c_17 (constantI S_ 32 100000#32),  -- %c_17 constant
    StableHlo.unary main_c_17 main_v84 (broadcastInDim S500000 ![] bcast_S_S500000 : (⟨S_, .i32⟩ : BufTy).Contents (Elt F) → (⟨S500000, .i32⟩ : BufTy).Contents (Elt F)),  -- %84 broadcast_in_dim
    StableHlo.binary main_arg14 main_v84 main_v85 (addi : (⟨S500000, .i32⟩ : BufTy).Contents (Elt F) → (⟨S500000, .i32⟩ : BufTy).Contents (Elt F) → (⟨S500000, .i32⟩ : BufTy).Contents (Elt F)),  -- %85 add
    StableHlo.ternary main_v83 main_v85 main_arg14 main_v86 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),  -- %86 select
    StableHlo.unary main_v86 main_v87 (broadcastInDim S500000x1 ![0] bcast_S500000_S500000x1_0 : (⟨S500000, .i32⟩ : BufTy).Contents (Elt F) → (⟨S500000x1, .i32⟩ : BufTy).Contents (Elt F)),  -- %87 broadcast_in_dim
    StableHlo.binary main_v77 main_v87 main_v88 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),  -- %88 gather
    StableHlo.nullary main_cst_18 (constant S_ .f32 0x00000000#32),  -- %cst_18 constant
    StableHlo.unary main_cst_18 main_v89 (broadcastInDim S100000x64 ![] bcast_S_S100000x64 : (⟨S_, .f32⟩ : BufTy).Contents (Elt F) → (⟨S100000x64, .f32⟩ : BufTy).Contents (Elt F)),  -- %89 broadcast_in_dim
    StableHlo.unary main_arg15 main_v90 (broadcastInDim S500000x1 ![0] bcast_S500000_S500000x1_0 : (⟨S500000, .i32⟩ : BufTy).Contents (Elt F) → (⟨S500000x1, .i32⟩ : BufTy).Contents (Elt F)),  -- %90 broadcast_in_dim
    StableHlo.ternary main_v89 main_v90 main_v88 main_v91 ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)),  -- %91 scatter
    StableHlo.nullary main_cst_19 (constant S_ .f32 0x3F800000#32),  -- %cst_19 constant
    StableHlo.unary main_cst_19 main_v92 (broadcastInDim S500000 ![] bcast_S_S500000 : (⟨S_, .f32⟩ : BufTy).Contents (Elt F) → (⟨S500000, .f32⟩ : BufTy).Contents (Elt F)),  -- %92 broadcast_in_dim
    StableHlo.nullary main_cst_20 (constant S_ .f32 0x00000000#32),  -- %cst_20 constant
    StableHlo.unary main_cst_20 main_v93 (broadcastInDim S100000 ![] bcast_S_S100000 : (⟨S_, .f32⟩ : BufTy).Contents (Elt F) → (⟨S100000, .f32⟩ : BufTy).Contents (Elt F)),  -- %93 broadcast_in_dim
    StableHlo.unary main_arg15 main_v94 (broadcastInDim S500000x1 ![0] bcast_S500000_S500000x1_0 : (⟨S500000, .i32⟩ : BufTy).Contents (Elt F) → (⟨S500000x1, .i32⟩ : BufTy).Contents (Elt F)),  -- %94 broadcast_in_dim
    StableHlo.ternary main_v93 main_v94 main_v92 main_v95 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),  -- %95 scatter
    StableHlo.unary main_v95 main_v96 (broadcastInDim S100000x1 ![0] bcast_S100000_S100000x1_0 : (⟨S100000, .f32⟩ : BufTy).Contents (Elt F) → (⟨S100000x1, .f32⟩ : BufTy).Contents (Elt F)) ]  -- %96 broadcast_in_dim

/-- The buffers that line writes, in order. -/
def WGa : List (Ref sig .tc) :=
  [main_c_16, main_v82, main_v83, main_c_17, main_v84, main_v85, main_v86, main_v87, main_v88, main_cst_18, main_v89, main_v90, main_v91, main_cst_19, main_v92, main_cst_20, main_v93, main_v94, main_v95, main_v96]

/-- Operations 139–153: their mean, plus the item nodes' own affine image: the second result (%cst_21–%105). -/
def opsGb : List (HloOp τ sig (Elt F)) :=
  [
    StableHlo.nullary main_cst_21 (constant S_ .f32 0x00000000#32),  -- %cst_21 constant
    StableHlo.unary main_cst_21 main_v97 (broadcastInDim S100000x1 ![] bcast_S_S100000x1 : (⟨S_, .f32⟩ : BufTy).Contents (Elt F) → (⟨S100000x1, .f32⟩ : BufTy).Contents (Elt F)),  -- %97 broadcast_in_dim
    StableHlo.binary main_v96 main_v97 main_v98 (cmpf .ogt : (⟨S100000x1, .f32⟩ : BufTy).Contents (Elt F) → (⟨S100000x1, .f32⟩ : BufTy).Contents (Elt F) → (⟨S100000x1, .i1⟩ : BufTy).Contents (Elt F)),  -- %98 compare
    StableHlo.nullary main_cst_22 (constant S_ .f32 0x3F800000#32),  -- %cst_22 constant
    StableHlo.unary main_cst_22 main_v99 (broadcastInDim S100000 ![] bcast_S_S100000 : (⟨S_, .f32⟩ : BufTy).Contents (Elt F) → (⟨S100000, .f32⟩ : BufTy).Contents (Elt F)),  -- %99 broadcast_in_dim
    StableHlo.binary main_v95 main_v99 main_v100 (maximumf : (⟨S100000, .f32⟩ : BufTy).Contents (Elt F) → (⟨S100000, .f32⟩ : BufTy).Contents (Elt F) → (⟨S100000, .f32⟩ : BufTy).Contents (Elt F)),  -- %100 maximum
    StableHlo.unary main_v100 main_v101 (broadcastInDim S100000x1 ![0] bcast_S100000_S100000x1_0 : (⟨S100000, .f32⟩ : BufTy).Contents (Elt F) → (⟨S100000x1, .f32⟩ : BufTy).Contents (Elt F)),  -- %101 broadcast_in_dim
    StableHlo.unary main_v101 main_v102 (broadcastInDim S100000x64 ![0, 1] bcast_S100000x1_S100000x64_0_1 : (⟨S100000x1, .f32⟩ : BufTy).Contents (Elt F) → (⟨S100000x64, .f32⟩ : BufTy).Contents (Elt F)),  -- %102 broadcast_in_dim
    StableHlo.binary main_v91 main_v102 main_v103 (Host.divf : (⟨S100000x64, .f32⟩ : BufTy).Contents (Elt F) → (⟨S100000x64, .f32⟩ : BufTy).Contents (Elt F) → (⟨S100000x64, .f32⟩ : BufTy).Contents (Elt F)),  -- %103 divide
    StableHlo.nullary main_cst_23 (constant S_ .f32 0x00000000#32),  -- %cst_23 constant
    StableHlo.TRef.unary (StableHlo.TRef.of main_cst_23 : StableHlo.TRef sig ⟨S_, .f32⟩) main_call4.v0 id,  -- @where_1: %0 convert
    StableHlo.TRef.unary (StableHlo.TRef.of main_v98 : StableHlo.TRef sig ⟨S100000x1, .i1⟩) main_call4.v1 (broadcastInDim S100000x64 ![0, 1] bcast_S100000x1_S100000x64_0_1),  -- @where_1: %1 broadcast_in_dim
    StableHlo.TRef.unary main_call4.v0 main_call4.v2 (broadcastInDim S100000x64 ![] bcast_S_S100000x64),  -- @where_1: %2 broadcast_in_dim
    StableHlo.TRef.ternary main_call4.v1 (StableHlo.TRef.of main_v103 : StableHlo.TRef sig ⟨S100000x64, .f32⟩) main_call4.v2 main_call4.v3 select,  -- @where_1: %3 select
    StableHlo.binary main_v104 main_v73 main_v105 (addf : (⟨S100000x64, .f32⟩ : BufTy).Contents (Elt F) → (⟨S100000x64, .f32⟩ : BufTy).Contents (Elt F) → (⟨S100000x64, .f32⟩ : BufTy).Contents (Elt F)) ]  -- %105 add

/-- The buffers that line writes, in order. -/
def WGb : List (Ref sig .tc) :=
  [main_cst_21, main_v97, main_v98, main_cst_22, main_v99, main_v100, main_v101, main_v102, main_v103, main_cst_23, main_call4.v0.ref, main_call4.v1.ref, main_call4.v2.ref, main_call4.v3.ref, main_v105]

/-- Operations 154–188: the second-layer messages into the user nodes, their mean, plus the user nodes' own affine image: the first result (%c_24–%129). -/
def opsH : List (HloOp τ sig (Elt F)) :=
  [
    StableHlo.nullary main_c_24 (constantI S_ 32 0#32),  -- %c_24 constant
    StableHlo.unary main_c_24 main_v106 (broadcastInDim S500000 ![] bcast_S_S500000 : (⟨S_, .i32⟩ : BufTy).Contents (Elt F) → (⟨S500000, .i32⟩ : BufTy).Contents (Elt F)),  -- %106 broadcast_in_dim
    StableHlo.binary main_arg16 main_v106 main_v107 (cmpi .slt : (⟨S500000, .i32⟩ : BufTy).Contents (Elt F) → (⟨S500000, .i32⟩ : BufTy).Contents (Elt F) → (⟨S500000, .i1⟩ : BufTy).Contents (Elt F)),  -- %107 compare
    StableHlo.nullary main_c_25 (constantI S_ 32 100000#32),  -- %c_25 constant
    StableHlo.unary main_c_25 main_v108 (broadcastInDim S500000 ![] bcast_S_S500000 : (⟨S_, .i32⟩ : BufTy).Contents (Elt F) → (⟨S500000, .i32⟩ : BufTy).Contents (Elt F)),  -- %108 broadcast_in_dim
    StableHlo.binary main_arg16 main_v108 main_v109 (addi : (⟨S500000, .i32⟩ : BufTy).Contents (Elt F) → (⟨S500000, .i32⟩ : BufTy).Contents (Elt F) → (⟨S500000, .i32⟩ : BufTy).Contents (Elt F)),  -- %109 add
    StableHlo.ternary main_v107 main_v109 main_arg16 main_v110 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),  -- %110 select
    StableHlo.unary main_v110 main_v111 (broadcastInDim S500000x1 ![0] bcast_S500000_S500000x1_0 : (⟨S500000, .i32⟩ : BufTy).Contents (Elt F) → (⟨S500000x1, .i32⟩ : BufTy).Contents (Elt F)),  -- %111 broadcast_in_dim
    StableHlo.binary main_v81 main_v111 main_v112 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),  -- %112 gather
    StableHlo.nullary main_cst_26 (constant S_ .f32 0x00000000#32),  -- %cst_26 constant
    StableHlo.unary main_cst_26 main_v113 (broadcastInDim S100000x64 ![] bcast_S_S100000x64 : (⟨S_, .f32⟩ : BufTy).Contents (Elt F) → (⟨S100000x64, .f32⟩ : BufTy).Contents (Elt F)),  -- %113 broadcast_in_dim
    StableHlo.unary main_arg17 main_v114 (broadcastInDim S500000x1 ![0] bcast_S500000_S500000x1_0 : (⟨S500000, .i32⟩ : BufTy).Contents (Elt F) → (⟨S500000x1, .i32⟩ : BufTy).Contents (Elt F)),  -- %114 broadcast_in_dim
    StableHlo.ternary main_v113 main_v114 main_v112 main_v115 ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)),  -- %115 scatter
    StableHlo.nullary main_cst_27 (constant S_ .f32 0x3F800000#32),  -- %cst_27 constant
    StableHlo.unary main_cst_27 main_v116 (broadcastInDim S500000 ![] bcast_S_S500000 : (⟨S_, .f32⟩ : BufTy).Contents (Elt F) → (⟨S500000, .f32⟩ : BufTy).Contents (Elt F)),  -- %116 broadcast_in_dim
    StableHlo.nullary main_cst_28 (constant S_ .f32 0x00000000#32),  -- %cst_28 constant
    StableHlo.unary main_cst_28 main_v117 (broadcastInDim S100000 ![] bcast_S_S100000 : (⟨S_, .f32⟩ : BufTy).Contents (Elt F) → (⟨S100000, .f32⟩ : BufTy).Contents (Elt F)),  -- %117 broadcast_in_dim
    StableHlo.unary main_arg17 main_v118 (broadcastInDim S500000x1 ![0] bcast_S500000_S500000x1_0 : (⟨S500000, .i32⟩ : BufTy).Contents (Elt F) → (⟨S500000x1, .i32⟩ : BufTy).Contents (Elt F)),  -- %118 broadcast_in_dim
    StableHlo.ternary main_v117 main_v118 main_v116 main_v119 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),  -- %119 scatter
    StableHlo.unary main_v119 main_v120 (broadcastInDim S100000x1 ![0] bcast_S100000_S100000x1_0 : (⟨S100000, .f32⟩ : BufTy).Contents (Elt F) → (⟨S100000x1, .f32⟩ : BufTy).Contents (Elt F)),  -- %120 broadcast_in_dim
    StableHlo.nullary main_cst_29 (constant S_ .f32 0x00000000#32),  -- %cst_29 constant
    StableHlo.unary main_cst_29 main_v121 (broadcastInDim S100000x1 ![] bcast_S_S100000x1 : (⟨S_, .f32⟩ : BufTy).Contents (Elt F) → (⟨S100000x1, .f32⟩ : BufTy).Contents (Elt F)),  -- %121 broadcast_in_dim
    StableHlo.binary main_v120 main_v121 main_v122 (cmpf .ogt : (⟨S100000x1, .f32⟩ : BufTy).Contents (Elt F) → (⟨S100000x1, .f32⟩ : BufTy).Contents (Elt F) → (⟨S100000x1, .i1⟩ : BufTy).Contents (Elt F)),  -- %122 compare
    StableHlo.nullary main_cst_30 (constant S_ .f32 0x3F800000#32),  -- %cst_30 constant
    StableHlo.unary main_cst_30 main_v123 (broadcastInDim S100000 ![] bcast_S_S100000 : (⟨S_, .f32⟩ : BufTy).Contents (Elt F) → (⟨S100000, .f32⟩ : BufTy).Contents (Elt F)),  -- %123 broadcast_in_dim
    StableHlo.binary main_v119 main_v123 main_v124 (maximumf : (⟨S100000, .f32⟩ : BufTy).Contents (Elt F) → (⟨S100000, .f32⟩ : BufTy).Contents (Elt F) → (⟨S100000, .f32⟩ : BufTy).Contents (Elt F)),  -- %124 maximum
    StableHlo.unary main_v124 main_v125 (broadcastInDim S100000x1 ![0] bcast_S100000_S100000x1_0 : (⟨S100000, .f32⟩ : BufTy).Contents (Elt F) → (⟨S100000x1, .f32⟩ : BufTy).Contents (Elt F)),  -- %125 broadcast_in_dim
    StableHlo.unary main_v125 main_v126 (broadcastInDim S100000x64 ![0, 1] bcast_S100000x1_S100000x64_0_1 : (⟨S100000x1, .f32⟩ : BufTy).Contents (Elt F) → (⟨S100000x64, .f32⟩ : BufTy).Contents (Elt F)),  -- %126 broadcast_in_dim
    StableHlo.binary main_v115 main_v126 main_v127 (Host.divf : (⟨S100000x64, .f32⟩ : BufTy).Contents (Elt F) → (⟨S100000x64, .f32⟩ : BufTy).Contents (Elt F) → (⟨S100000x64, .f32⟩ : BufTy).Contents (Elt F)),  -- %127 divide
    StableHlo.nullary main_cst_31 (constant S_ .f32 0x00000000#32),  -- %cst_31 constant
    StableHlo.TRef.unary (StableHlo.TRef.of main_cst_31 : StableHlo.TRef sig ⟨S_, .f32⟩) main_call5.v0 id,  -- @where_1: %0 convert
    StableHlo.TRef.unary (StableHlo.TRef.of main_v122 : StableHlo.TRef sig ⟨S100000x1, .i1⟩) main_call5.v1 (broadcastInDim S100000x64 ![0, 1] bcast_S100000x1_S100000x64_0_1),  -- @where_1: %1 broadcast_in_dim
    StableHlo.TRef.unary main_call5.v0 main_call5.v2 (broadcastInDim S100000x64 ![] bcast_S_S100000x64),  -- @where_1: %2 broadcast_in_dim
    StableHlo.TRef.ternary main_call5.v1 (StableHlo.TRef.of main_v127 : StableHlo.TRef sig ⟨S100000x64, .f32⟩) main_call5.v2 main_call5.v3 select,  -- @where_1: %3 select
    StableHlo.binary main_v128 main_v69 main_v129 (addf : (⟨S100000x64, .f32⟩ : BufTy).Contents (Elt F) → (⟨S100000x64, .f32⟩ : BufTy).Contents (Elt F) → (⟨S100000x64, .f32⟩ : BufTy).Contents (Elt F)) ]  -- %129 add

/-- The buffers that line writes, in order. -/
def WH : List (Ref sig .tc) :=
  [main_c_24, main_v106, main_v107, main_c_25, main_v108, main_v109, main_v110, main_v111, main_v112, main_cst_26, main_v113, main_v114, main_v115, main_cst_27, main_v116, main_cst_28, main_v117, main_v118, main_v119, main_v120, main_cst_29, main_v121, main_v122, main_cst_30, main_v123, main_v124, main_v125, main_v126, main_v127, main_cst_31, main_call5.v0.ref, main_call5.v1.ref, main_call5.v2.ref, main_call5.v3.ref, main_v129]

/-! ## What each line touches, determines and writes -/

theorem opsA_sub : (opsA (F := F)).Forall fun op => op.bufs ⊆ tcRefs τ sig := by
  unfold opsA; line_sub
theorem opsA_fresh : (opsA (F := F)).Forall fun op => op.fresh = ∅ := by
  unfold opsA; line_fresh
theorem opsA_writes :
    (opsA (F := F)).map (fun op => op.writes) = WA.map fun y => ({Proc.devRef .tc y} : Finset (DevRef τ sig)) := rfl
/-- A buffer that line does not write keeps its contents through it. -/
theorem keepA (V : Valuation τ sig (Elt F)) {r : Ref sig .tc} (h : r ∉ WA) :
    after opsA V (no_index (Proc.devRef .tc r)) = V (Proc.devRef .tc r) :=
  after_keep opsA_writes V h

theorem opsB_sub : (opsB (F := F)).Forall fun op => op.bufs ⊆ tcRefs τ sig := by
  unfold opsB; line_sub
theorem opsB_fresh : (opsB (F := F)).Forall fun op => op.fresh = ∅ := by
  unfold opsB; line_fresh
theorem opsB_writes :
    (opsB (F := F)).map (fun op => op.writes) = WB.map fun y => ({Proc.devRef .tc y} : Finset (DevRef τ sig)) := rfl
/-- A buffer that line does not write keeps its contents through it. -/
theorem keepB (V : Valuation τ sig (Elt F)) {r : Ref sig .tc} (h : r ∉ WB) :
    after opsB V (no_index (Proc.devRef .tc r)) = V (Proc.devRef .tc r) :=
  after_keep opsB_writes V h

theorem opsCa_sub : (opsCa (F := F)).Forall fun op => op.bufs ⊆ tcRefs τ sig := by
  unfold opsCa; line_sub
theorem opsCa_fresh : (opsCa (F := F)).Forall fun op => op.fresh = ∅ := by
  unfold opsCa; line_fresh
theorem opsCa_writes :
    (opsCa (F := F)).map (fun op => op.writes) = WCa.map fun y => ({Proc.devRef .tc y} : Finset (DevRef τ sig)) := rfl
/-- A buffer that line does not write keeps its contents through it. -/
theorem keepCa (V : Valuation τ sig (Elt F)) {r : Ref sig .tc} (h : r ∉ WCa) :
    after opsCa V (no_index (Proc.devRef .tc r)) = V (Proc.devRef .tc r) :=
  after_keep opsCa_writes V h

theorem opsCb_sub : (opsCb (F := F)).Forall fun op => op.bufs ⊆ tcRefs τ sig := by
  unfold opsCb; line_sub
theorem opsCb_fresh : (opsCb (F := F)).Forall fun op => op.fresh = ∅ := by
  unfold opsCb; line_fresh
theorem opsCb_writes :
    (opsCb (F := F)).map (fun op => op.writes) = WCb.map fun y => ({Proc.devRef .tc y} : Finset (DevRef τ sig)) := rfl
/-- A buffer that line does not write keeps its contents through it. -/
theorem keepCb (V : Valuation τ sig (Elt F)) {r : Ref sig .tc} (h : r ∉ WCb) :
    after opsCb V (no_index (Proc.devRef .tc r)) = V (Proc.devRef .tc r) :=
  after_keep opsCb_writes V h

theorem opsD_sub : (opsD (F := F)).Forall fun op => op.bufs ⊆ tcRefs τ sig := by
  unfold opsD; line_sub
theorem opsD_fresh : (opsD (F := F)).Forall fun op => op.fresh = ∅ := by
  unfold opsD; line_fresh
theorem opsD_writes :
    (opsD (F := F)).map (fun op => op.writes) = WD.map fun y => ({Proc.devRef .tc y} : Finset (DevRef τ sig)) := rfl
/-- A buffer that line does not write keeps its contents through it. -/
theorem keepD (V : Valuation τ sig (Elt F)) {r : Ref sig .tc} (h : r ∉ WD) :
    after opsD V (no_index (Proc.devRef .tc r)) = V (Proc.devRef .tc r) :=
  after_keep opsD_writes V h

theorem opsE_sub : (opsE (F := F)).Forall fun op => op.bufs ⊆ tcRefs τ sig := by
  unfold opsE; line_sub
theorem opsE_fresh : (opsE (F := F)).Forall fun op => op.fresh = ∅ := by
  unfold opsE; line_fresh
theorem opsE_writes :
    (opsE (F := F)).map (fun op => op.writes) = WE.map fun y => ({Proc.devRef .tc y} : Finset (DevRef τ sig)) := rfl
/-- A buffer that line does not write keeps its contents through it. -/
theorem keepE (V : Valuation τ sig (Elt F)) {r : Ref sig .tc} (h : r ∉ WE) :
    after opsE V (no_index (Proc.devRef .tc r)) = V (Proc.devRef .tc r) :=
  after_keep opsE_writes V h

theorem opsGa_sub : (opsGa (F := F)).Forall fun op => op.bufs ⊆ tcRefs τ sig := by
  unfold opsGa; line_sub
theorem opsGa_fresh : (opsGa (F := F)).Forall fun op => op.fresh = ∅ := by
  unfold opsGa; line_fresh
theorem opsGa_writes :
    (opsGa (F := F)).map (fun op => op.writes) = WGa.map fun y => ({Proc.devRef .tc y} : Finset (DevRef τ sig)) := rfl
/-- A buffer that line does not write keeps its contents through it. -/
theorem keepGa (V : Valuation τ sig (Elt F)) {r : Ref sig .tc} (h : r ∉ WGa) :
    after opsGa V (no_index (Proc.devRef .tc r)) = V (Proc.devRef .tc r) :=
  after_keep opsGa_writes V h

theorem opsGb_sub : (opsGb (F := F)).Forall fun op => op.bufs ⊆ tcRefs τ sig := by
  unfold opsGb; line_sub
theorem opsGb_fresh : (opsGb (F := F)).Forall fun op => op.fresh = ∅ := by
  unfold opsGb; line_fresh
theorem opsGb_writes :
    (opsGb (F := F)).map (fun op => op.writes) = WGb.map fun y => ({Proc.devRef .tc y} : Finset (DevRef τ sig)) := rfl
/-- A buffer that line does not write keeps its contents through it. -/
theorem keepGb (V : Valuation τ sig (Elt F)) {r : Ref sig .tc} (h : r ∉ WGb) :
    after opsGb V (no_index (Proc.devRef .tc r)) = V (Proc.devRef .tc r) :=
  after_keep opsGb_writes V h

theorem opsH_sub : (opsH (F := F)).Forall fun op => op.bufs ⊆ tcRefs τ sig := by
  unfold opsH; line_sub
theorem opsH_fresh : (opsH (F := F)).Forall fun op => op.fresh = ∅ := by
  unfold opsH; line_fresh
theorem opsH_writes :
    (opsH (F := F)).map (fun op => op.writes) = WH.map fun y => ({Proc.devRef .tc y} : Finset (DevRef τ sig)) := rfl
/-- A buffer that line does not write keeps its contents through it. -/
theorem keepH (V : Valuation τ sig (Elt F)) {r : Ref sig .tc} (h : r ∉ WH) :
    after opsH V (no_index (Proc.devRef .tc r)) = V (Proc.devRef .tc r) :=
  after_keep opsH_writes V h

/-! ## The program is the line -/

/-- The first 63 operations. -/
def opsP0 : List (HloOp τ sig (Elt F)) := opsA ++ opsB ++ opsCa
/-- The next 75. -/
def opsP1 : List (HloOp τ sig (Elt F)) := opsCb ++ opsD ++ opsE ++ opsGa
/-- The last 50. -/
def opsP2 : List (HloOp τ sig (Elt F)) := opsGb ++ opsH
/-- All 188 operations, in program order. -/
def ops : List (HloOp τ sig (Elt F)) := opsP0 ++ (opsP1 ++ opsP2)

set_option maxRecDepth 16384 in
set_option maxHeartbeats 4000000 in
theorem main_part0_eq (c : Dev nD) : main_part0 (F := F) c = seq opsP0 := rfl
set_option maxRecDepth 16384 in
set_option maxHeartbeats 4000000 in
theorem main_part1_eq (c : Dev nD) : main_part1 (F := F) c = seq opsP1 := rfl
set_option maxRecDepth 16384 in
set_option maxHeartbeats 4000000 in
theorem main_part2_eq (c : Dev nD) : main_part2 (F := F) c = seq opsP2 := rfl

theorem main_eq (c : Dev nD) : main (F := F) c = seq ops := by
  rw [ops, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  forall_app (forall_app (forall_app opsA_sub opsB_sub) opsCa_sub)
    (forall_app (forall_app (forall_app (forall_app opsCb_sub opsD_sub) opsE_sub) opsGa_sub) (forall_app opsGb_sub opsH_sub))

theorem ops_fresh : (ops (F := F)).Forall fun op => op.fresh = ∅ :=
  forall_app (forall_app (forall_app opsA_fresh opsB_fresh) opsCa_fresh)
    (forall_app (forall_app (forall_app (forall_app opsCb_fresh opsD_fresh) opsE_fresh) opsGa_fresh) (forall_app opsGb_fresh opsH_fresh))

/-- The fold of the whole line is the nine folds, one after the other. -/
theorem after_ops (V : Valuation τ sig (Elt F)) :
    after ops V = after opsH (after opsGb (after opsGa (after opsE (after opsD (after opsCb (after opsCa (after opsB (after opsA V)))))))) := by
  simp only [ops, opsP0, opsP1, opsP2, after_app]

/-- On every device, for any float values, from any memory with zero counters: every weakly fair execution of the
    program terminates, and every buffer ends at the line's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.HandRun

end
-- ==== Proof.RefTerms.lean ====
/-
  The reference program's stages as whole-array functions on the extended reals.

  Each function below is one stretch of the reference's array operations read as a single map, operation for
  operation: the same operation, the same dimension record, the same argument order, a conversion between equal
  formats kept as the identity.  `hostAffine` is x ↦ x·W + b with the bias broadcast over the rows; `normIdx`
  brings an index i < 0 to i + 100000 and makes it a column; `agg` gathers the rows named by the source indices
  and adds them up per target index into an array of zeros; `cntOf` counts how often each target index occurs
  (a sum of ones); `mean` divides row p of the sums by max(count p, 1) where count p > 0 and is 0 elsewhere;
  `leakyRef` is h ↦ h where h ≥ 0 and 0.01·h elsewhere (0.01 read as its single-precision value).  `h1u`, `h1i`
  are the first layer's two results and `outU`, `outI` the second layer's, as compositions of these.
-/
import proofs.«155910_j7129645711537_2_alg».proof.Proof.Gen.ReferenceIdeal
import Idealize.ShloMosaic.PureOps.Ideal

noncomputable section

namespace Cert.Hrgcn.Ref

open Cert.ReferenceIdeal Cert.ReferenceIdeal.Facts₀ Idealize.ShloMosaic

/-- The contents of a buffer of the given shape and element type, floats read as extended reals. -/
abbrev Arr (S : Shape) (e : EltTy) : Type := (⟨S, e⟩ : BufTy).Contents (Elt Ideal)

/-- Rows times a 128 × 128 matrix, plus a bias broadcast over the rows. -/
def hostAffine128 (x : Arr S100000x128 .f32) (W : Arr S128x128 .f32) (b : Arr S128 .f32) : Arr S100000x128 .f32 :=
  addf (F := Ideal) (φ := .f32) (Host.dotGeneral (F := Ideal) (φ₁ := .f32) (φ₂ := .f32) dot_S100000x128_S128x128_S100000x128_1_0_0_1_n_n none x W)
    (broadcastInDim S100000x128 ![0, 1] bcast_S1x128_S100000x128_0_1 (broadcastInDim S1x128 ![1] bcast_S128_S1x128_1 b))

/-- Rows times a 128 × 64 matrix, plus a bias broadcast over the rows. -/
def hostAffine64 (x : Arr S100000x128 .f32) (W : Arr S128x64 .f32) (b : Arr S64 .f32) : Arr S100000x64 .f32 :=
  addf (F := Ideal) (φ := .f32) (Host.dotGeneral (F := Ideal) (φ₁ := .f32) (φ₂ := .f32) dot_S100000x128_S128x64_S100000x64_1_0_0_1_n_n none x W)
    (broadcastInDim S100000x64 ![0, 1] bcast_S1x64_S100000x64_0_1 (broadcastInDim S1x64 ![1] bcast_S64_S1x64_1 b))

/-- An index array with each negative entry raised by 100000, as a column. -/
def normIdx (i : Arr S500000 .i32) : Arr S500000x1 .i32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 100000#32))) i)

/-- The rows of `wh` named by `src`, added up per entry of `dst` into zeros (width 128). -/
def agg128 (wh : Arr S100000x128 .f32) (src dst : Arr S500000 .i32) : Arr S100000x128 .f32 :=
  Host.scatterAdd (F := Ideal) (φ := .f32) scatter_S100000x128_S500000x1_S500000x128_1_0_0_1
    (broadcastInDim S100000x128 ![] bcast_S_S100000x128 (constant (F := Ideal) S_ .f32 0x00000000#32))
    (broadcastInDim S500000x1 ![0] bcast_S500000_S500000x1_0 dst)
    (Host.gather gather_S100000x128_S500000x1_S500000x128_1_0_n_n_0_1_1128 wh (normIdx src))

/-- The rows of `wh` named by `src`, added up per entry of `dst` into zeros (width 64). -/
def agg64 (wh : Arr S100000x64 .f32) (src dst : Arr S500000 .i32) : Arr S100000x64 .f32 :=
  Host.scatterAdd (F := Ideal) (φ := .f32) scatter_S100000x64_S500000x1_S500000x64_1_0_0_1
    (broadcastInDim S100000x64 ![] bcast_S_S100000x64 (constant (F := Ideal) S_ .f32 0x00000000#32))
    (broadcastInDim S500000x1 ![0] bcast_S500000_S500000x1_0 dst)
    (Host.gather gather_S100000x64_S500000x1_S500000x64_1_0_n_n_0_1_164 wh (normIdx src))

/-- How often each node occurs in `dst`: ones added up per entry of `dst` into zeros. -/
def cntOf (dst : Arr S500000 .i32) : Arr S100000 .f32 :=
  Host.scatterAdd (F := Ideal) (φ := .f32) scatter_S100000_S500000x1_S500000_n_0_0_1
    (broadcastInDim S100000 ![] bcast_S_S100000 (constant (F := Ideal) S_ .f32 0x00000000#32))
    (broadcastInDim S500000x1 ![0] bcast_S500000_S500000x1_0 dst)
    (broadcastInDim S500000 ![] bcast_S_S500000 (constant (F := Ideal) S_ .f32 0x3F800000#32))

/-- Row p of `s` divided by max(cnt p, 1) where cnt p > 0, and 0 elsewhere (width 128). -/
def mean128 (cnt : Arr S100000 .f32) (s : Arr S100000x128 .f32) : Arr S100000x128 .f32 :=
  select
    (broadcastInDim S100000x128 ![0, 1] bcast_S100000x1_S100000x128_0_1
      (cmpf (F := Ideal) (φ := .f32) .ogt (broadcastInDim S100000x1 ![0] bcast_S100000_S100000x1_0 cnt)
        (broadcastInDim S100000x1 ![] bcast_S_S100000x1 (constant (F := Ideal) S_ .f32 0x00000000#32))))
    (Host.divf (F := Ideal) (φ := .f32) s
      (broadcastInDim S100000x128 ![0, 1] bcast_S100000x1_S100000x128_0_1
        (broadcastInDim S100000x1 ![0] bcast_S100000_S100000x1_0
          (maximumf (F := Ideal) (φ := .f32) cnt (broadcastInDim S100000 ![] bcast_S_S100000 (constant (F := Ideal) S_ .f32 0x3F800000#32))))))
    (broadcastInDim S100000x128 ![] bcast_S_S100000x128 (id (constant (F := Ideal) S_ .f32 0x00000000#32)))

/-- Row p of `s` divided by max(cnt p, 1) where cnt p > 0, and 0 elsewhere (width 64). -/
def mean64 (cnt : Arr S100000 .f32) (s : Arr S100000x64 .f32) : Arr S100000x64 .f32 :=
  select
    (broadcastInDim S100000x64 ![0, 1] bcast_S100000x1_S100000x64_0_1
      (cmpf (F := Ideal) (φ := .f32) .ogt (broadcastInDim S100000x1 ![0] bcast_S100000_S100000x1_0 cnt)
        (broadcastInDim S100000x1 ![] bcast_S_S100000x1 (constant (F := Ideal) S_ .f32 0x00000000#32))))
    (Host.divf (F := Ideal) (φ := .f32) s
      (broadcastInDim S100000x64 ![0, 1] bcast_S100000x1_S100000x64_0_1
        (broadcastInDim S100000x1 ![0] bcast_S100000_S100000x1_0
          (maximumf (F := Ideal) (φ := .f32) cnt (broadcastInDim S100000 ![] bcast_S_S100000 (constant (F := Ideal) S_ .f32 0x3F800000#32))))))
    (broadcastInDim S100000x64 ![] bcast_S_S100000x64 (id (constant (F := Ideal) S_ .f32 0x00000000#32)))

/-- The leaky rectifier: h where h ≥ 0, the single-precision 0.01 times h elsewhere. -/
def leakyRef (h : Arr S100000x128 .f32) : Arr S100000x128 .f32 :=
  select (cmpf (F := Ideal) (φ := .f32) .oge h (broadcastInDim S100000x128 ![] bcast_S_S100000x128 (constant (F := Ideal) S_ .f32 0x00000000#32))) h
    (mulf (F := Ideal) (φ := .f32) (broadcastInDim S100000x128 ![] bcast_S_S100000x128 (id (constant (F := Ideal) S_ .f32 0x3C23D70A#32))) h)

section
variable (a0 a1 : Arr S100000x128 .f32) (a2 : Arr S128x128 .f32) (a3 : Arr S128 .f32) (a4 : Arr S128x128 .f32)
  (a5 : Arr S128 .f32) (a6 : Arr S128x128 .f32) (a7 : Arr S128 .f32) (a8 : Arr S128x64 .f32) (a9 : Arr S64 .f32)
  (a10 : Arr S128x64 .f32) (a11 : Arr S64 .f32) (a12 : Arr S128x64 .f32) (a13 : Arr S64 .f32)
  (a14 a15 a16 a17 : Arr S500000 .i32)

/-- The first layer's result on the first node set. -/
def h1u : Arr S100000x128 .f32 :=
  leakyRef (addf (F := Ideal) (φ := .f32) (mean128 (cntOf a17) (agg128 (hostAffine128 a1 a6 a7) a16 a17)) (hostAffine128 a0 a2 a3))

/-- The first layer's result on the second node set. -/
def h1i : Arr S100000x128 .f32 :=
  leakyRef (addf (F := Ideal) (φ := .f32) (mean128 (cntOf a15) (agg128 (hostAffine128 a0 a4 a5) a14 a15)) (hostAffine128 a1 a2 a3))

/-- The program's first result. -/
def outU : Arr S100000x64 .f32 :=
  addf (F := Ideal) (φ := .f32) (mean64 (cntOf a17) (agg64 (hostAffine64 (h1i a0 a1 a2 a3 a4 a5 a14 a15) a12 a13) a16 a17))
    (hostAffine64 (h1u a0 a1 a2 a3 a6 a7 a16 a17) a8 a9)

/-- The program's second result. -/
def outI : Arr S100000x64 .f32 :=
  addf (F := Ideal) (φ := .f32) (mean64 (cntOf a15) (agg64 (hostAffine64 (h1u a0 a1 a2 a3 a6 a7 a16 a17) a10 a11) a14 a15))
    (hostAffine64 (h1i a0 a1 a2 a3 a4 a5 a14 a15) a8 a9)

end

end Cert.Hrgcn.Ref

end
-- ==== Proof.RefValue.lean ====
/-
  The reference program's two results as whole-array terms of its eighteen argument arrays.

  The line of 188 operations is read back in stages: each of the nine consecutive lines computes, from whatever the
  buffers hold before it, one or a few arrays that later lines read, and each such array is one of the named maps of
  `RefTerms` applied to what the line reads (`resX_…`, by unrolling the line's fold); every other buffer a later line
  reads passes through unchanged (`keepX`).  Composing the stages gives the two results as `outU` and `outI` of the
  arguments (`val_v129`, `val_v105`), and no line writes an argument (`val_argK`).  `run_val` puts these under the run.
-/
import proofs.«155910_j7129645711537_2_alg».proof.Proof.RefRun
import proofs.«155910_j7129645711537_2_alg».proof.Proof.RefTerms

noncomputable section

namespace Cert.Hrgcn.Ref

open Cert.ReferenceIdeal Cert.ReferenceIdeal.HandRun Idealize.ShloMosaic Idealize.ShloMosaic.TcCoe Idealize.SL.Sem
  Idealize.ShloMosaic.StableHlo

/-- The contents of one device's buffers, floats read as extended reals. -/
local notation "𝕍" => Valuation τ sig (Elt Ideal)

/-! ## The stages -/

theorem resA_v3 (V : 𝕍) :
    after (opsA (F := Ideal)) V (no_index (Proc.devRef .tc main_v3)) = hostAffine128 (V (Proc.devRef .tc main_arg0)) (V (Proc.devRef .tc main_arg2)) (V (Proc.devRef .tc main_arg3)) := by
  unfold opsA
  after_results_simp
  rfl

theorem resA_v7 (V : 𝕍) :
    after (opsA (F := Ideal)) V (no_index (Proc.devRef .tc main_v7)) = hostAffine128 (V (Proc.devRef .tc main_arg1)) (V (Proc.devRef .tc main_arg2)) (V (Proc.devRef .tc main_arg3)) := by
  unfold opsA
  after_results_simp
  rfl

theorem resA_v11 (V : 𝕍) :
    after (opsA (F := Ideal)) V (no_index (Proc.devRef .tc main_v11)) = hostAffine128 (V (Proc.devRef .tc main_arg0)) (V (Proc.devRef .tc main_arg4)) (V (Proc.devRef .tc main_arg5)) := by
  unfold opsA
  after_results_simp
  rfl

theorem resA_v15 (V : 𝕍) :
    after (opsA (F := Ideal)) V (no_index (Proc.devRef .tc main_v15)) = hostAffine128 (V (Proc.devRef .tc main_arg1)) (V (Proc.devRef .tc main_arg6)) (V (Proc.devRef .tc main_arg7)) := by
  unfold opsA
  after_results_simp
  rfl

set_option maxRecDepth 65536 in
set_option maxHeartbeats 4000000 in
theorem resB_v39 (V : 𝕍) :
    after (opsB (F := Ideal)) V (no_index (Proc.devRef .tc main_v39)) = addf (F := Ideal) (φ := .f32) (mean128 (cntOf (V (Proc.devRef .tc main_arg15))) (agg128 (V (Proc.devRef .tc main_v11)) (V (Proc.devRef .tc main_arg14)) (V (Proc.devRef .tc main_arg15)))) (V (Proc.devRef .tc main_v7)) := by
  unfold opsB
  after_results_simp
  simp only [TRef.toBuf, TRef.ofBuf, cast_eq]
  unfold mean128 cntOf agg128 normIdx
  rfl

set_option maxRecDepth 65536 in
set_option maxHeartbeats 4000000 in
theorem resC_v63 (V : 𝕍) :
    after (opsCb (F := Ideal)) (after (opsCa (F := Ideal)) V) (no_index (Proc.devRef .tc main_v63))
      = addf (F := Ideal) (φ := .f32) (mean128 (cntOf (V (Proc.devRef .tc main_arg17))) (agg128 (V (Proc.devRef .tc main_v15)) (V (Proc.devRef .tc main_arg16)) (V (Proc.devRef .tc main_arg17)))) (V (Proc.devRef .tc main_v3)) := by
  unfold opsCb opsCa
  after_results_simp
  simp only [TRef.toBuf, TRef.ofBuf, cast_eq]
  unfold mean128 cntOf agg128 normIdx
  rfl

theorem resD_v64 (V : 𝕍) :
    after (opsD (F := Ideal)) V (no_index (Proc.devRef .tc main_v64)) = leakyRef (V (Proc.devRef .tc main_v63)) := by
  unfold opsD
  after_results_simp
  rfl

theorem resD_v65 (V : 𝕍) :
    after (opsD (F := Ideal)) V (no_index (Proc.devRef .tc main_v65)) = leakyRef (V (Proc.devRef .tc main_v39)) := by
  unfold opsD
  after_results_simp
  rfl

theorem resE_v69 (V : 𝕍) :
    after (opsE (F := Ideal)) V (no_index (Proc.devRef .tc main_v69)) = hostAffine64 (V (Proc.devRef .tc main_v64)) (V (Proc.devRef .tc main_arg8)) (V (Proc.devRef .tc main_arg9)) := by
  unfold opsE
  after_results_simp
  rfl

theorem resE_v73 (V : 𝕍) :
    after (opsE (F := Ideal)) V (no_index (Proc.devRef .tc main_v73)) = hostAffine64 (V (Proc.devRef .tc main_v65)) (V (Proc.devRef .tc main_arg8)) (V (Proc.devRef .tc main_arg9)) := by
  unfold opsE
  after_results_simp
  rfl

theorem resE_v77 (V : 𝕍) :
    after (opsE (F := Ideal)) V (no_index (Proc.devRef .tc main_v77)) = hostAffine64 (V (Proc.devRef .tc main_v64)) (V (Proc.devRef .tc main_arg10)) (V (Proc.devRef .tc main_arg11)) := by
  unfold opsE
  after_results_simp
  rfl

theorem resE_v81 (V : 𝕍) :
    after (opsE (F := Ideal)) V (no_index (Proc.devRef .tc main_v81)) = hostAffine64 (V (Proc.devRef .tc main_v65)) (V (Proc.devRef .tc main_arg12)) (V (Proc.devRef .tc main_arg13)) := by
  unfold opsE
  after_results_simp
  rfl

set_option maxRecDepth 65536 in
set_option maxHeartbeats 4000000 in
theorem resG_v105 (V : 𝕍) :
    after (opsGb (F := Ideal)) (after (opsGa (F := Ideal)) V) (no_index (Proc.devRef .tc main_v105))
      = addf (F := Ideal) (φ := .f32) (mean64 (cntOf (V (Proc.devRef .tc main_arg15))) (agg64 (V (Proc.devRef .tc main_v77)) (V (Proc.devRef .tc main_arg14)) (V (Proc.devRef .tc main_arg15)))) (V (Proc.devRef .tc main_v73)) := by
  unfold opsGb opsGa
  after_results_simp
  simp only [TRef.toBuf, TRef.ofBuf, cast_eq]
  unfold mean64 cntOf agg64 normIdx
  rfl

set_option maxRecDepth 65536 in
set_option maxHeartbeats 4000000 in
theorem resH_v129 (V : 𝕍) :
    after (opsH (F := Ideal)) V (no_index (Proc.devRef .tc main_v129)) = addf (F := Ideal) (φ := .f32) (mean64 (cntOf (V (Proc.devRef .tc main_arg17))) (agg64 (V (Proc.devRef .tc main_v81)) (V (Proc.devRef .tc main_arg16)) (V (Proc.devRef .tc main_arg17)))) (V (Proc.devRef .tc main_v69)) := by
  unfold opsH
  after_results_simp
  simp only [TRef.toBuf, TRef.ofBuf, cast_eq]
  unfold mean64 cntOf agg64 normIdx
  rfl

/-! ## The results and the arguments after the whole line -/

theorem val_v129 (V : 𝕍) :
    after (ops (F := Ideal)) V (Proc.devRef .tc main_v129)
      = outU (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops]
  simp (disch := decide) only [resA_v3, resA_v7, resA_v11, resA_v15, resB_v39, resC_v63, resD_v64, resD_v65, resE_v69, resE_v73, resE_v77, resE_v81, resG_v105, resH_v129, keepH, keepGb, keepGa, keepE, keepD, keepCb, keepCa, keepB, keepA]
  rfl

theorem val_v105 (V : 𝕍) :
    after (ops (F := Ideal)) V (Proc.devRef .tc main_v105)
      = outI (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg14)) (V (Proc.devRef .tc main_arg15)) (V (Proc.devRef .tc main_arg16)) (V (Proc.devRef .tc main_arg17)) := by
  rw [after_ops]
  simp (disch := decide) only [resA_v3, resA_v7, resA_v11, resA_v15, resB_v39, resC_v63, resD_v64, resD_v65, resE_v69, resE_v73, resE_v77, resE_v81, resG_v105, resH_v129, keepH, keepGb, keepGa, keepE, keepD, keepCb, keepCa, keepB, keepA]
  rfl

theorem val_arg0 (V : 𝕍) : after (ops (F := Ideal)) V (Proc.devRef .tc main_arg0) = V (Proc.devRef .tc main_arg0) := by
  rw [after_ops]; simp (disch := decide) only [keepH, keepGb, keepGa, keepE, keepD, keepCb, keepCa, keepB, keepA]
theorem val_arg1 (V : 𝕍) : after (ops (F := Ideal)) V (Proc.devRef .tc main_arg1) = V (Proc.devRef .tc main_arg1) := by
  rw [after_ops]; simp (disch := decide) only [keepH, keepGb, keepGa, keepE, keepD, keepCb, keepCa, keepB, keepA]
theorem val_arg2 (V : 𝕍) : after (ops (F := Ideal)) V (Proc.devRef .tc main_arg2) = V (Proc.devRef .tc main_arg2) := by
  rw [after_ops]; simp (disch := decide) only [keepH, keepGb, keepGa, keepE, keepD, keepCb, keepCa, keepB, keepA]
theorem val_arg3 (V : 𝕍) : after (ops (F := Ideal)) V (Proc.devRef .tc main_arg3) = V (Proc.devRef .tc main_arg3) := by
  rw [after_ops]; simp (disch := decide) only [keepH, keepGb, keepGa, keepE, keepD, keepCb, keepCa, keepB, keepA]
theorem val_arg4 (V : 𝕍) : after (ops (F := Ideal)) V (Proc.devRef .tc main_arg4) = V (Proc.devRef .tc main_arg4) := by
  rw [after_ops]; simp (disch := decide) only [keepH, keepGb, keepGa, keepE, keepD, keepCb, keepCa, keepB, keepA]
theorem val_arg5 (V : 𝕍) : after (ops (F := Ideal)) V (Proc.devRef .tc main_arg5) = V (Proc.devRef .tc main_arg5) := by
  rw [after_ops]; simp (disch := decide) only [keepH, keepGb, keepGa, keepE, keepD, keepCb, keepCa, keepB, keepA]
theorem val_arg6 (V : 𝕍) : after (ops (F := Ideal)) V (Proc.devRef .tc main_arg6) = V (Proc.devRef .tc main_arg6) := by
  rw [after_ops]; simp (disch := decide) only [keepH, keepGb, keepGa, keepE, keepD, keepCb, keepCa, keepB, keepA]
theorem val_arg7 (V : 𝕍) : after (ops (F := Ideal)) V (Proc.devRef .tc main_arg7) = V (Proc.devRef .tc main_arg7) := by
  rw [after_ops]; simp (disch := decide) only [keepH, keepGb, keepGa, keepE, keepD, keepCb, keepCa, keepB, keepA]
theorem val_arg8 (V : 𝕍) : after (ops (F := Ideal)) V (Proc.devRef .tc main_arg8) = V (Proc.devRef .tc main_arg8) := by
  rw [after_ops]; simp (disch := decide) only [keepH, keepGb, keepGa, keepE, keepD, keepCb, keepCa, keepB, keepA]
theorem val_arg9 (V : 𝕍) : after (ops (F := Ideal)) V (Proc.devRef .tc main_arg9) = V (Proc.devRef .tc main_arg9) := by
  rw [after_ops]; simp (disch := decide) only [keepH, keepGb, keepGa, keepE, keepD, keepCb, keepCa, keepB, keepA]
theorem val_arg10 (V : 𝕍) : after (ops (F := Ideal)) V (Proc.devRef .tc main_arg10) = V (Proc.devRef .tc main_arg10) := by
  rw [after_ops]; simp (disch := decide) only [keepH, keepGb, keepGa, keepE, keepD, keepCb, keepCa, keepB, keepA]
theorem val_arg11 (V : 𝕍) : after (ops (F := Ideal)) V (Proc.devRef .tc main_arg11) = V (Proc.devRef .tc main_arg11) := by
  rw [after_ops]; simp (disch := decide) only [keepH, keepGb, keepGa, keepE, keepD, keepCb, keepCa, keepB, keepA]
theorem val_arg12 (V : 𝕍) : after (ops (F := Ideal)) V (Proc.devRef .tc main_arg12) = V (Proc.devRef .tc main_arg12) := by
  rw [after_ops]; simp (disch := decide) only [keepH, keepGb, keepGa, keepE, keepD, keepCb, keepCa, keepB, keepA]
theorem val_arg13 (V : 𝕍) : after (ops (F := Ideal)) V (Proc.devRef .tc main_arg13) = V (Proc.devRef .tc main_arg13) := by
  rw [after_ops]; simp (disch := decide) only [keepH, keepGb, keepGa, keepE, keepD, keepCb, keepCa, keepB, keepA]
theorem val_arg14 (V : 𝕍) : after (ops (F := Ideal)) V (Proc.devRef .tc main_arg14) = V (Proc.devRef .tc main_arg14) := by
  rw [after_ops]; simp (disch := decide) only [keepH, keepGb, keepGa, keepE, keepD, keepCb, keepCa, keepB, keepA]
theorem val_arg15 (V : 𝕍) : after (ops (F := Ideal)) V (Proc.devRef .tc main_arg15) = V (Proc.devRef .tc main_arg15) := by
  rw [after_ops]; simp (disch := decide) only [keepH, keepGb, keepGa, keepE, keepD, keepCb, keepCa, keepB, keepA]
theorem val_arg16 (V : 𝕍) : after (ops (F := Ideal)) V (Proc.devRef .tc main_arg16) = V (Proc.devRef .tc main_arg16) := by
  rw [after_ops]; simp (disch := decide) only [keepH, keepGb, keepGa, keepE, keepD, keepCb, keepCa, keepB, keepA]
theorem val_arg17 (V : 𝕍) : after (ops (F := Ideal)) V (Proc.devRef .tc main_arg17) = V (Proc.devRef .tc main_arg17) := by
  rw [after_ops]; simp (disch := decide) only [keepH, keepGb, keepGa, keepE, keepD, keepCb, keepCa, keepB, keepA]

/-! ## The run -/

/-- On every device, from any memory with zero counters: every weakly fair execution of the reference program
    terminates with its two results at `outU` and `outI` of the argument arrays and the argument arrays unchanged. -/
theorem run_val (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v129) = outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v105) = outI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run (Cert.ReferenceIdeal.defs (F := Ideal)) _ _).mono
    (fun _ h c => ⟨(h c main_v129).trans (val_v129 (launchContents m c)),
      (h c main_v105).trans (val_v105 (launchContents m c)),
      (h c main_arg0).trans (val_arg0 (launchContents m c)),
      (h c main_arg1).trans (val_arg1 (launchContents m c)),
      (h c main_arg2).trans (val_arg2 (launchContents m c)),
      (h c main_arg3).trans (val_arg3 (launchContents m c)),
      (h c main_arg4).trans (val_arg4 (launchContents m c)),
      (h c main_arg5).trans (val_arg5 (launchContents m c)),
      (h c main_arg6).trans (val_arg6 (launchContents m c)),
      (h c main_arg7).trans (val_arg7 (launchContents m c)),
      (h c main_arg8).trans (val_arg8 (launchContents m c)),
      (h c main_arg9).trans (val_arg9 (launchContents m c)),
      (h c main_arg10).trans (val_arg10 (launchContents m c)),
      (h c main_arg11).trans (val_arg11 (launchContents m c)),
      (h c main_arg12).trans (val_arg12 (launchContents m c)),
      (h c main_arg13).trans (val_arg13 (launchContents m c)),
      (h c main_arg14).trans (val_arg14 (launchContents m c)),
      (h c main_arg15).trans (val_arg15 (launchContents m c)),
      (h c main_arg16).trans (val_arg16 (launchContents m c)),
      (h c main_arg17).trans (val_arg17 (launchContents m c))⟩)
    (HandRun.run m ρ)

end Cert.Hrgcn.Ref

end
-- ==== Proof.BridgeLaw.lean ====
/-
  The one law that joins the two programs: scaling by a guarded reciprocal is a guarded division.

  For a degree c and a value s on the extended reals, with y = max(c, 1):  s · (1/y if c > 0, else 0) equals
  (s / y if c > 0, else 0).  Since y ≥ 1 it is never zero, so division by y is multiplication by y⁻¹ for every extended
  real s, the infinities included, and 1/y = y⁻¹; where c > 0 fails both sides are 0 because s · 0 = 0.
  No finiteness of s or c is used.
-/
import Idealize.ShloMosaic.PureOps.Ideal
import Idealize.ShloMosaic.PureOps.Ideal.Laws
import Idealize.ShloMosaic.Lib.IdealHost

noncomputable section

namespace Cert.Hrgcn

open Idealize.ShloMosaic

/-- Off zero, the ideal quotient is the product with the inverse. -/
theorem div_of_ne {x y : EReal} (hy : y ≠ 0) : Ideal.div x y = x * y⁻¹ := by
  rw [Ideal.div, if_neg hy]

/-- A maximum with one is not zero. -/
theorem max_one_ne_zero (c : EReal) : max c 1 ≠ 0 :=
  ne_of_gt (lt_of_lt_of_le zero_lt_one (le_max_right c 1))

/-- Scaling by the guarded reciprocal is the guarded division. -/
theorem scale_guarded (s c : EReal) :
    s * Scalar.select (Ideal.cmp .ogt c 0) (Ideal.div 1 (max c 1)) 0
      = Scalar.select (Ideal.cmp .ogt c 0) (Ideal.div s (max c 1)) 0 := by
  unfold Scalar.select
  by_cases h : Ideal.cmp .ogt c 0 = 1
  · rw [if_pos h, if_pos h, div_of_ne (max_one_ne_zero c), div_of_ne (max_one_ne_zero c), one_mul]
  · rw [if_neg h, if_neg h, mul_zero]

end Cert.Hrgcn

end
-- ==== Proof.LibColumnCast.lean ====
import Idealize.ShloMosaic.Lib.Pipeline.Value
import Idealize.ShloMosaic.Lib.ValueIdx

/-!
# A vector recast as a column, and back, read at an index

Recasting a vector `[N]` as a column `[N, 1]` (or a column as a vector) keeps the row-major order,
so entry `(n, 0)` of the column is entry `n` of the vector.
-/

noncomputable section

namespace LibColumnCast

open Idealize.ShloMosaic Idealize.ShloMosaic.ValueIdx

variable {α : Type}

/-- A vector `[N]` recast as a column `[N, 1]`, read at `(n, z)`, is the vector at `n`. -/
theorem shapeCast_col_apply {N : Nat} (h : (⟨1, ![N]⟩ : Shape).ShapeCasts ⟨2, ![N, 1]⟩)
    (x : (⟨1, ![N]⟩ : Shape).Idx → α) (n : Fin N) (z : Fin 1) :
    shapeCast ⟨2, ![N, 1]⟩ x h (ix2 n z) = x (ix1 n) := by
  refine shapeCast_apply x h (ix2 n z) (ix1 n) ?_
  rw [Shape.rowMajor_val_one, Shape.rowMajor_val_two]
  show n.val = n.val * 1 + z.val
  have := z.isLt
  omega

/-- A column `[N, 1]` recast as a vector `[N]`, read at `n`, is the column at `(n, 0)`. -/
theorem shapeCast_flat_apply {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h (ix1 n) (ix2 n (0 : Fin 1)) ?_
  rw [Shape.rowMajor_val_one, Shape.rowMajor_val_two]
  show n.val * 1 + 0 = n.val
  omega

end LibColumnCast

end
-- ==== Proof.Bridge.lean ====
/-
  The kernel's node update equals the reference's, as whole-array functions.

  Entry (p, q) of the kernel's update is s(p,q)·g(p) + (x·W)(p,q) + b(q) with g the guarded reciprocal of the in-degree
  c(p); the reference's is (s(p,q) / max(c(p),1) where c(p) > 0, else 0) + (x·W)(p,q) + b(q).  They agree by the law
  `scale_guarded`; the rest is reading the layout operations (a vector as a column or as a row, a column spread along
  the rows, a scalar spread everywhere) at an index.
-/
import proofs.«155910_j7129645711537_2_alg».proof.Proof.Spec
import proofs.«155910_j7129645711537_2_alg».proof.Proof.BridgeLaw
import proofs.«155910_j7129645711537_2_alg».proof.Proof.LibColumnCast
import Idealize.ShloMosaic.Lib.Pipeline.Value
import Idealize.ShloMosaic.Lib.ValueIdx
import Idealize.ShloMosaic.Lib.IdealHost

noncomputable section

namespace Cert.Hrgcn

open Idealize.ShloMosaic Idealize.ShloMosaic.ValueIdx Cert.Rgcn

variable {M K N : Nat}

/-- With the bias vector laid out as one row, the row-bias affine map is the affine map. -/
theorem linRow_rowCast (x : FVec Ideal ⟨2, ![M, K]⟩ .f32) (w : FVec Ideal ⟨2, ![K, N]⟩ .f32)
    (b : FVec Ideal ⟨1, ![N]⟩ .f32) (h : (⟨1, ![N]⟩ : Shape).ShapeCasts ⟨2, ![1, N]⟩) :
    linRow x w (shapeCast ⟨2, ![1, N]⟩ b h) = affine x w b := by
  funext j
  obtain ⟨p, q, rfl⟩ : ∃ (p : Fin M) (q : Fin N), j = ix2 p q := ⟨j 0, j 1, eq_ix2 j⟩
  rw [linRow_apply, affine_apply, shapeCast_addUnit_apply ![N] b h (ix2 (0 : Fin 1) q)]
  exact congrArg (fun t => (∑ k : Fin K, x (ix2 p k) * w (ix2 k q)) + b t)
    (funext fun d => by match d with | ⟨0, _⟩ => rfl)

/-- A vector as a column, spread along the rows, read at (p, q): the vector's entry p. -/
theorem colSpread_apply {α : Type} (v : (⟨1, ![M]⟩ : Shape).Idx → α)
    (hc : (⟨1, ![M]⟩ : Shape).BroadcastsInDim ⟨2, ![M, 1]⟩ ![0])
    (hb : (⟨2, ![M, 1]⟩ : Shape).BroadcastsInDim ⟨2, ![M, N]⟩ ![0, 1]) (p : Fin M) (q : Fin N) :
    broadcastInDim ⟨2, ![M, N]⟩ ![0, 1] hb (broadcastInDim ⟨2, ![M, 1]⟩ ![0] hc v) (ix2 p q) = v (ix1 p) := by
  rw [broadcastInDim_apply ![0, 1] hb _ (ix2 p q) (ix2 p (0 : Fin 1)) (fun a => by
    match a with
    | ⟨0, _⟩ =>
      show p.val = if M = 1 then 0 else p.val
      split
      · have := p.isLt; omega
      · rfl
    | ⟨1, _⟩ => rfl)]
  rw [broadcastInDim_apply ![0] hc v (ix2 p (0 : Fin 1)) (ix1 p) (fun a => by
    match a with
    | ⟨0, _⟩ =>
      show p.val = if M = 1 then 0 else p.val
      split
      · have := p.isLt; omega
      · rfl)]

/-- A scalar spread over any shape reads as the scalar. -/
theorem scalarSpread_apply {α : Type} {t : Shape} (z : (⟨0, ![]⟩ : Shape).Idx → α)
    (h : (⟨0, ![]⟩ : Shape).BroadcastsInDim t ![]) (j : t.Idx) :
    broadcastInDim t ![] h z j = z ix0 := by
  rw [broadcastInDim_apply ![] h z j ix0 (fun a => a.elim0)]

/-- A column spread along the rows, read at (p, q): the column's entry p. -/
theorem spreadRows_apply {α : Type} (y : (⟨2, ![M, 1]⟩ : Shape).Idx → α)
    (hb : (⟨2, ![M, 1]⟩ : Shape).BroadcastsInDim ⟨2, ![M, N]⟩ ![0, 1]) (p : Fin M) (q : Fin N) :
    broadcastInDim ⟨2, ![M, N]⟩ ![0, 1] hb y (ix2 p q) = y (ix2 p (0 : Fin 1)) := by
  rw [broadcastInDim_apply ![0, 1] hb y (ix2 p q) (ix2 p (0 : Fin 1)) (fun a => by
    match a with
    | ⟨0, _⟩ =>
      show p.val = if M = 1 then 0 else p.val
      split
      · have := p.isLt; omega
      · rfl
    | ⟨1, _⟩ => rfl)]

/-- A vector laid out as a column by a broadcast, read at (p, 0): the vector's entry p. -/
theorem asCol_apply {α : Type} (v : (⟨1, ![M]⟩ : Shape).Idx → α)
    (hc : (⟨1, ![M]⟩ : Shape).BroadcastsInDim ⟨2, ![M, 1]⟩ ![0]) (p : Fin M) :
    broadcastInDim ⟨2, ![M, 1]⟩ ![0] hc v (ix2 p (0 : Fin 1)) = v (ix1 p) := by
  rw [broadcastInDim_apply ![0] hc v (ix2 p (0 : Fin 1)) (ix1 p) (fun a => by
    match a with
    | ⟨0, _⟩ =>
      show p.val = if M = 1 then 0 else p.val
      split
      · have := p.isLt; omega
      · rfl)]

theorem hostDivf_apply {s : Shape} (a b : FVec Ideal s .f32) (i : s.Idx) :
    Host.divf a b i = Ideal.div (a i) (b i) := rfl

/-- The kernel's node update — the aggregated messages scaled by the guarded reciprocal of the in-degree, held as a
    column, plus the affine self transform with its bias held as a row — is the reference's guarded mean plus the
    affine self transform. -/
theorem comb_eq_mean (s : FVec Ideal ⟨2, ![M, N]⟩ .f32) (c : FVec Ideal ⟨1, ![M]⟩ .f32)
    (x : FVec Ideal ⟨2, ![M, K]⟩ .f32) (w : FVec Ideal ⟨2, ![K, N]⟩ .f32) (b : FVec Ideal ⟨1, ![N]⟩ .f32)
    (hcol : (⟨1, ![M]⟩ : Shape).ShapeCasts ⟨2, ![M, 1]⟩) (hrow : (⟨1, ![N]⟩ : Shape).ShapeCasts ⟨2, ![1, N]⟩)
    (hs1 : (⟨0, ![]⟩ : Shape).BroadcastsInDim ⟨1, ![M]⟩ ![])
    (hc : (⟨1, ![M]⟩ : Shape).BroadcastsInDim ⟨2, ![M, 1]⟩ ![0])
    (hb : (⟨2, ![M, 1]⟩ : Shape).BroadcastsInDim ⟨2, ![M, N]⟩ ![0, 1])
    (hz1 : (⟨0, ![]⟩ : Shape).BroadcastsInDim ⟨2, ![M, 1]⟩ ![])
    (hz2 : (⟨0, ![]⟩ : Shape).BroadcastsInDim ⟨2, ![M, N]⟩ ![]) :
    comb s (shapeCast ⟨2, ![M, 1]⟩
        (select (cmpf .ogt c (broadcastInDim ⟨1, ![M]⟩ ![] hs1 (constant (F := Ideal) ⟨0, ![]⟩ .f32 0x00000000#32)))
          (Host.divf (broadcastInDim ⟨1, ![M]⟩ ![] hs1 (constant (F := Ideal) ⟨0, ![]⟩ .f32 0x3F800000#32))
            (maximumf c (broadcastInDim ⟨1, ![M]⟩ ![] hs1 (constant (F := Ideal) ⟨0, ![]⟩ .f32 0x3F800000#32))))
          (broadcastInDim ⟨1, ![M]⟩ ![] hs1 (id (constant (F := Ideal) ⟨0, ![]⟩ .f32 0x00000000#32)))) hcol)
      x w (shapeCast ⟨2, ![1, N]⟩ b hrow)
    = addf
        (select
          (broadcastInDim ⟨2, ![M, N]⟩ ![0, 1] hb (cmpf .ogt (broadcastInDim ⟨2, ![M, 1]⟩ ![0] hc c)
            (broadcastInDim ⟨2, ![M, 1]⟩ ![] hz1 (constant (F := Ideal) ⟨0, ![]⟩ .f32 0x00000000#32))))
          (Host.divf s (broadcastInDim ⟨2, ![M, N]⟩ ![0, 1] hb (broadcastInDim ⟨2, ![M, 1]⟩ ![0] hc
            (maximumf c (broadcastInDim ⟨1, ![M]⟩ ![] hs1 (constant (F := Ideal) ⟨0, ![]⟩ .f32 0x3F800000#32))))))
          (broadcastInDim ⟨2, ![M, N]⟩ ![] hz2 (id (constant (F := Ideal) ⟨0, ![]⟩ .f32 0x00000000#32))))
        (affine x w b) := by
  funext j
  obtain ⟨p, q, rfl⟩ : ∃ (p : Fin M) (q : Fin N), j = ix2 p q := ⟨j 0, j 1, eq_ix2 j⟩
  rw [comb_apply, addf_apply, affine_apply, shapeCast_addUnit_apply ![N] b hrow (ix2 (0 : Fin 1) q),
    LibColumnCast.shapeCast_col_apply hcol _ p (0 : Fin 1)]
  simp only [select_apply, cmpf_apply, maximumf_apply, hostDivf_apply, id, Ideal.cmpf_def]
  repeat rw [spreadRows_apply]
  simp only [cmpf_apply, Ideal.cmpf_def]
  repeat rw [asCol_apply]
  simp only [maximumf_apply]
  repeat rw [scalarSpread_apply]
  simp only [constant_apply, Ideal.ofBits_zero_f32, Ideal.ofBits_one_f32]
  rw [scale_guarded]
  exact congrArg (fun t => Scalar.select (Ideal.cmp .ogt (c (ix1 p)) 0) (Ideal.div (s (ix2 p q)) (max (c (ix1 p)) 1)) 0
      + ((∑ k : Fin K, x (ix2 p k) * w (ix2 k q)) + b t))
    (funext fun d => by match d with | ⟨0, _⟩ => rfl)

/-- The leaky rectifier in the host's form: a select on h ≥ 0 between h and the slope times h. -/
theorem leaky_eq_select {S : Shape} (h : FVec Ideal S .f32) (hz : (⟨0, ![]⟩ : Shape).BroadcastsInDim S ![]) :
    leaky h = select (cmpf .oge h (broadcastInDim S ![] hz (constant (F := Ideal) ⟨0, ![]⟩ .f32 0x00000000#32))) h
      (mulf (broadcastInDim S ![] hz (id (constant (F := Ideal) ⟨0, ![]⟩ .f32 0x3C23D70A#32))) h) := by
  funext j
  simp only [leaky, select_apply, cmpf_apply, mulf_apply, id, Ideal.cmpf_def]
  repeat rw [scalarSpread_apply]
  simp only [constant_apply]

end Cert.Hrgcn

end
-- ==== Proof.BridgeTop.lean ====
/-
  The two programs' results are the same functions of the argument arrays.

  Both apply the same gathers, scatter-adds and degree counts; they differ in where the affine transforms and the
  node updates are computed (kernel regions against host operations) and in how the mean is taken (a product with the
  guarded reciprocal against a guarded division).  The affine transforms agree because a matrix product at the ideal
  instance is the sum over the contracted axis on both sides; the node updates agree by `comb_eq_mean`; the rectifier
  is the same select.  Rewriting the kernel's composition with these gives the reference's.
-/
import proofs.«155910_j7129645711537_2_alg».proof.Proof.KernelTerms
import proofs.«155910_j7129645711537_2_alg».proof.Proof.RefTerms
import proofs.«155910_j7129645711537_2_alg».proof.Proof.Bridge
import proofs.«155910_j7129645711537_2_alg».proof.Proof.LibDenseForms

noncomputable section

namespace Cert.Hrgcn

open Idealize.ShloMosaic Cert.Rgcn

/-! ## The shared host pieces: the two programs' dimension records are the same records -/

theorem cnt_eq (d : IVec Cert.KernelIdeal.S500000 32) : Ker.cnt d = Ref.cntOf d := rfl
theorem agg128_eq (wh : FVec Ideal Cert.KernelIdeal.S100000x128 .f32) (s d : IVec Cert.KernelIdeal.S500000 32) :
    Ker.agg128 wh s d = Ref.agg128 wh s d := rfl
theorem agg64_eq (wh : FVec Ideal Cert.KernelIdeal.S100000x64 .f32) (s d : IVec Cert.KernelIdeal.S500000 32) :
    Ker.agg64 wh s d = Ref.agg64 wh s d := rfl

/-! ## The affine transforms -/

theorem hostAffine128_eq (x : FVec Ideal ⟨2, ![100000, 128]⟩ .f32) (w : FVec Ideal ⟨2, ![128, 128]⟩ .f32)
    (b : FVec Ideal ⟨1, ![128]⟩ .f32) : Ref.hostAffine128 x w b = affine x w b :=
  hostAffine_eq Cert.ReferenceIdeal.dot_S100000x128_S128x128_S100000x128_1_0_0_1_n_n rfl rfl rfl rfl rfl rfl rfl rfl
    none _ x w b _ _

theorem hostAffine64_eq (x : FVec Ideal ⟨2, ![100000, 128]⟩ .f32) (w : FVec Ideal ⟨2, ![128, 64]⟩ .f32)
    (b : FVec Ideal ⟨1, ![64]⟩ .f32) : Ref.hostAffine64 x w b = affine x w b :=
  hostAffine_eq Cert.ReferenceIdeal.dot_S100000x128_S128x64_S100000x64_1_0_0_1_n_n rfl rfl rfl rfl rfl rfl rfl rfl
    none _ x w b _ _

theorem lin128_eq (x : FVec Ideal ⟨2, ![100000, 128]⟩ .f32) (w : FVec Ideal ⟨2, ![128, 128]⟩ .f32)
    (b : FVec Ideal ⟨1, ![128]⟩ .f32) : linRow x w (Ker.row128 b) = Ref.hostAffine128 x w b :=
  (linRow_rowCast x w b _).trans (hostAffine128_eq x w b).symm

theorem lin64_eq (x : FVec Ideal ⟨2, ![100000, 128]⟩ .f32) (w : FVec Ideal ⟨2, ![128, 64]⟩ .f32)
    (b : FVec Ideal ⟨1, ![64]⟩ .f32) : linRow x w (Ker.row64 b) = Ref.hostAffine64 x w b :=
  (linRow_rowCast x w b _).trans (hostAffine64_eq x w b).symm

/-! ## The node updates -/

theorem comb128_eq (s : FVec Ideal ⟨2, ![100000, 128]⟩ .f32) (c : FVec Ideal ⟨1, ![100000]⟩ .f32)
    (x : FVec Ideal ⟨2, ![100000, 128]⟩ .f32) (w : FVec Ideal ⟨2, ![128, 128]⟩ .f32) (b : FVec Ideal ⟨1, ![128]⟩ .f32) :
    comb s (Ker.col (Ker.inv c)) x w (Ker.row128 b)
      = addf (F := Ideal) (φ := .f32) (Ref.mean128 c s) (Ref.hostAffine128 x w b) := by
  rw [hostAffine128_eq]
  exact comb_eq_mean s c x w b _ _ _ _ _ _ _

theorem comb64_eq (s : FVec Ideal ⟨2, ![100000, 64]⟩ .f32) (c : FVec Ideal ⟨1, ![100000]⟩ .f32)
    (x : FVec Ideal ⟨2, ![100000, 128]⟩ .f32) (w : FVec Ideal ⟨2, ![128, 64]⟩ .f32) (b : FVec Ideal ⟨1, ![64]⟩ .f32) :
    comb s (Ker.col (Ker.inv c)) x w (Ker.row64 b)
      = addf (F := Ideal) (φ := .f32) (Ref.mean64 c s) (Ref.hostAffine64 x w b) := by
  rw [hostAffine64_eq]
  exact comb_eq_mean s c x w b _ _ _ _ _ _ _

theorem leaky128_eq (h : FVec Ideal ⟨2, ![100000, 128]⟩ .f32) : leaky h = Ref.leakyRef h :=
  leaky_eq_select h _

/-! ## The results -/

section
variable (a0 a1 : FVec Ideal ⟨2, ![100000, 128]⟩ .f32) (a2 : FVec Ideal ⟨2, ![128, 128]⟩ .f32) (a3 : FVec Ideal ⟨1, ![128]⟩ .f32)
  (a4 : FVec Ideal ⟨2, ![128, 128]⟩ .f32) (a5 : FVec Ideal ⟨1, ![128]⟩ .f32) (a6 : FVec Ideal ⟨2, ![128, 128]⟩ .f32)
  (a7 : FVec Ideal ⟨1, ![128]⟩ .f32) (a8 : FVec Ideal ⟨2, ![128, 64]⟩ .f32) (a9 : FVec Ideal ⟨1, ![64]⟩ .f32)
  (a10 : FVec Ideal ⟨2, ![128, 64]⟩ .f32) (a11 : FVec Ideal ⟨1, ![64]⟩ .f32) (a12 : FVec Ideal ⟨2, ![128, 64]⟩ .f32)
  (a13 : FVec Ideal ⟨1, ![64]⟩ .f32) (a14 a15 a16 a17 : IVec ⟨1, ![500000]⟩ 32)

theorem h1u_eq : Ker.h1u a0 a1 a2 a3 a6 a7 a16 a17 = Ref.h1u a0 a1 a2 a3 a6 a7 a16 a17 := by
  unfold Ker.h1u Ref.h1u
  rw [comb128_eq, leaky128_eq, lin128_eq, agg128_eq, cnt_eq]

theorem h1i_eq : Ker.h1i a0 a1 a2 a3 a4 a5 a14 a15 = Ref.h1i a0 a1 a2 a3 a4 a5 a14 a15 := by
  unfold Ker.h1i Ref.h1i
  rw [comb128_eq, leaky128_eq, lin128_eq, agg128_eq, cnt_eq]

theorem outU_eq : Ker.outU a0 a1 a2 a3 a4 a5 a6 a7 a8 a9 a12 a13 a14 a15 a16 a17
    = Ref.outU a0 a1 a2 a3 a4 a5 a6 a7 a8 a9 a12 a13 a14 a15 a16 a17 := by
  unfold Ker.outU Ref.outU
  rw [comb64_eq, lin64_eq, agg64_eq, cnt_eq, h1u_eq, h1i_eq]

theorem outI_eq : Ker.outI a0 a1 a2 a3 a4 a5 a6 a7 a8 a9 a10 a11 a14 a15 a16 a17
    = Ref.outI a0 a1 a2 a3 a4 a5 a6 a7 a8 a9 a10 a11 a14 a15 a16 a17 := by
  unfold Ker.outI Ref.outI
  rw [comb64_eq, lin64_eq, agg64_eq, cnt_eq, h1u_eq, h1i_eq]
end

end Cert.Hrgcn

end
-- ==== Proof.lean ====
/-
  The certificate of a two-layer relational graph convolution over two node types (users, items) and two edge types:
  the kernel program (per-relation affine transforms and fused node updates as kernel regions, gathers and scatter-adds
  on the host) against the plain array reference.

  Each layer sends every source node's transformed features x·W_rel + b_rel along the edges, averages what arrives at a
  node (0 for a node with no incoming edge), and adds the node's own transform x·W_0 + b_0; the first layer is followed
  by the leaky rectifier.  The kernel computes the average as (sum of arrivals) · (1 / max(deg, 1) if deg > 0, else 0),
  with the reciprocal computed once per edge type; the reference as (sum / max(deg, 1)) if deg > 0, else 0.  On the
  extended reals these agree for every value of the sum, because max(deg, 1) is never 0: division by it is the product
  with its inverse.  So the claim needs no finiteness of the inputs, and the precondition is never opened.

  The three frames: the two kernel programs' are the generated ones; the reference's is its run with the results
  dropped.  `preserves` is trivial (the idealization rewrote nothing).  `algebraic`: the kernel program's run ends with
  its two results at the fold's contents, read back to `Ker.outU` / `Ker.outI` of the argument arrays; the reference's
  run ends at `Ref.outU` / `Ref.outI`; and these are equal functions.
-/
import proofs.«155910_j7129645711537_2_alg».proof.Defs
import proofs.«155910_j7129645711537_2_alg».proof.Proof.Gen.Kernel
import proofs.«155910_j7129645711537_2_alg».proof.Proof.Gen.Kernel.Frame
import proofs.«155910_j7129645711537_2_alg».proof.Proof.Gen.KernelIdeal
import proofs.«155910_j7129645711537_2_alg».proof.Proof.Gen.KernelIdeal.Frame
import proofs.«155910_j7129645711537_2_alg».proof.Proof.Gen.ReferenceIdeal
import proofs.«155910_j7129645711537_2_alg».proof.Proof.Gen.Pre_finite_inputs
import proofs.«155910_j7129645711537_2_alg».proof.Proof.KernelRun
import proofs.«155910_j7129645711537_2_alg».proof.Proof.KernelChain
import proofs.«155910_j7129645711537_2_alg».proof.Proof.RefValue
import proofs.«155910_j7129645711537_2_alg».proof.Proof.BridgeTop

noncomputable section

namespace Cert.Proof

open Idealize.ShloMosaic Idealize.SL.Sem Cert.Hrgcn

theorem frame_k : Cert.frame_Kernel := fun m ρ _ => Cert.Kernel.Gen.frame m ρ
theorem frame_ki : Cert.frame_KernelIdeal := fun m ρ _ => Cert.KernelIdeal.Gen.frame m ρ
/-- The reference's frame: its run with the two results dropped. -/
theorem frame_ri : Cert.frame_ReferenceIdeal := fun m ρ _ =>
  (θ_run Cert.ReferenceIdeal.defs _ _).mono (fun _ h c => (h c).2.2) (Cert.Hrgcn.Ref.run_val m ρ)

set_option maxHeartbeats 1600000 in
/-- Both programs end with the same two arrays: the kernel's at `Ker.outU` / `Ker.outI` of its arguments, the
    reference's at `Ref.outU` / `Ref.outI` of arguments that agree with them, and the two pairs are equal functions. -/
theorem algebraic : Cert.algebraic_KernelIdeal_ReferenceIdeal := by
  intro m ρ m' ρ' _ hagree
  refine ⟨fun c => Ker.outU (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Ker.outI (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.KernelIdeal.Named.W20_v81 m ρ c),
        (h c).2.1.trans (Cert.KernelIdeal.Named.W20_v78 m ρ c), (h c).2.2⟩)
      (Cert.KernelIdeal.Named.run_named m ρ)
  · refine (θ_run Cert.ReferenceIdeal.defs _ _).mono (fun _ h c => ⟨(h c).1.trans ?_, (h c).2.1.trans ?_, (h c).2.2⟩)
      (Cert.Hrgcn.Ref.run_val m' ρ')
    · obtain ⟨e0, e1, e2, e3, e4, e5, e6, e7, e8, e9, e10, e11, e12, e13, e14, e15, e16, e17⟩ := hagree c
      rw [e0, e1, e2, e3, e4, e5, e6, e7, e8, e9, e12, e13, e14, e15, e16, e17]
      exact (outU_eq _ _ _ _ _ _ _ _ _ _ _ _ _ _ _ _).symm
    · obtain ⟨e0, e1, e2, e3, e4, e5, e6, e7, e8, e9, e10, e11, e12, e13, e14, e15, e16, e17⟩ := hagree c
      rw [e0, e1, e2, e3, e4, e5, e6, e7, e8, e9, e10, e11, e14, e15, e16, e17]
      exact (outI_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
